-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v112) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v149) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S5x128x128 : Shape := ⟨3, ![5, 128, 128]⟩
abbrev S128x256 : Shape := ⟨2, ![128, 256]⟩
abbrev S256 : Shape := ⟨1, ![256]⟩
abbrev S256x2 : Shape := ⟨2, ![256, 2]⟩
abbrev S2 : Shape := ⟨1, ![2]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S5x128x128 : S_.BroadcastsInDim S5x128x128 (![] : Fin 0 → Fin S5x128x128.rank)
  reducesTo_S5x128x128_S_d0_1_2 : S5x128x128.ReducesTo [0, 1, 2] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x2 : S_.BroadcastsInDim S256x2 (![] : Fin 0 → Fin S256x2.rank)
  reducesTo_S256x2_S_d0_1 : S256x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S256x2 .f32) (main_arg6 : FVec F S2 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x2 .f32 := Host.absf main_arg5
  let main_cst_6 : FVec F S_ .f32 := constant S_ .f32 0x7F800000#32
  let main_v20 : FVec F S256x2 .f32 := broadcastInDim S256x2 ![] bcast_S_S256x2 main_cst_6
  let main_v21 : IVec S256x2 1 := cmpf .olt main_v19 main_v20
  let main_c_7 : IVec S_ 1 := constantI S_ 1 1#1
  let main_v22 : IVec S_ 1 := (fun x v => Host.reduce IntOp.andi x v reducesTo_S256x2_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  main_v28

def fn {F : FTy → Type} [FloatOps F] (main_arg0 : FVec F S50000x128 .f32) (main_arg1 : IVec S2x800000 32) (main_arg2 : FVec F S5x128x128 .f32) (main_arg3 : FVec F S128x256 .f32) (main_arg4 : FVec F S256 .f32) (main_arg5 : FVec F S256x2 .f32) (main_arg6 : FVec F S2 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S5x128x128 .f32 := Host.absf main_arg2
  let main_cst_0 : FVec F S_ .f32 := constant S_ .f32 0x7F800000#32
  let main_v5 : FVec F S5x128x128 .f32 := broadcastInDim S5x128x128 ![] bcast_S_S5x128x128 main_cst_0
  let main_v6 : IVec S5x128x128 1 := cmpf .olt main_v4 main_v5
  let main_c_1 : IVec S_ 1 := constantI S_ 1 1#1
  let main_v7 : IVec S_ 1 := (fun x v => Host.reduce IntOp.andi x v reducesTo_S5x128x128_S_d0_1_2 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S50000x128 : Shape := ⟨2, ![50000, 128]⟩
abbrev S2x800000 : Shape := ⟨2, ![2, 800000]⟩
abbrev S5x128x128 : Shape := ⟨3, ![5, 128, 128]⟩
abbrev S128x256 : Shape := ⟨2, ![128, 256]⟩
abbrev S256 : Shape := ⟨1, ![256]⟩
abbrev S256x2 : Shape := ⟨2, ![256, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128x128 : Shape := ⟨3, ![1, 128, 128]⟩
abbrev S128x128 : Shape := ⟨2, ![128, 128]⟩
abbrev S2000x128 : Shape := ⟨2, ![2000, 128]⟩
abbrev S50000x2 : Shape := ⟨2, ![50000, 2]⟩
abbrev S2000x2 : Shape := ⟨2, ![2000, 2]⟩
abbrev S2000x256 : Shape := ⟨2, ![2000, 256]⟩
abbrev S1x256 : Shape := ⟨2, ![1, 256]⟩
abbrev S1x2 : Shape := ⟨2, ![1, 2]⟩

abbrev nBuf : Space → Nat
  | .hbm => 146
  | .vmem => 43
  | .smem => 0
  | _ => 0

abbrev hbmTy0_0 (i : Nat) : BufTy := match i % 128 with
  | 0 => ⟨S50000x128, .f32⟩
  | 1 => ⟨S2x800000, .i32⟩
  | 2 => ⟨S5x128x128, .f32⟩
  | 3 => ⟨S128x256, .f32⟩
  | 4 => ⟨S256, .f32⟩
  | 5 => ⟨S256x2, .f32⟩
  | 6 => ⟨S2, .f32⟩
  | 7 => ⟨S50000, .i32⟩
  | 8 => ⟨S1x800000, .i32⟩
  | 9 => ⟨S800000, .i32⟩
  | 10 => ⟨S850000, .i32⟩
  | 11 => ⟨S1x800000, .i32⟩
  | 12 => ⟨S800000, .i32⟩
  | 13 => ⟨S850000, .i32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S850000x1, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x128, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S1x128x128, .f32⟩
  | 67 => ⟨S128x128, .f32⟩
  | 68 => ⟨S50000x128, .f32⟩
  | 69 => ⟨S850000x1, .f32⟩
  | 70 => ⟨S_, .i32⟩
  | 71 => ⟨S850000, .i32⟩
  | 72 => ⟨S850000, .i1⟩
  | 73 => ⟨S_, .i32⟩
  | 74 => ⟨S850000, .i32⟩
  | 75 => ⟨S850000, .i32⟩
  | 76 => ⟨S850000, .i32⟩
  | 77 => ⟨S850000x1, .i32⟩
  | 78 => ⟨S850000x128, .f32⟩
  | 79 => ⟨S850000x128, .f32⟩
  | 80 => ⟨S850000x128, .f32⟩
  | 81 => ⟨S_, .f32⟩
  | 82 => ⟨S50000x128, .f32⟩
  | 83 => ⟨S850000x1, .i32⟩
  | 84 => ⟨S50000x128, .f32⟩
  | 85 => ⟨S1x128x128, .f32⟩
  | 86 => ⟨S128x128, .f32⟩
  | 87 => ⟨S50000x128, .f32⟩
  | 88 => ⟨S850000x1, .f32⟩
  | 89 => ⟨S_, .i32⟩
  | 90 => ⟨S850000, .i32⟩
  | 91 => ⟨S850000, .i1⟩
  | 92 => ⟨S_, .i32⟩
  | 93 => ⟨S850000, .i32⟩
  | 94 => ⟨S850000, .i32⟩
  | 95 => ⟨S850000, .i32⟩
  | 96 => ⟨S850000x1, .i32⟩
  | 97 => ⟨S850000x128, .f32⟩
  | 98 => ⟨S850000x128, .f32⟩
  | 99 => ⟨S850000x128, .f32⟩
  | 100 => ⟨S_, .f32⟩
  | 101 => ⟨S50000x128, .f32⟩
  | 102 => ⟨S850000x1, .i32⟩
  | 103 => ⟨S50000x128, .f32⟩
  | 104 => ⟨S1x128x128, .f32⟩
  | 105 => ⟨S128x128, .f32⟩
  | 106 => ⟨S50000x128, .f32⟩
  | 107 => ⟨S850000x1, .f32⟩
  | 108 => ⟨S_, .i32⟩
  | 109 => ⟨S850000, .i32⟩
  | 110 => ⟨S850000, .i1⟩
  | 111 => ⟨S_, .i32⟩
  | 112 => ⟨S850000, .i32⟩
  | 113 => ⟨S850000, .i32⟩
  | 114 => ⟨S850000, .i32⟩
  | 115 => ⟨S850000x1, .i32⟩
  | 116 => ⟨S850000x128, .f32⟩
  | 117 => ⟨S850000x128, .f32⟩
  | 118 => ⟨S850000x128, .f32⟩
  | 119 => ⟨S_, .f32⟩
  | 120 => ⟨S50000x128, .f32⟩
  | 121 => ⟨S850000x1, .i32⟩
  | 122 => ⟨S50000x128, .f32⟩
  | 123 => ⟨S1x128x128, .f32⟩
  | 124 => ⟨S128x128, .f32⟩
  | 125 => ⟨S50000x128, .f32⟩
  | 126 => ⟨S850000x1, .f32⟩
  | 127 => ⟨S_, .i32⟩
  | _ => ⟨S50000x128, .f32⟩

abbrev hbmTy0_1 (i : Nat) : BufTy := match i % 128 with
  | 0 => ⟨S850000, .i32⟩
  | 1 => ⟨S850000, .i1⟩
  | 2 => ⟨S_, .i32⟩
  | 3 => ⟨S850000, .i32⟩
  | 4 => ⟨S850000, .i32⟩
  | 5 => ⟨S850000, .i32⟩
  | 6 => ⟨S850000x1, .i32⟩
  | 7 => ⟨S850000x128, .f32⟩
  | 8 => ⟨S850000x128, .f32⟩
  | 9 => ⟨S850000x128, .f32⟩
  | 10 => ⟨S_, .f32⟩
  | 11 => ⟨S50000x128, .f32⟩
  | 12 => ⟨S850000x1, .i32⟩
  | 13 => ⟨S50000x128, .f32⟩
  | 14 => ⟨S1x128x128, .f32⟩
  | 15 => ⟨S128x128, .f32⟩
  | 16 => ⟨S50000x128, .f32⟩
  | 17 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S128x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S128x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x128, .f32⟩
  | .local _ .vmem, ⟨33, _⟩ => ⟨S2000x128, .f32⟩
  | .local _ .vmem, ⟨34, _⟩ => ⟨S2000x128, .f32⟩
  | .local _ .vmem, ⟨35, _⟩ => ⟨S2000x128, .f32⟩
  | .local _ .vmem, ⟨36, _⟩ => ⟨S2000x128, .f32⟩
  | .local _ .vmem, ⟨37, _⟩ => ⟨S128x256, .f32⟩
  | .local _ .vmem, ⟨38, _⟩ => ⟨S256, .f32⟩
  | .local _ .vmem, ⟨39, _⟩ => ⟨S256x2, .f32⟩
  | .local _ .vmem, ⟨40, _⟩ => ⟨S2, .f32⟩
  | .local _ .vmem, ⟨41, _⟩ => ⟨S2000x2, .f32⟩
  | .local _ .vmem, ⟨42, _⟩ => ⟨S2000x2, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_10 : Ref sig .tc := ⟨.hbm, 70, rfl⟩
abbrev main_v49 : Ref sig .tc := ⟨.hbm, 71, rfl⟩
abbrev main_v50 : Ref sig .tc := ⟨.hbm, 72, rfl⟩
abbrev main_c_11 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_c_13 : Ref sig .tc := ⟨.hbm, 89, rfl⟩
abbrev main_v65 : Ref sig .tc := ⟨.hbm, 90, rfl⟩
abbrev main_v66 : Ref sig .tc := ⟨.hbm, 91, rfl⟩
abbrev main_c_14 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_cst_15 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_c_16 : Ref sig .tc := ⟨.hbm, 108, rfl⟩
abbrev main_v81 : Ref sig .tc := ⟨.hbm, 109, rfl⟩
abbrev main_v82 : Ref sig .tc := ⟨.hbm, 110, rfl⟩
abbrev main_c_17 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_cst_18 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_c_19 : Ref sig .tc := ⟨.hbm, 127, rfl⟩
abbrev main_v97 : Ref sig .tc := ⟨.hbm, 128, rfl⟩
abbrev main_v98 : Ref sig .tc := ⟨.hbm, 129, rfl⟩
abbrev main_c_20 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_cst_21 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg2_0 : Ref sig .tc := ⟨.vmem, 38, rfl⟩
abbrev cc5_stg3_0 : Ref sig .tc := ⟨.vmem, 39, rfl⟩
abbrev cc5_stg4_0 : Ref sig .tc := ⟨.vmem, 40, rfl⟩
abbrev cc5_stg5_0 : Ref sig .tc := ⟨.vmem, 41, rfl⟩
abbrev cc5_stg5_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem1_1 : DmaSem sig := 31
abbrev cc4_sem2_0 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem2_0 : DmaSem sig := 38
abbrev cc5_sem3_0 : DmaSem sig := 39
abbrev cc5_sem4_0 : DmaSem sig := 40
abbrev cc5_sem5_0 : DmaSem sig := 41
abbrev cc5_sem5_1 : DmaSem sig := 42

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x256 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S256x2 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S2 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2000x2 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S5x128x128_S1x128x128_0_0_0 : S5x128x128.Slices ![0, 0, 0] S1x128x128
  shapeCasts_S1x128x128_S128x128 : S1x128x128.ShapeCasts S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S5x128x128_S1x128x128_1_0_0 : S5x128x128.Slices ![1, 0, 0] S1x128x128
  slices_S5x128x128_S1x128x128_2_0_0 : S5x128x128.Slices ![2, 0, 0] S1x128x128
  slices_S5x128x128_S1x128x128_3_0_0 : S5x128x128.Slices ![3, 0, 0] S1x128x128
  slices_S5x128x128_S1x128x128_4_0_0 : S5x128x128.Slices ![4, 0, 0] S1x128x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x2_S256x2_0_0 : ∀ a, (![0, 0] : Fin 2 → Nat) a + S256x2.size a ≤ S256x2.size a
  h_S256x2 : 0 < S256x2.numel
  inb_S2_S2_0 : ∀ a, (![0] : Fin 1 → Nat) a + S2.size a ≤ S2.size a
  h_S2 : 0 < S2.numel
  shapeCasts_S2_S1x2 : S2.ShapeCasts S1x2
  broadcasts_S1x2_S2000x2 : S1x2.Broadcasts S2000x2
  inb_S2000x2_S2000x2_0_0 : ∀ a, (![0, 0] : Fin 2 → Nat) a + S2000x2.size a ≤ S2000x2.size a
  h_S2000x2 : 0 < S2000x2.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x128_S2000x128_1_0_0_1_n_n_wf : DotDims.WF S2000x128 S128x128 S2000x128 [1] [0] [0] [1] [] []
  dot_S2000x128_S128x256_S2000x256_1_0_0_1_n_n_wf : DotDims.WF S2000x128 S128x256 S2000x256 [1] [0] [0] [1] [] []
  dot_S2000x256_S256x2_S2000x2_1_0_0_1_n_n_wf : DotDims.WF S2000x256 S256x2 S2000x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .f32 = 32 ∨ (Rect.block (s := S50000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2000x128.size a ≤ S50000x128.size a
  hwx4_1 : ∀ i : grid4.Coords, EltTy.bits .f32 = 32 ∨ (Rect.block (s := S50000x128) S2000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .f32 = 32 ∨ (Rect.block (s := S50000x128) S2000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x256.size a ≤ S128x256.size a
  hwx5_1 : ∀ i : grid5.Coords, EltTy.bits .f32 = 32 ∨ (Rect.block (s := S128x256) S128x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256.size a ≤ S256.size a
  hwx5_2 : ∀ i : grid5.Coords, EltTy.bits .f32 = 32 ∨ (Rect.block (s := S256) S256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S256x2.size a ≤ S256x2.size a
  hwx5_3 : ∀ i : grid5.Coords, EltTy.bits .f32 = 32 ∨ (Rect.block (s := S256x2) S256x2.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S2.size a ≤ S2.size a
  hwx5_4 : ∀ i : grid5.Coords, EltTy.bits .f32 = 32 ∨ (Rect.block (s := S2) S2.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2000x2.size a ≤ S50000x2.size a
  hwx5_5 : ∀ i : grid5.Coords, EltTy.bits .f32 = 32 ∨ (Rect.block (s := S50000x2) S2000x2.size (cc5_transform_5 i) (hinb5_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x2_S2000x2_1_0_0_1_n_n : DotDims S2000x256 S256x2 S2000x2 where
  lhsContracting := [1]
  rhsContracting := [0]
  lhsNonContracting := [0]
  rhsNonContracting := [1]
  lhsBatch := []
  rhsBatch := []
  wf := dot_S2000x256_S256x2_S2000x2_1_0_0_1_n_n_wf

abbrev win0_0 : Pipeline.Window sig grid0 :=
  Pipeline.Window.ofSpec (Memref.whole main_v44) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v46) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v47) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v60) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v62) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v63) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v76) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v78) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v79) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v92) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg0) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v94) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v95) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v108) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg0) S2000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v110) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v111) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v111) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg3) S128x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg4) S256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg5) S256x2.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg6) S2.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v112) S2000x2.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S5x128x128 : Shape := ⟨3, ![5, 128, 128]⟩
abbrev S128x256 : Shape := ⟨2, ![128, 256]⟩
abbrev S256 : Shape := ⟨1, ![256]⟩
abbrev S256x2 : Shape := ⟨2, ![256, 2]⟩
abbrev S2 : Shape := ⟨1, ![2]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128x128 : Shape := ⟨3, ![1, 128, 128]⟩
abbrev S128x128 : Shape := ⟨2, ![128, 128]⟩
abbrev S50000x256 : Shape := ⟨2, ![50000, 256]⟩
abbrev S1x256 : Shape := ⟨2, ![1, 256]⟩
abbrev S50000x2 : Shape := ⟨2, ![50000, 2]⟩
abbrev S1x2 : Shape := ⟨2, ![1, 2]⟩

abbrev nBuf : Space → Nat
  | .hbm => 228
  | .vmem => 0
  | .smem => 0
  | _ => 0

abbrev hbmTy0_0 (i : Nat) : BufTy := match i % 128 with
  | 0 => ⟨S50000x128, .f32⟩
  | 1 => ⟨S2x800000, .i32⟩
  | 2 => ⟨S5x128x128, .f32⟩
  | 3 => ⟨S128x256, .f32⟩
  | 4 => ⟨S256, .f32⟩
  | 5 => ⟨S256x2, .f32⟩
  | 6 => ⟨S2, .f32⟩
  | 7 => ⟨S50000, .i32⟩
  | 8 => ⟨S1x800000, .i32⟩
  | 9 => ⟨S800000, .i32⟩
  | 10 => ⟨S850000, .i32⟩
  | 11 => ⟨S1x800000, .i32⟩
  | 12 => ⟨S800000, .i32⟩
  | 13 => ⟨S850000, .i32⟩
  | 14 => ⟨S_, .f32⟩
  | 15 => ⟨S850000, .f32⟩
  | 16 => ⟨S_, .f32⟩
  | 17 => ⟨S50000, .f32⟩
  | 18 => ⟨S850000x1, .i32⟩
  | 19 => ⟨S50000, .f32⟩
  | 20 => ⟨S_, .f32⟩
  | 21 => ⟨S50000, .f32⟩
  | 22 => ⟨S50000, .i1⟩
  | 23 => ⟨S_, .f32⟩
  | 24 => ⟨S50000, .f32⟩
  | 25 => ⟨S50000, .f32⟩
  | 26 => ⟨S50000, .f32⟩
  | 27 => ⟨S_, .f32⟩
  | 28 => ⟨S_, .f32⟩
  | 29 => ⟨S50000, .f32⟩
  | 30 => ⟨S50000, .f32⟩
  | 31 => ⟨S_, .i32⟩
  | 32 => ⟨S850000, .i32⟩
  | 33 => ⟨S850000, .i1⟩
  | 34 => ⟨S_, .i32⟩
  | 35 => ⟨S850000, .i32⟩
  | 36 => ⟨S850000, .i32⟩
  | 37 => ⟨S850000, .i32⟩
  | 38 => ⟨S850000x1, .i32⟩
  | 39 => ⟨S850000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S850000, .f32⟩
  | 50 => ⟨S850000x1, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x128, .f32⟩
  | 60 => ⟨S850000x128, .f32⟩
  | 61 => ⟨S850000x128, .f32⟩
  | 62 => ⟨S_, .f32⟩
  | 63 => ⟨S50000x128, .f32⟩
  | 64 => ⟨S850000x1, .i32⟩
  | 65 => ⟨S50000x128, .f32⟩
  | 66 => ⟨S_, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x128, .f32⟩
  | 73 => ⟨S1x128x128, .f32⟩
  | 74 => ⟨S128x128, .f32⟩
  | 75 => ⟨S50000x128, .f32⟩
  | 76 => ⟨S_, .f32⟩
  | 77 => ⟨S_, .f32⟩
  | 78 => ⟨S50000x128, .f32⟩
  | 79 => ⟨S50000x128, .i1⟩
  | 80 => ⟨S_, .f32⟩
  | 81 => ⟨S50000x128, .f32⟩
  | 82 => ⟨S50000x128, .f32⟩
  | 83 => ⟨S50000x128, .f32⟩
  | 84 => ⟨S850000x1, .f32⟩
  | 85 => ⟨S_, .i32⟩
  | 86 => ⟨S850000, .i32⟩
  | 87 => ⟨S850000, .i1⟩
  | 88 => ⟨S_, .i32⟩
  | 89 => ⟨S850000, .i32⟩
  | 90 => ⟨S850000, .i32⟩
  | 91 => ⟨S850000, .i32⟩
  | 92 => ⟨S850000x1, .i32⟩
  | 93 => ⟨S850000x128, .f32⟩
  | 94 => ⟨S850000x128, .f32⟩
  | 95 => ⟨S850000x128, .f32⟩
  | 96 => ⟨S_, .f32⟩
  | 97 => ⟨S50000x128, .f32⟩
  | 98 => ⟨S850000x1, .i32⟩
  | 99 => ⟨S50000x128, .f32⟩
  | 100 => ⟨S_, .f32⟩
  | 101 => ⟨S50000x128, .f32⟩
  | 102 => ⟨S50000x128, .f32⟩
  | 103 => ⟨S_, .f32⟩
  | 104 => ⟨S50000x128, .f32⟩
  | 105 => ⟨S50000x128, .f32⟩
  | 106 => ⟨S50000x128, .f32⟩
  | 107 => ⟨S1x128x128, .f32⟩
  | 108 => ⟨S128x128, .f32⟩
  | 109 => ⟨S50000x128, .f32⟩
  | 110 => ⟨S_, .f32⟩
  | 111 => ⟨S_, .f32⟩
  | 112 => ⟨S50000x128, .f32⟩
  | 113 => ⟨S50000x128, .i1⟩
  | 114 => ⟨S_, .f32⟩
  | 115 => ⟨S50000x128, .f32⟩
  | 116 => ⟨S50000x128, .f32⟩
  | 117 => ⟨S50000x128, .f32⟩
  | 118 => ⟨S850000x1, .f32⟩
  | 119 => ⟨S_, .i32⟩
  | 120 => ⟨S850000, .i32⟩
  | 121 => ⟨S850000, .i1⟩
  | 122 => ⟨S_, .i32⟩
  | 123 => ⟨S850000, .i32⟩
  | 124 => ⟨S850000, .i32⟩
  | 125 => ⟨S850000, .i32⟩
  | 126 => ⟨S850000x1, .i32⟩
  | 127 => ⟨S850000x128, .f32⟩
  | _ => ⟨S50000x128, .f32⟩

abbrev hbmTy0_1 (i : Nat) : BufTy := match i % 128 with
  | 0 => ⟨S850000x128, .f32⟩
  | 1 => ⟨S850000x128, .f32⟩
  | 2 => ⟨S_, .f32⟩
  | 3 => ⟨S50000x128, .f32⟩
  | 4 => ⟨S850000x1, .i32⟩
  | 5 => ⟨S50000x128, .f32⟩
  | 6 => ⟨S_, .f32⟩
  | 7 => ⟨S50000x128, .f32⟩
  | 8 => ⟨S50000x128, .f32⟩
  | 9 => ⟨S_, .f32⟩
  | 10 => ⟨S50000x128, .f32⟩
  | 11 => ⟨S50000x128, .f32⟩
  | 12 => ⟨S50000x128, .f32⟩
  | 13 => ⟨S1x128x128, .f32⟩
  | 14 => ⟨S128x128, .f32⟩
  | 15 => ⟨S50000x128, .f32⟩
  | 16 => ⟨S_, .f32⟩
  | 17 => ⟨S_, .f32⟩
  | 18 => ⟨S50000x128, .f32⟩
  | 19 => ⟨S50000x128, .i1⟩
  | 20 => ⟨S_, .f32⟩
  | 21 => ⟨S50000x128, .f32⟩
  | 22 => ⟨S50000x128, .f32⟩
  | 23 => ⟨S50000x128, .f32⟩
  | 24 => ⟨S850000x1, .f32⟩
  | 25 => ⟨S_, .i32⟩
  | 26 => ⟨S850000, .i32⟩
  | 27 => ⟨S850000, .i1⟩
  | 28 => ⟨S_, .i32⟩
  | 29 => ⟨S850000, .i32⟩
  | 30 => ⟨S850000, .i32⟩
  | 31 => ⟨S850000, .i32⟩
  | 32 => ⟨S850000x1, .i32⟩
  | 33 => ⟨S850000x128, .f32⟩
  | 34 => ⟨S850000x128, .f32⟩
  | 35 => ⟨S850000x128, .f32⟩
  | 36 => ⟨S_, .f32⟩
  | 37 => ⟨S50000x128, .f32⟩
  | 38 => ⟨S850000x1, .i32⟩
  | 39 => ⟨S50000x128, .f32⟩
  | 40 => ⟨S_, .f32⟩
  | 41 => ⟨S50000x128, .f32⟩
  | 42 => ⟨S50000x128, .f32⟩
  | 43 => ⟨S_, .f32⟩
  | 44 => ⟨S50000x128, .f32⟩
  | 45 => ⟨S50000x128, .f32⟩
  | 46 => ⟨S50000x128, .f32⟩
  | 47 => ⟨S1x128x128, .f32⟩
  | 48 => ⟨S128x128, .f32⟩
  | 49 => ⟨S50000x128, .f32⟩
  | 50 => ⟨S_, .f32⟩
  | 51 => ⟨S_, .f32⟩
  | 52 => ⟨S50000x128, .f32⟩
  | 53 => ⟨S50000x128, .i1⟩
  | 54 => ⟨S_, .f32⟩
  | 55 => ⟨S50000x128, .f32⟩
  | 56 => ⟨S50000x128, .f32⟩
  | 57 => ⟨S50000x128, .f32⟩
  | 58 => ⟨S850000x1, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S850000x128, .f32⟩
  | 68 => ⟨S850000x128, .f32⟩
  | 69 => ⟨S850000x128, .f32⟩
  | 70 => ⟨S_, .f32⟩
  | 71 => ⟨S50000x128, .f32⟩
  | 72 => ⟨S850000x1, .i32⟩
  | 73 => ⟨S50000x128, .f32⟩
  | 74 => ⟨S_, .f32⟩
  | 75 => ⟨S50000x128, .f32⟩
  | 76 => ⟨S50000x128, .f32⟩
  | 77 => ⟨S_, .f32⟩
  | 78 => ⟨S50000x128, .f32⟩
  | 79 => ⟨S50000x128, .f32⟩
  | 80 => ⟨S50000x128, .f32⟩
  | 81 => ⟨S1x128x128, .f32⟩
  | 82 => ⟨S128x128, .f32⟩
  | 83 => ⟨S50000x128, .f32⟩
  | 84 => ⟨S_, .f32⟩
  | 85 => ⟨S_, .f32⟩
  | 86 => ⟨S50000x128, .f32⟩
  | 87 => ⟨S50000x128, .i1⟩
  | 88 => ⟨S_, .f32⟩
  | 89 => ⟨S50000x128, .f32⟩
  | 90 => ⟨S50000x128, .f32⟩
  | 91 => ⟨S50000x128, .f32⟩
  | 92 => ⟨S50000x256, .f32⟩
  | 93 => ⟨S1x256, .f32⟩
  | 94 => ⟨S50000x256, .f32⟩
  | 95 => ⟨S50000x256, .f32⟩
  | 96 => ⟨S50000x2, .f32⟩
  | 97 => ⟨S1x2, .f32⟩
  | 98 => ⟨S50000x2, .f32⟩
  | 99 => ⟨S50000x2, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_call0_v0 : Ref sig .tc := ⟨.hbm, 28, rfl⟩
abbrev main_call0_v1 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_5 : Ref sig .tc := ⟨.hbm, 40, rfl⟩
abbrev main_v24 : Ref sig .tc := ⟨.hbm, 41, rfl⟩
abbrev main_v25 : Ref sig .tc := ⟨.hbm, 42, rfl⟩
abbrev main_c_6 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_7 : Ref sig .tc := ⟨.hbm, 51, rfl⟩
abbrev main_v33 : Ref sig .tc := ⟨.hbm, 52, rfl⟩
abbrev main_v34 : Ref sig .tc := ⟨.hbm, 53, rfl⟩
abbrev main_c_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_10 : Ref sig .tc := ⟨.hbm, 66, rfl⟩
abbrev main_v45 : Ref sig .tc := ⟨.hbm, 67, rfl⟩
abbrev main_v46 : Ref sig .tc := ⟨.hbm, 68, rfl⟩
abbrev main_cst_11 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_12 : Ref sig .tc := ⟨.hbm, 76, rfl⟩
abbrev main_call1_cst : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_v53 : Ref sig .tc := ⟨.hbm, 83, rfl⟩
abbrev main_v54 : Ref sig .tc := ⟨.hbm, 84, rfl⟩
abbrev main_c_13 : Ref sig .tc := ⟨.hbm, 85, rfl⟩
abbrev main_v55 : Ref sig .tc := ⟨.hbm, 86, rfl⟩
abbrev main_v56 : Ref sig .tc := ⟨.hbm, 87, rfl⟩
abbrev main_c_14 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_15 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_16 : Ref sig .tc := ⟨.hbm, 100, rfl⟩
abbrev main_v67 : Ref sig .tc := ⟨.hbm, 101, rfl⟩
abbrev main_v68 : Ref sig .tc := ⟨.hbm, 102, rfl⟩
abbrev main_cst_17 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_cst_18 : Ref sig .tc := ⟨.hbm, 110, rfl⟩
abbrev main_call2_cst : Ref sig .tc := ⟨.hbm, 111, rfl⟩
abbrev main_call2_v0 : Ref sig .tc := ⟨.hbm, 112, rfl⟩
abbrev main_call2_v1 : Ref sig .tc := ⟨.hbm, 113, rfl⟩
abbrev main_call2_v2 : Ref sig .tc := ⟨.hbm, 114, rfl⟩
abbrev main_call2_v3 : Ref sig .tc := ⟨.hbm, 115, rfl⟩
abbrev main_call2_v4 : Ref sig .tc := ⟨.hbm, 116, rfl⟩
abbrev main_v75 : Ref sig .tc := ⟨.hbm, 117, rfl⟩
abbrev main_v76 : Ref sig .tc := ⟨.hbm, 118, rfl⟩
abbrev main_c_19 : Ref sig .tc := ⟨.hbm, 119, rfl⟩
abbrev main_v77 : Ref sig .tc := ⟨.hbm, 120, rfl⟩
abbrev main_v78 : Ref sig .tc := ⟨.hbm, 121, rfl⟩
abbrev main_c_20 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_cst_21 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_cst_22 : Ref sig .tc := ⟨.hbm, 134, rfl⟩
abbrev main_v89 : Ref sig .tc := ⟨.hbm, 135, rfl⟩
abbrev main_v90 : Ref sig .tc := ⟨.hbm, 136, rfl⟩
abbrev main_cst_23 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_cst_24 : Ref sig .tc := ⟨.hbm, 144, rfl⟩
abbrev main_call3_cst : Ref sig .tc := ⟨.hbm, 145, rfl⟩
abbrev main_call3_v0 : Ref sig .tc := ⟨.hbm, 146, rfl⟩
abbrev main_call3_v1 : Ref sig .tc := ⟨.hbm, 147, rfl⟩
abbrev main_call3_v2 : Ref sig .tc := ⟨.hbm, 148, rfl⟩
abbrev main_call3_v3 : Ref sig .tc := ⟨.hbm, 149, rfl⟩
abbrev main_call3_v4 : Ref sig .tc := ⟨.hbm, 150, rfl⟩
abbrev main_v97 : Ref sig .tc := ⟨.hbm, 151, rfl⟩
abbrev main_v98 : Ref sig .tc := ⟨.hbm, 152, rfl⟩
abbrev main_c_25 : Ref sig .tc := ⟨.hbm, 153, rfl⟩
abbrev main_v99 : Ref sig .tc := ⟨.hbm, 154, rfl⟩
abbrev main_v100 : Ref sig .tc := ⟨.hbm, 155, rfl⟩
abbrev main_c_26 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_cst_27 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_cst_28 : Ref sig .tc := ⟨.hbm, 168, rfl⟩
abbrev main_v111 : Ref sig .tc := ⟨.hbm, 169, rfl⟩
abbrev main_v112 : Ref sig .tc := ⟨.hbm, 170, rfl⟩
abbrev main_cst_29 : Ref sig .tc := ⟨.hbm, 171, rfl⟩
abbrev main_v113 : Ref sig .tc := ⟨.hbm, 172, rfl⟩
abbrev main_v114 : Ref sig .tc := ⟨.hbm, 173, rfl⟩
abbrev main_v115 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_cst_30 : Ref sig .tc := ⟨.hbm, 178, rfl⟩
abbrev main_call4_cst : Ref sig .tc := ⟨.hbm, 179, rfl⟩
abbrev main_call4_v0 : Ref sig .tc := ⟨.hbm, 180, rfl⟩
abbrev main_call4_v1 : Ref sig .tc := ⟨.hbm, 181, rfl⟩
abbrev main_call4_v2 : Ref sig .tc := ⟨.hbm, 182, rfl⟩
abbrev main_call4_v3 : Ref sig .tc := ⟨.hbm, 183, rfl⟩
abbrev main_call4_v4 : Ref sig .tc := ⟨.hbm, 184, rfl⟩
abbrev main_v119 : Ref sig .tc := ⟨.hbm, 185, rfl⟩
abbrev main_v120 : Ref sig .tc := ⟨.hbm, 186, rfl⟩
abbrev main_c_31 : Ref sig .tc := ⟨.hbm, 187, rfl⟩
abbrev main_v121 : Ref sig .tc := ⟨.hbm, 188, rfl⟩
abbrev main_v122 : Ref sig .tc := ⟨.hbm, 189, rfl⟩
abbrev main_c_32 : Ref sig .tc := ⟨.hbm, 190, rfl⟩
abbrev main_v123 : Ref sig .tc := ⟨.hbm, 191, rfl⟩
abbrev main_v124 : Ref sig .tc := ⟨.hbm, 192, rfl⟩
abbrev main_v125 : Ref sig .tc := ⟨.hbm, 193, rfl⟩
abbrev main_v126 : Ref sig .tc := ⟨.hbm, 194, rfl⟩
abbrev main_v127 : Ref sig .tc := ⟨.hbm, 195, rfl⟩
abbrev main_v128 : Ref sig .tc := ⟨.hbm, 196, rfl⟩
abbrev main_v129 : Ref sig .tc := ⟨.hbm, 197, rfl⟩
abbrev main_cst_33 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_cst_34 : Ref sig .tc := ⟨.hbm, 202, rfl⟩
abbrev main_v133 : Ref sig .tc := ⟨.hbm, 203, rfl⟩
abbrev main_v134 : Ref sig .tc := ⟨.hbm, 204, rfl⟩
abbrev main_cst_35 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_cst_36 : Ref sig .tc := ⟨.hbm, 212, rfl⟩
abbrev main_call5_cst : Ref sig .tc := ⟨.hbm, 213, rfl⟩
abbrev main_call5_v0 : Ref sig .tc := ⟨.hbm, 214, rfl⟩
abbrev main_call5_v1 : Ref sig .tc := ⟨.hbm, 215, rfl⟩
abbrev main_call5_v2 : Ref sig .tc := ⟨.hbm, 216, rfl⟩
abbrev main_call5_v3 : Ref sig .tc := ⟨.hbm, 217, rfl⟩
abbrev main_call5_v4 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S5x128x128_S1x128x128_0_0_0 : S5x128x128.Slices ![0, 0, 0] S1x128x128
  shapeCasts_S1x128x128_S128x128 : S1x128x128.ShapeCasts S128x128
  slices_S5x128x128_S1x128x128_1_0_0 : S5x128x128.Slices ![1, 0, 0] S1x128x128
  slices_S5x128x128_S1x128x128_2_0_0 : S5x128x128.Slices ![2, 0, 0] S1x128x128
  slices_S5x128x128_S1x128x128_3_0_0 : S5x128x128.Slices ![3, 0, 0] S1x128x128
  slices_S5x128x128_S1x128x128_4_0_0 : S5x128x128.Slices ![4, 0, 0] S1x128x128
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S2_S1x2_1 : S2.BroadcastsInDim S1x2 (![1] : Fin 1 → Fin S1x2.rank)
  bcast_S1x2_S50000x2_0_1 : S1x2.BroadcastsInDim S50000x2 (![0, 1] : Fin 2 → Fin S50000x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x128_S128x256_S50000x256_1_0_0_1_n_n_wf : DotDims.WF S50000x128 S128x256 S50000x256 [1] [0] [0] [1] [] []
  dot_S50000x256_S256x2_S50000x2_1_0_0_1_n_n_wf : DotDims.WF S50000x256 S256x2 S50000x2 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x2_S50000x2_1_0_0_1_n_n : DotDims S50000x256 S256x2 S50000x2 where
  lhsContracting := [1]
  rhsContracting := [0]
  lhsNonContracting := [0]
  rhsNonContracting := [1]
  lhsBatch := []
  rhsBatch := []
  wf := dot_S50000x256_S256x2_S50000x2_1_0_0_1_n_n_wf

class Facts : Prop extends Facts₀ where

variable [Facts]
-- ==== Proof.KernelRun.lean ====
/-
  The idealized kernel program's run with its result named.

  @main is thirteen segments: stretches of host operations and six tiled regions. From any launch memory with zero
  counters every weakly fair execution terminates without a fault, and in the final state every buffer that lives for
  the whole program holds the last boundary's contents: the fold of the host stretches and of each region's
  write-backs from the launch memory. In particular the result buffer holds that fold read at the result, and each
  argument holds what it held at launch.
-/
import proofs.«153866_j65085934403701_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents and the seven argument arrays end as launched. -/
theorem run_named : θ_run defs (onTc (τ := τ) (main (F := F))) ⟨m, fun _ => 0, ρ⟩ (fun r => ∀ c : Dev nD,
      r.2.mem ((c.tc : Thread nD τ).loc main_v112) = W13 m ρ c (Proc.devRef .tc main_v112)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v112 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c)⟩)

end Cert.KernelIdeal.Run

end
-- ==== Proof.HostKer.lean ====
/-
  The host side of the network as functions of the arrays it reads.

  From the edge list (two rows of 800000 node numbers) the program forms the source list and the target list, each the
  corresponding row followed by the node numbers 0 … 49999 (a self-loop per node); the in-degree of every node as a
  sum of ones scattered at the targets; its inverse square root where the degree is positive, zero elsewhere; and the
  weight of an edge as the product of that quantity at its source and at its target. A node number below zero is read
  from the end (number + 50000). One round of message passing takes the node features, gathers the source's row for
  every edge, scales it by the edge's weight and adds it into the target's row, starting from zeros. Layer k's weight
  matrix is slice k of the stacked weights.
-/
import proofs.«153866_j65085934403701_1_alg».proof.KernelIdeal

noncomputable section

namespace Cert.KernelIdeal.Host

open Idealize.ShloMosaic Cert.KernelIdeal Cert.KernelIdeal.Facts₀

variable {F : FTy → Type} [FloatOps F] [Facts₀]

/-- Row k of the edge list as a flat list of 800000 node numbers. -/
def edgeRow0 (ei : (⟨S2x800000, .i32⟩ : BufTy).Contents (Elt F)) : (⟨S800000, .i32⟩ : BufTy).Contents (Elt F) :=
  fun i => shapeCast S800000 (extractStridedSlice S1x800000 ![0, 0] ei slices_S2x800000_S1x800000_0_0) shapeCasts_S1x800000_S800000 i
def edgeRow1 (ei : (⟨S2x800000, .i32⟩ : BufTy).Contents (Elt F)) : (⟨S800000, .i32⟩ : BufTy).Contents (Elt F) :=
  fun i => shapeCast S800000 (extractStridedSlice S1x800000 ![1, 0] ei slices_S2x800000_S1x800000_1_0) shapeCasts_S1x800000_S800000 i

/-- A flat list of edge ends followed by every node's own number. -/
def withLoops (e : (⟨S800000, .i32⟩ : BufTy).Contents (Elt F)) : (⟨S850000, .i32⟩ : BufTy).Contents (Elt F) :=
  concatenate S850000 0 [⟨S800000, e⟩, ⟨S50000, (iotaInDim S50000 32 0 : (⟨S50000, .i32⟩ : BufTy).Contents (Elt F))⟩] concatenates_S800000_S50000_S850000_d0

/-- The sources and the targets. -/
def rowOf (ei : (⟨S2x800000, .i32⟩ : BufTy).Contents (Elt F)) : (⟨S850000, .i32⟩ : BufTy).Contents (Elt F) := withLoops (edgeRow0 ei)
def colOf (ei : (⟨S2x800000, .i32⟩ : BufTy).Contents (Elt F)) : (⟨S850000, .i32⟩ : BufTy).Contents (Elt F) := withLoops (edgeRow1 ei)

/-- Every node's in-degree: ones added at the targets into zeros. -/
def degOf (col : (⟨S850000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (broadcastInDim S850000x1 ![0] bcast_S850000_S850000x1_0 col)
    (broadcastInDim S850000 ![] bcast_S_S850000 (constant S_ .f32 0x3F800000#32))

/-- Where the degree is positive. -/
def posOf (deg : (⟨S50000, .f32⟩ : BufTy).Contents (Elt F)) : (⟨S50000, .i1⟩ : BufTy).Contents (Elt F) :=
  cmpf .ogt deg (broadcastInDim S50000 ![] bcast_S_S50000 (constant S_ .f32 0x00000000#32))

/-- The inverse square root of the degree, the degree first raised to a tiny positive floor. -/
def rsOf (deg : (⟨S50000, .f32⟩ : BufTy).Contents (Elt F)) : (⟨S50000, .f32⟩ : BufTy).Contents (Elt F) :=
  Host.rsqrt (maximumf deg (broadcastInDim S50000 ![] bcast_S_S50000 (constant S_ .f32 0x2B8CBCCC#32)))

/-- That inverse square root where the degree is positive, the given scalar elsewhere. -/
def dinvOf (pos : (⟨S50000, .i1⟩ : BufTy).Contents (Elt F)) (rs : (⟨S50000, .f32⟩ : BufTy).Contents (Elt F))
    (z : (⟨S_, .f32⟩ : BufTy).Contents (Elt F)) : (⟨S50000, .f32⟩ : BufTy).Contents (Elt F) :=
  select pos rs (broadcastInDim S50000 ![] bcast_S_S50000 (id z))

/-- A node number below zero is read from the end. -/
def wrap (r : (⟨S850000, .i32⟩ : BufTy).Contents (Elt F)) : (⟨S850000, .i32⟩ : BufTy).Contents (Elt F) :=
  select (cmpi .slt r (broadcastInDim S850000 ![] bcast_S_S850000 (constantI S_ 32 0#32)))
    (addi r (broadcastInDim S850000 ![] bcast_S_S850000 (constantI S_ 32 50000#32))) r

/-- An edge's weight: the node quantity at its source times the node quantity at its target. -/
def normOf (dinv : (⟨S50000, .f32⟩ : BufTy).Contents (Elt F)) (row col : (⟨S850000, .i32⟩ : BufTy).Contents (Elt F)) :
    (⟨S850000, .f32⟩ : BufTy).Contents (Elt F) :=
  mulf (Host.gather gather_S50000_S850000x1_S850000_n_0_n_n_0_1_1 dinv (broadcastInDim S850000x1 ![0] bcast_S850000_S850000x1_0 (wrap row)))
    (Host.gather gather_S50000_S850000x1_S850000_n_0_n_n_0_1_1 dinv (broadcastInDim S850000x1 ![0] bcast_S850000_S850000x1_0 (wrap col)))

/-- One round of message passing: every edge's source row scaled by the edge's weight, added into the target's row. -/
def prop (row col : (⟨S850000, .i32⟩ : BufTy).Contents (Elt F)) (norm : (⟨S850000, .f32⟩ : BufTy).Contents (Elt F))
    (x : (⟨S50000x128, .f32⟩ : BufTy).Contents (Elt F)) : (⟨S50000x128, .f32⟩ : BufTy).Contents (Elt F) :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 col)
    (mulf
      (broadcastInDim S850000x128 ![0, 1] bcast_S850000x1_S850000x128_0_1 (broadcastInDim S850000x1 ![0] bcast_S850000_S850000x1_0 norm))
      (Host.gather gather_S50000x128_S850000x1_S850000x128_1_0_n_n_0_1_1128 x (broadcastInDim S850000x1 ![0] bcast_S850000_S850000x1_0 (wrap row))))

/-- Layer k's weight matrix. -/
def wsl0 (cw : (⟨S5x128x128, .f32⟩ : BufTy).Contents (Elt F)) : (⟨S128x128, .f32⟩ : BufTy).Contents (Elt F) :=
  fun i => shapeCast S128x128 (extractStridedSlice S1x128x128 ![0, 0, 0] cw slices_S5x128x128_S1x128x128_0_0_0) shapeCasts_S1x128x128_S128x128 i
def wsl1 (cw : (⟨S5x128x128, .f32⟩ : BufTy).Contents (Elt F)) : (⟨S128x128, .f32⟩ : BufTy).Contents (Elt F) :=
  fun i => shapeCast S128x128 (extractStridedSlice S1x128x128 ![1, 0, 0] cw slices_S5x128x128_S1x128x128_1_0_0) shapeCasts_S1x128x128_S128x128 i
def wsl2 (cw : (⟨S5x128x128, .f32⟩ : BufTy).Contents (Elt F)) : (⟨S128x128, .f32⟩ : BufTy).Contents (Elt F) :=
  fun i => shapeCast S128x128 (extractStridedSlice S1x128x128 ![2, 0, 0] cw slices_S5x128x128_S1x128x128_2_0_0) shapeCasts_S1x128x128_S128x128 i
def wsl3 (cw : (⟨S5x128x128, .f32⟩ : BufTy).Contents (Elt F)) : (⟨S128x128, .f32⟩ : BufTy).Contents (Elt F) :=
  fun i => shapeCast S128x128 (extractStridedSlice S1x128x128 ![3, 0, 0] cw slices_S5x128x128_S1x128x128_3_0_0) shapeCasts_S1x128x128_S128x128 i
def wsl4 (cw : (⟨S5x128x128, .f32⟩ : BufTy).Contents (Elt F)) : (⟨S128x128, .f32⟩ : BufTy).Contents (Elt F) :=
  fun i => shapeCast S128x128 (extractStridedSlice S1x128x128 ![4, 0, 0] cw slices_S5x128x128_S1x128x128_4_0_0) shapeCasts_S1x128x128_S128x128 i

/-- The edge weights from the edge list alone. -/
def normOfEdges (ei : (⟨S2x800000, .i32⟩ : BufTy).Contents (Elt F)) : (⟨S850000, .f32⟩ : BufTy).Contents (Elt F) :=
  normOf (dinvOf (posOf (degOf (colOf ei))) (rsOf (degOf (colOf ei))) (constant S_ .f32 0x00000000#32)) (rowOf ei) (colOf ei)

/-- One round of message passing over the graph of the edge list. -/
def propOfEdges (ei : (⟨S2x800000, .i32⟩ : BufTy).Contents (Elt F)) (x : (⟨S50000x128, .f32⟩ : BufTy).Contents (Elt F)) :
    (⟨S50000x128, .f32⟩ : BufTy).Contents (Elt F) :=
  prop (rowOf ei) (colOf ei) (normOfEdges ei) x

end Cert.KernelIdeal.Host

end
-- ==== Proof.LibReadBack.lean ====
/-
  Reading a fold of host operations back at one buffer. The fold `after ops V` applies each operation's result map in
  order. Read at a buffer, it is the value, at the operands' contents, of the function of the last operation that
  writes the buffer; an operation that does not write the buffer leaves what was there; and the operands' contents are
  the fold of the earlier operations read at the operands' buffers, and so on down to the starting contents `V`.
  Unfolding this recursion turns the fold into the composed term of the operations' functions over `V` at the buffers
  no operation writes. It is done in two sweeps: one rewriting sweep over the whole term, which does not reach an
  operand that sits inside a list of shaped pieces (the pieces of a concatenation), and a loop of single rewrites that
  finishes those.
-/
import Idealize.ShloMosaic.Lib.StableHlo.Run

namespace Cert.Lib

open Idealize.ShloMosaic Idealize.ShloMosaic.StableHlo

/-- What the first sweep leaves: each remaining operation's result read at its own buffer becomes its function's value,
    and read at any other buffer what was there before. -/
macro "read_results" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-- A fold of host operations read at a buffer, unfolded to the composed term: the sweep, then the loop. -/
macro "read_back" : tactic => `(tactic| (after_results_simp; read_results))

end Cert.Lib
-- ==== Proof.LibTypedRef.lean ====
/-
  Typed references: the two transports are inverse.

  A host function outlined by the tracer (a `where`, a `relu`, a `log_softmax`) is printed over typed references: each of
  its operations carries its operands from their buffers' own types to the values' types (`ofBuf`) and its result back
  (`toBuf`), both casts along the reference's type equation. Reading a chain of such operations back therefore leaves
  `ofBuf (toBuf v)` around every intermediate value; this is `v`, for any typed reference and any contents: the two
  casts are along one equation and its inverse.
-/
import Idealize.ShloMosaic.Lib.StableHlo

namespace Cert.Lib

open Idealize.ShloMosaic Idealize.ShloMosaic.StableHlo

variable {sig : RefSig} {Val : EltTy → Type} {T : BufTy}

/-- Contents carried to the buffer's own type and back are unchanged. -/
theorem ofBuf_toBuf (x : TRef sig T) (v : T.Contents Val) : x.ofBuf (x.toBuf v) = v := by
  obtain ⟨r, rfl, _, _⟩ := x
  rfl

/-- Contents of the buffer carried to the value's type and back are unchanged. -/
theorem toBuf_ofBuf (x : TRef sig T) (v : x.ref.ty.Contents Val) : x.toBuf (x.ofBuf v) = v := by
  obtain ⟨r, rfl, _, _⟩ := x
  rfl

end Cert.Lib
-- ==== Proof.KerHost0.lean ====
/-
  The host operations before the first tiled region, read at the buffers later segments use. The first stretch leaves
  the source list, the target list, the mask of positive degrees and the inverse square roots, all functions of the
  edge list alone; the second chooses between the last two; the third forms the edge weights, the first round of
  message passing over the input features, and the first layer's weight matrix. The input features and the stacked
  weights pass through untouched.
-/
import proofs.«153866_j65085934403701_1_alg».proof.Proof.Gen.KernelIdeal.Launch
import proofs.«153866_j65085934403701_1_alg».proof.Proof.HostKer
import proofs.«153866_j65085934403701_1_alg».proof.Proof.LibReadBack
import proofs.«153866_j65085934403701_1_alg».proof.Proof.LibTypedRef

noncomputable section

namespace Cert.KernelIdeal.HostRead0

open Idealize.ShloMosaic Idealize.ShloMosaic.StableHlo Idealize.SL.Sem
open Cert.KernelIdeal Cert.KernelIdeal.Gen Cert.KernelIdeal.Host Cert.Lib

variable {F : FTy → Type} [FloatOps F] (V : Valuation τ sig (Elt F))

set_option maxHeartbeats 4000000 in
theorem s0_row : after (hostOps0 (F := F)) V (Proc.devRef .tc main_v3) = rowOf (V (Proc.devRef .tc main_arg1)) := by
  read_back; rfl

set_option maxHeartbeats 4000000 in
theorem s0_col : after (hostOps0 (F := F)) V (Proc.devRef .tc main_v6) = colOf (V (Proc.devRef .tc main_arg1)) := by
  read_back; rfl

set_option maxHeartbeats 4000000 in
theorem s0_pos : after (hostOps0 (F := F)) V (Proc.devRef .tc main_v12) = posOf (degOf (colOf (V (Proc.devRef .tc main_arg1)))) := by
  read_back; rfl

set_option maxHeartbeats 4000000 in
theorem s0_rs : after (hostOps0 (F := F)) V (Proc.devRef .tc main_v15) = rsOf (degOf (colOf (V (Proc.devRef .tc main_arg1)))) := by
  read_back; rfl

set_option maxHeartbeats 4000000 in
theorem s0_zero : after (hostOps0 (F := F)) V (Proc.devRef .tc main_cst_3) = (constant S_ .f32 0x00000000#32 : (⟨S_, .f32⟩ : BufTy).Contents (Elt F)) := by
  read_back

set_option maxHeartbeats 4000000 in
theorem s0_x : after (hostOps0 (F := F)) V (Proc.devRef .tc main_arg0) = (V (Proc.devRef .tc main_arg0)) := by
  after_results_simp

set_option maxHeartbeats 4000000 in
theorem s0_cw : after (hostOps0 (F := F)) V (Proc.devRef .tc main_arg2) = (V (Proc.devRef .tc main_arg2)) := by
  after_results_simp

set_option maxHeartbeats 4000000 in
theorem s1_dinv : after (hostOps0_1 (F := F)) V (Proc.devRef .tc main_v16) = dinvOf (V (Proc.devRef .tc main_v12)) (V (Proc.devRef .tc main_v15)) (V (Proc.devRef .tc main_cst_3)) := by
  after_results_simp
  simp only [ofBuf_toBuf, toBuf_ofBuf]
  rfl

set_option maxHeartbeats 4000000 in
theorem s1_keep_v3 : after (hostOps0_1 (F := F)) V (Proc.devRef .tc main_v3) = (V (Proc.devRef .tc main_v3)) := by
  after_results_simp

set_option maxHeartbeats 4000000 in
theorem s1_keep_v6 : after (hostOps0_1 (F := F)) V (Proc.devRef .tc main_v6) = (V (Proc.devRef .tc main_v6)) := by
  after_results_simp

set_option maxHeartbeats 4000000 in
theorem s1_keep_arg0 : after (hostOps0_1 (F := F)) V (Proc.devRef .tc main_arg0) = (V (Proc.devRef .tc main_arg0)) := by
  after_results_simp

set_option maxHeartbeats 4000000 in
theorem s1_keep_arg2 : after (hostOps0_1 (F := F)) V (Proc.devRef .tc main_arg2) = (V (Proc.devRef .tc main_arg2)) := by
  after_results_simp

set_option maxHeartbeats 4000000 in
theorem s2_norm : after (hostOps0_2 (F := F)) V (Proc.devRef .tc main_v31) = normOf (V (Proc.devRef .tc main_v16)) (V (Proc.devRef .tc main_v3)) (V (Proc.devRef .tc main_v6)) := by
  after_results_simp; rfl

set_option maxHeartbeats 4000000 in
theorem s2_h : after (hostOps0_2 (F := F)) V (Proc.devRef .tc main_v44) = prop (V (Proc.devRef .tc main_v3)) (V (Proc.devRef .tc main_v6)) (normOf (V (Proc.devRef .tc main_v16)) (V (Proc.devRef .tc main_v3)) (V (Proc.devRef .tc main_v6))) (V (Proc.devRef .tc main_arg0)) := by
  after_results_simp; rfl

set_option maxHeartbeats 4000000 in
theorem s2_w : after (hostOps0_2 (F := F)) V (Proc.devRef .tc main_v46) = wsl0 (V (Proc.devRef .tc main_arg2)) := by
  after_results_simp; rfl

set_option maxHeartbeats 4000000 in
theorem s2_keep_v3 : after (hostOps0_2 (F := F)) V (Proc.devRef .tc main_v3) = (V (Proc.devRef .tc main_v3)) := by
  after_results_simp

set_option maxHeartbeats 4000000 in
theorem s2_keep_v6 : after (hostOps0_2 (F := F)) V (Proc.devRef .tc main_v6) = (V (Proc.devRef .tc main_v6)) := by
  after_results_simp

set_option maxHeartbeats 4000000 in
theorem s2_keep_arg0 : after (hostOps0_2 (F := F)) V (Proc.devRef .tc main_arg0) = (V (Proc.devRef .tc main_arg0)) := by
  after_results_simp

set_option maxHeartbeats 4000000 in
theorem s2_keep_arg2 : after (hostOps0_2 (F := F)) V (Proc.devRef .tc main_arg2) = (V (Proc.devRef .tc main_arg2)) := by
  after_results_simp

end Cert.KernelIdeal.HostRead0

end
-- ==== Proof.KerHostL.lean ====
/-
  The host operations between two tiled regions, read at the buffers the next region and later segments use: one round
  of message passing over the previous layer's output, with the source list, the target list and the edge weights as
  the earlier segments left them, and the next layer's weight matrix. The lists, the weights, the input features and
  the stacked weights pass through untouched.
-/
import proofs.«153866_j65085934403701_1_alg».proof.Proof.Gen.KernelIdeal.Launch
import proofs.«153866_j65085934403701_1_alg».proof.Proof.HostKer
import proofs.«153866_j65085934403701_1_alg».proof.Proof.LibReadBack
import proofs.«153866_j65085934403701_1_alg».proof.Proof.LibTypedRef

noncomputable section

namespace Cert.KernelIdeal.HostReadL

open Idealize.ShloMosaic Idealize.ShloMosaic.StableHlo Idealize.SL.Sem
open Cert.KernelIdeal Cert.KernelIdeal.Gen Cert.KernelIdeal.Host Cert.Lib

variable {F : FTy → Type} [FloatOps F] (V : Valuation τ sig (Elt F))

set_option maxHeartbeats 4000000 in
theorem t1_h : after (hostOps1 (F := F)) V (Proc.devRef .tc main_v60) = prop (V (Proc.devRef .tc main_v3)) (V (Proc.devRef .tc main_v6)) (V (Proc.devRef .tc main_v31)) (V (Proc.devRef .tc main_v47)) := by
  after_results_simp; rfl

set_option maxHeartbeats 4000000 in
theorem t1_w : after (hostOps1 (F := F)) V (Proc.devRef .tc main_v62) = wsl1 (V (Proc.devRef .tc main_arg2)) := by
  after_results_simp; rfl

set_option maxHeartbeats 4000000 in
theorem t1_keep_v3 : after (hostOps1 (F := F)) V (Proc.devRef .tc main_v3) = (V (Proc.devRef .tc main_v3)) := by
  after_results_simp

set_option maxHeartbeats 4000000 in
theorem t1_keep_v6 : after (hostOps1 (F := F)) V (Proc.devRef .tc main_v6) = (V (Proc.devRef .tc main_v6)) := by
  after_results_simp

set_option maxHeartbeats 4000000 in
theorem t1_keep_v31 : after (hostOps1 (F := F)) V (Proc.devRef .tc main_v31) = (V (Proc.devRef .tc main_v31)) := by
  after_results_simp

set_option maxHeartbeats 4000000 in
theorem t1_keep_arg0 : after (hostOps1 (F := F)) V (Proc.devRef .tc main_arg0) = (V (Proc.devRef .tc main_arg0)) := by
  after_results_simp

set_option maxHeartbeats 4000000 in
theorem t1_keep_arg2 : after (hostOps1 (F := F)) V (Proc.devRef .tc main_arg2) = (V (Proc.devRef .tc main_arg2)) := by
  after_results_simp

set_option maxHeartbeats 4000000 in
theorem t2_h : after (hostOps2 (F := F)) V (Proc.devRef .tc main_v76) = prop (V (Proc.devRef .tc main_v3)) (V (Proc.devRef .tc main_v6)) (V (Proc.devRef .tc main_v31)) (V (Proc.devRef .tc main_v63)) := by
  after_results_simp; rfl

set_option maxHeartbeats 4000000 in
theorem t2_w : after (hostOps2 (F := F)) V (Proc.devRef .tc main_v78) = wsl2 (V (Proc.devRef .tc main_arg2)) := by
  after_results_simp; rfl

set_option maxHeartbeats 4000000 in
theorem t2_keep_v3 : after (hostOps2 (F := F)) V (Proc.devRef .tc main_v3) = (V (Proc.devRef .tc main_v3)) := by
  after_results_simp

set_option maxHeartbeats 4000000 in
theorem t2_keep_v6 : after (hostOps2 (F := F)) V (Proc.devRef .tc main_v6) = (V (Proc.devRef .tc main_v6)) := by
  after_results_simp

set_option maxHeartbeats 4000000 in
theorem t2_keep_v31 : after (hostOps2 (F := F)) V (Proc.devRef .tc main_v31) = (V (Proc.devRef .tc main_v31)) := by
  after_results_simp

set_option maxHeartbeats 4000000 in
theorem t2_keep_arg0 : after (hostOps2 (F := F)) V (Proc.devRef .tc main_arg0) = (V (Proc.devRef .tc main_arg0)) := by
  after_results_simp

set_option maxHeartbeats 4000000 in
theorem t2_keep_arg2 : after (hostOps2 (F := F)) V (Proc.devRef .tc main_arg2) = (V (Proc.devRef .tc main_arg2)) := by
  after_results_simp

set_option maxHeartbeats 4000000 in
theorem t3_h : after (hostOps3 (F := F)) V (Proc.devRef .tc main_v92) = prop (V (Proc.devRef .tc main_v3)) (V (Proc.devRef .tc main_v6)) (V (Proc.devRef .tc main_v31)) (V (Proc.devRef .tc main_v79)) := by
  after_results_simp; rfl

set_option maxHeartbeats 4000000 in
theorem t3_w : after (hostOps3 (F := F)) V (Proc.devRef .tc main_v94) = wsl3 (V (Proc.devRef .tc main_arg2)) := by
  after_results_simp; rfl

set_option maxHeartbeats 4000000 in
theorem t3_keep_v3 : after (hostOps3 (F := F)) V (Proc.devRef .tc main_v3) = (V (Proc.devRef .tc main_v3)) := by
  after_results_simp

set_option maxHeartbeats 4000000 in
theorem t3_keep_v6 : after (hostOps3 (F := F)) V (Proc.devRef .tc main_v6) = (V (Proc.devRef .tc main_v6)) := by
  after_results_simp

set_option maxHeartbeats 4000000 in
theorem t3_keep_v31 : after (hostOps3 (F := F)) V (Proc.devRef .tc main_v31) = (V (Proc.devRef .tc main_v31)) := by
  after_results_simp

set_option maxHeartbeats 4000000 in
theorem t3_keep_arg0 : after (hostOps3 (F := F)) V (Proc.devRef .tc main_arg0) = (V (Proc.devRef .tc main_arg0)) := by
  after_results_simp

set_option maxHeartbeats 4000000 in
theorem t3_keep_arg2 : after (hostOps3 (F := F)) V (Proc.devRef .tc main_arg2) = (V (Proc.devRef .tc main_arg2)) := by
  after_results_simp

set_option maxHeartbeats 4000000 in
theorem t4_h : after (hostOps4 (F := F)) V (Proc.devRef .tc main_v108) = prop (V (Proc.devRef .tc main_v3)) (V (Proc.devRef .tc main_v6)) (V (Proc.devRef .tc main_v31)) (V (Proc.devRef .tc main_v95)) := by
  after_results_simp; rfl

set_option maxHeartbeats 4000000 in
theorem t4_w : after (hostOps4 (F := F)) V (Proc.devRef .tc main_v110) = wsl4 (V (Proc.devRef .tc main_arg2)) := by
  after_results_simp; rfl

set_option maxHeartbeats 4000000 in
theorem t4_keep_v3 : after (hostOps4 (F := F)) V (Proc.devRef .tc main_v3) = (V (Proc.devRef .tc main_v3)) := by
  after_results_simp

set_option maxHeartbeats 4000000 in
theorem t4_keep_v6 : after (hostOps4 (F := F)) V (Proc.devRef .tc main_v6) = (V (Proc.devRef .tc main_v6)) := by
  after_results_simp

set_option maxHeartbeats 4000000 in
theorem t4_keep_v31 : after (hostOps4 (F := F)) V (Proc.devRef .tc main_v31) = (V (Proc.devRef .tc main_v31)) := by
  after_results_simp

set_option maxHeartbeats 4000000 in
theorem t4_keep_arg0 : after (hostOps4 (F := F)) V (Proc.devRef .tc main_arg0) = (V (Proc.devRef .tc main_arg0)) := by
  after_results_simp

set_option maxHeartbeats 4000000 in
theorem t4_keep_arg2 : after (hostOps4 (F := F)) V (Proc.devRef .tc main_arg2) = (V (Proc.devRef .tc main_arg2)) := by
  after_results_simp

end Cert.KernelIdeal.HostReadL

end
-- ==== Proof.LibPlainDot.lean ====
/-
  A plain matrix product at the exact extended reals: for dimension numbers that contract the left operand's
  second axis against the right operand's first (no batch axis), the contraction sum at the output entry (p, q)
  is the sum over k of left (p, k) times right (k, q). From that, two readings of "rows times columns plus a row
  vector": a matrix unit's product into a zero accumulator with the vector re-laid as one row and repeated down the
  rows, and a host contraction with the vector broadcast in two steps. Both are the function `affine`. Also: the
  logistic function is one over one plus the exponential of the negated argument, on every extended real.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibPlainDot

open Idealize.ShloMosaic Idealize.ShloMosaic.ValueIdx

/-- The output entry (p, q) of rows-times-columns plus a row vector: the sum over k of x (p, k) · w (k, q), plus b q. -/
def affine {M K N : ℕ} (x : FVec Ideal ⟨2, ![M, K]⟩ .f32) (w : FVec Ideal ⟨2, ![K, N]⟩ .f32) (b : FVec Ideal ⟨1, ![N]⟩ .f32) :
    FVec Ideal ⟨2, ![M, N]⟩ .f32 :=
  fun i => (∑ k : Fin K, x (ix2 (n0 := M) (i 0) k) * w (ix2 (n1 := N) k (i 1))) + b (ix1 (n := N) (i 1))

theorem affine_apply {M K N : ℕ} (x : FVec Ideal ⟨2, ![M, K]⟩ .f32) (w : FVec Ideal ⟨2, ![K, N]⟩ .f32) (b : FVec Ideal ⟨1, ![N]⟩ .f32)
    (p : Fin M) (q : Fin N) : affine x w b (ix2 p q) = (∑ k : Fin K, x (ix2 p k) * w (ix2 k q)) + b (ix1 q) := rfl

/-- A block of T rows of `affine`: when x holds rows r … r + T − 1 of X, and w and b are W and B, the block's entry at y
    is `affine X W B` at the array index i whose row is r plus y's row and whose column is y's. -/
theorem affine_rows {M K N T : ℕ} (X : FVec Ideal ⟨2, ![M, K]⟩ .f32) (W : FVec Ideal ⟨2, ![K, N]⟩ .f32) (B : FVec Ideal ⟨1, ![N]⟩ .f32)
    (x : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = X (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    affine x w b y = affine X W B i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [affine_apply, affine_apply, hb]
  refine congrArg (· + B (ix1 q')) (Finset.sum_congr rfl fun k _ => ?_)
  rw [hx p k (h0 ▸ p'.isLt), hw, ← hp']

/-- The contraction index of a plain product is its one coordinate, so the contraction sum is a sum over `Fin K`. -/
theorem plain_sum {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = D
  have c1 : D.lhsContracting = [1] := by subst hD; rfl
  have c2 : D.rhsContracting = [0] := by subst hD; rfl
  have hr : D.contr.rank = 1 := by subst hD; rfl
  have hs : D.contr.size ⟨0, by omega⟩ = K := by subst hD; rfl
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ =>
      subst hD
      unfold DotDims.lhsIdx
      split
      · rename_i hb; exact absurd hb List.not_mem_nil
      · split
        · rfl
        · rename_i hn; exact absurd (List.mem_singleton.mpr rfl) hn
    | ⟨1, _⟩ => exact (D.lhsIdx_val_of_single c1 _ _).trans hk)
  have er : D.rhsIdx (ix2 p q) ((contrEquiv1 D K hr hs).symm k) = ix2 k q := funext fun a => Fin.ext (by
    match a with
    | ⟨0, _⟩ => exact (D.rhsIdx_val_of_single c2 _ _).trans hk
    | ⟨1, _⟩ =>
      subst hD
      unfold DotDims.rhsIdx
      split
      · rename_i hb; exact absurd hb List.not_mem_nil
      · split
        · rfl
        · rename_i hn; exact absurd (List.mem_singleton.mpr rfl) hn)
  rw [el, er]

/-- A matrix unit's product of two operands narrowed to bf16 into a zero accumulator, plus a vector re-laid as one
    row and repeated down the rows: at (p, q) it is `affine`. Narrowing is the identity on exact values. -/
theorem matmul_bias_apply {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩)
    (p : Fin M) (q : Fin N) :
    addf (matmul d none (truncf .bf16 x hb) (truncf .bf16 w hb) (constant ⟨2, ![M, N]⟩ .f32 0x00000000#32))
        (broadcastTo ⟨2, ![M, N]⟩ (shapeCast ⟨2, ![1, N]⟩ b hc) hbc) (ix2 p q)
      = affine x w b (ix2 p q) := by
  rw [affine_apply, addf_apply, broadcastTo_1b_ab_apply, shapeCast_a_1a_apply]
  refine congrArg (· + b (ix1 q)) ?_
  refine (Ideal.matmul_constant_zero_apply d none _ _ (ix2 p q)).trans ?_
  exact plain_sum d h1 h2 h3 h4 h5 h6 x w p q

/-- A vector broadcast to one row reads, at (u, i), the vector at i. -/
theorem bcast_a_1a_apply {a : ℕ} (x : (⟨1, ![a]⟩ : Shape).Idx → EReal)
    (h : (⟨1, ![a]⟩ : Shape).BroadcastsInDim ⟨2, ![1, a]⟩ ![1]) (u : Fin 1) (i : Fin a) :
    broadcastInDim ⟨2, ![1, a]⟩ ![1] h x (ix2 u i) = x (ix1 i) :=
  broadcastInDim_apply _ h x _ _ (fun ax => match ax with
    | ⟨0, _⟩ => by
      show i.val = if a = 1 then 0 else i.val
      split
      · have := i.isLt; omega
      · rfl)

/-- One row broadcast down the rows reads, at (p, c), the row at c. -/
theorem bcast_1b_ab_apply {a b : ℕ} (v : (⟨2, ![1, b]⟩ : Shape).Idx → EReal)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ (ix2 (0 : Fin 1) c) (fun ax => match ax with
    | ⟨0, _⟩ => by
      show (0 : ℕ) = if (1 : ℕ) = 1 then 0 else p.val
      rw [if_pos rfl]
    | ⟨1, _⟩ => by
      show c.val = if b = 1 then 0 else c.val
      split
      · have := c.isLt; omega
      · rfl)

/-- A host contraction of the same kind plus the vector broadcast to one row and then down the rows: `affine`. -/
theorem dot_bias_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1]) :
    addf (Host.dotGeneral (F := Ideal) d none x w)
        (broadcastInDim ⟨2, ![M, N]⟩ ![0, 1] hbc (broadcastInDim ⟨2, ![1, N]⟩ ![1] hr b))
      = affine x w b := by
  funext j
  obtain ⟨p, q, rfl⟩ : ∃ (p : Fin M) (q : Fin N), j = ix2 p q := ⟨j 0, j 1, eq_ix2 j⟩
  rw [affine_apply, addf_apply, bcast_1b_ab_apply, bcast_a_1a_apply]
  refine congrArg (· + b (ix1 q)) ?_
  simp only [Host.dotGeneral]
  rw [Ideal.dotGeneral_apply]
  exact plain_sum d h1 h2 h3 h4 h5 h6 x w p q

/-- The float word of 1.0 denotes the extended real one. -/
theorem one_f32 : Ideal.ofBits .f32 0x3F800000#32 = 1 := IdealRules.sign_bit.ideal_onePat .f32

/-- The host's spelling of the logistic function — one over (one plus the exponential of the negation), the ones
    broadcast constants — is, entry by entry, the logistic function a vector unit applies. -/
theorem host_sigmoid_eq {s : Shape} (y : FVec Ideal s .f32) (h : (⟨0, ![]⟩ : Shape).BroadcastsInDim s ![]) :
    Host.divf (F := Ideal) (broadcastInDim s ![] h (constant (F := Ideal) ⟨0, ![]⟩ .f32 0x3F800000#32))
        (addf (broadcastInDim s ![] h (constant (F := Ideal) ⟨0, ![]⟩ .f32 0x3F800000#32)) (Host.exp (F := Ideal) (Host.negf (F := Ideal) y)))
      = logistic y := by
  funext i
  simp only [Host.divf, Host.exp, Host.negf, addf, logistic, broadcastInDim, constant, Ideal.hostDivf_def, Ideal.logistic_def,
    Ideal.ofBits_def, one_f32, Ideal.logistic, Ideal.addf_def, Ideal.hostUnary_exp_def, Ideal.hostNegf_def, Ideal.negf_def]

/-- One graph layer's update of the node features: the logistic function of (features plus aggregated neighbours) times
    the weights plus the bias. -/
def ginLayer {M K N : ℕ} (h n : FVec Ideal ⟨2, ![M, K]⟩ .f32) (w : FVec Ideal ⟨2, ![K, N]⟩ .f32) (b : FVec Ideal ⟨1, ![N]⟩ .f32) :
    FVec Ideal ⟨2, ![M, N]⟩ .f32 :=
  fun i => Ideal.logistic (affine (fun j => h j + n j) w b i)

/-- The vector unit's form: the two operands (each through an identity re-lay) added, narrowed, multiplied into a zero
    accumulator, the bias row added, the logistic function applied. -/
theorem gin_pay_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x n : FVec Ideal ⟨2, ![M, K]⟩ .f32) (w : FVec Ideal ⟨2, ![K, N]⟩ .f32) (b : FVec Ideal ⟨1, ![N]⟩ .f32)
    (hb : FTy.bf16.bits < FTy.f32.bits) (hs : (⟨2, ![M, K]⟩ : Shape).ShapeCasts ⟨2, ![M, K]⟩)
    (hc : (⟨1, ![N]⟩ : Shape).ShapeCasts ⟨2, ![1, N]⟩) (hbc : (⟨2, ![1, N]⟩ : Shape).Broadcasts ⟨2, ![M, N]⟩) :
    logistic (addf (matmul d none (truncf .bf16 (addf (shapeCast ⟨2, ![M, K]⟩ x hs) (shapeCast ⟨2, ![M, K]⟩ n hs)) hb) (truncf .bf16 w hb)
        (constant ⟨2, ![M, N]⟩ .f32 0x00000000#32)) (broadcastTo ⟨2, ![M, N]⟩ (shapeCast ⟨2, ![1, N]⟩ b hc) hbc))
      = ginLayer x n w b := by
  funext j
  obtain ⟨p, q, rfl⟩ : ∃ (p : Fin M) (q : Fin N), j = ix2 p q := ⟨j 0, j 1, eq_ix2 j⟩
  rw [shapeCast_self, shapeCast_self]
  show Ideal.logistic _ = Ideal.logistic _
  exact congrArg Ideal.logistic (matmul_bias_apply d h1 h2 h3 h4 h5 h6 (addf x n) w b hb hc hbc p q)

/-- A block of T rows of a layer's update, as `affine_rows`. -/
theorem ginLayer_rows {M K N T : ℕ} (H Nb : FVec Ideal ⟨2, ![M, K]⟩ .f32) (W : FVec Ideal ⟨2, ![K, N]⟩ .f32) (B : FVec Ideal ⟨1, ![N]⟩ .f32)
    (x n : FVec Ideal ⟨2, ![T, K]⟩ .f32) (w : FVec Ideal ⟨2, ![K, N]⟩ .f32) (b : FVec Ideal ⟨1, ![N]⟩ .f32) (r : ℕ)
    (hx : ∀ (p : Fin T) (k : Fin K) (hp : r + p.val < M), x (ix2 p k) = H (ix2 ⟨r + p.val, hp⟩ k))
    (hn : ∀ (p : Fin T) (k : Fin K) (hp : r + p.val < M), n (ix2 p k) = Nb (ix2 ⟨r + p.val, hp⟩ k))
    (hw : ∀ z, w z = W z) (hb : ∀ z, b z = B z)
    (y : (⟨2, ![T, N]⟩ : Shape).Idx) (i : (⟨2, ![M, N]⟩ : Shape).Idx)
    (hi0 : (i 0).val = r + (y 0).val) (hi1 : (i 1).val = (y 1).val) :
    ginLayer x n w b y = ginLayer H Nb W B i :=
  congrArg Ideal.logistic (affine_rows (fun j => H j + Nb j) W B (fun j => x j + n j) w b r
    (fun p k hp => by show x (ix2 p k) + n (ix2 p k) = _; rw [hx p k hp, hn p k hp]) hw hb y i hi0 hi1)

/-- The host's form: the contraction of the sum with the weights, the bias broadcast in two steps, and the logistic
    function spelt as one over one plus the exponential of the negation. -/
theorem host_gin_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (h n : FVec Ideal ⟨2, ![M, K]⟩ .f32) (w : FVec Ideal ⟨2, ![K, N]⟩ .f32) (b : FVec Ideal ⟨1, ![N]⟩ .f32)
    (hr : (⟨1, ![N]⟩ : Shape).BroadcastsInDim ⟨2, ![1, N]⟩ ![1])
    (hbc : (⟨2, ![1, N]⟩ : Shape).BroadcastsInDim ⟨2, ![M, N]⟩ ![0, 1])
    (hone : (⟨0, ![]⟩ : Shape).BroadcastsInDim ⟨2, ![M, N]⟩ ![]) :
    Host.divf (F := Ideal) (broadcastInDim ⟨2, ![M, N]⟩ ![] hone (constant (F := Ideal) ⟨0, ![]⟩ .f32 0x3F800000#32))
        (addf (broadcastInDim ⟨2, ![M, N]⟩ ![] hone (constant (F := Ideal) ⟨0, ![]⟩ .f32 0x3F800000#32))
          (Host.exp (F := Ideal) (Host.negf (F := Ideal) (addf (Host.dotGeneral (F := Ideal) d none (addf h n) w)
            (broadcastInDim ⟨2, ![M, N]⟩ ![0, 1] hbc (broadcastInDim ⟨2, ![1, N]⟩ ![1] hr b))))))
      = ginLayer h n w b := by
  rw [host_sigmoid_eq, dot_bias_eq d h1 h2 h3 h4 h5 h6 (addf h n) w b hr hbc]
  rfl

end Cert.LibPlainDot

end
-- ==== Proof.LibMatProd.lean ====
/-
  The product of two matrices over the extended reals, entry by entry: entry (p, q) of x times w is the sum over k of
  x (p, k) · w (k, q). Three readings of it. A host contraction of x's second axis with w's first axis is this product.
  A matrix unit's product of the two operands narrowed to bf16, accumulated into zeros, is this product, since
  narrowing changes nothing on exact values. And a band of consecutive rows of the product is the product of that band
  of rows of x with w, which is what one block of a row-tiled computation holds.
-/
import proofs.«153866_j65085934403701_1_alg».proof.Proof.LibPlainDot

noncomputable section

namespace Cert.LibMatProd

open Idealize.ShloMosaic Idealize.ShloMosaic.ValueIdx Cert.LibPlainDot

/-- Entry (p, q) of rows times columns: the sum over k of x (p, k) · w (k, q). -/
def matProd {M K N : ℕ} (x : FVec Ideal ⟨2, ![M, K]⟩ .f32) (w : FVec Ideal ⟨2, ![K, N]⟩ .f32) : FVec Ideal ⟨2, ![M, N]⟩ .f32 :=
  fun i => ∑ k : Fin K, x (ix2 (n0 := M) (i 0) k) * w (ix2 (n1 := N) k (i 1))

theorem matProd_apply {M K N : ℕ} (x : FVec Ideal ⟨2, ![M, K]⟩ .f32) (w : FVec Ideal ⟨2, ![K, N]⟩ .f32) (p : Fin M) (q : Fin N) :
    matProd x w (ix2 p q) = ∑ k : Fin K, x (ix2 p k) * w (ix2 k q) := rfl

/-- A host contraction of the left operand's second axis with the right operand's first axis is the matrix product. -/
theorem host_dot_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) :
    Host.dotGeneral (F := Ideal) d none x w = matProd x w := by
  funext j
  obtain ⟨p, q, rfl⟩ : ∃ (p : Fin M) (q : Fin N), j = ix2 p q := ⟨j 0, j 1, eq_ix2 j⟩
  rw [matProd_apply]
  simp only [Host.dotGeneral]
  rw [Ideal.dotGeneral_apply]
  exact plain_sum d h1 h2 h3 h4 h5 h6 x w p q

/-- A matrix unit's product of two operands narrowed to bf16, accumulated into zeros, is the matrix product of the
    operands themselves: on exact values narrowing is the identity and the zero accumulator adds nothing. -/
theorem matmul_eq {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (hb : FTy.bf16.bits < FTy.f32.bits) :
    matmul d none (truncf .bf16 x hb) (truncf .bf16 w hb) (constant ⟨2, ![M, N]⟩ .f32 0x00000000#32) = matProd x w := by
  funext j
  obtain ⟨p, q, rfl⟩ : ∃ (p : Fin M) (q : Fin N), j = ix2 p q := ⟨j 0, j 1, eq_ix2 j⟩
  rw [matProd_apply]
  refine (Ideal.matmul_constant_zero_apply d none _ _ (ix2 p q)).trans ?_
  exact plain_sum d h1 h2 h3 h4 h5 h6 x w p q

/-- Rows r, …, r + T − 1 of a product: when x holds those rows of X and w is W, the entry of x times w at y is the entry
    of X times W at the index whose row is r plus y's row and whose column is y's. -/
theorem matProd_rows {M K N T : ℕ} (X : FVec Ideal ⟨2, ![M, K]⟩ .f32) (W : FVec Ideal ⟨2, ![K, N]⟩ .f32)
    (x : FVec Ideal ⟨2, ![T, K]⟩ .f32) (w : FVec Ideal ⟨2, ![K, N]⟩ .f32) (r : ℕ)
    (hx : ∀ (p : Fin T) (k : Fin K) (hp : r + p.val < M), x (ix2 p k) = X (ix2 ⟨r + p.val, hp⟩ k))
    (hw : ∀ z, w z = W z)
    (y : (⟨2, ![T, N]⟩ : Shape).Idx) (i : (⟨2, ![M, N]⟩ : Shape).Idx)
    (hi0 : (i 0).val = r + (y 0).val) (hi1 : (i 1).val = (y 1).val) :
    matProd x w y = matProd X W i := by
  obtain ⟨p, q, rfl⟩ : ∃ (p : Fin T) (q : Fin N), y = ix2 p q := ⟨y 0, y 1, eq_ix2 y⟩
  obtain ⟨p', q', rfl⟩ : ∃ (p' : Fin M) (q' : Fin N), i = ix2 p' q' := ⟨i 0, i 1, eq_ix2 i⟩
  have h0 : p'.val = r + p.val := hi0
  have h1 : q' = q := Fin.ext hi1
  subst h1
  have hp' : p' = ⟨r + p.val, h0 ▸ p'.isLt⟩ := Fin.ext h0
  rw [matProd_apply, matProd_apply]
  refine Finset.sum_congr rfl fun k _ => ?_
  rw [hx p k (h0 ▸ p'.isLt), hw, ← hp']

end Cert.LibMatProd

end
-- ==== Proof.Spec.lean ====
/-
  What one layer and the final stage compute, entry by entry, over the extended reals.

  A layer takes the aggregated features h and the input features x0 (both M rows of K numbers) and a K by N weight
  matrix w. It forms the mix 0.9·h + 0.1·x0 entry by entry (the two factors are the float words 0x3F666666 and
  0x3DCCCCCD), multiplies the mix by w as matrices, and applies to every entry z of the product the map that keeps z
  when z ≥ 0 and takes the word 0x3C23D70A times z elsewhere. The final stage is rows times a matrix plus a row
  vector, twice. A band of consecutive rows of a layer's result depends only on that band of rows of h and of x0.
-/
import proofs.«153866_j65085934403701_1_alg».proof.Proof.LibMatProd

noncomputable section

namespace Cert.Spec

open Idealize.ShloMosaic Idealize.ShloMosaic.ValueIdx Cert.LibPlainDot Cert.LibMatProd

/-- z where z ≥ 0, the fixed small multiple of z elsewhere. -/
def leakyPt (z : Ideal .f32) : Ideal .f32 :=
  Scalar.select (FloatOps.cmpf (F := Ideal) .oge z (FloatOps.ofBits .f32 0x00000000#32)) z
    (FloatOps.mulf (FloatOps.ofBits .f32 0x3C23D70A#32) z)

/-- 0.9·h + 0.1·x0, entry by entry. -/
def mix {s : Shape} (h x0 : FVec Ideal s .f32) : FVec Ideal s .f32 :=
  fun j => FloatOps.addf (FloatOps.mulf (FloatOps.ofBits .f32 0x3F666666#32) (h j))
    (FloatOps.mulf (FloatOps.ofBits .f32 0x3DCCCCCD#32) (x0 j))

/-- One layer: the mix times the weights, then the map `leakyPt` on every entry. -/
def layer {M K N : ℕ} (h x0 : FVec Ideal ⟨2, ![M, K]⟩ .f32) (w : FVec Ideal ⟨2, ![K, N]⟩ .f32) : FVec Ideal ⟨2, ![M, N]⟩ .f32 :=
  fun i => leakyPt (matProd (mix h x0) w i)

/-- The final stage: (x · wd + bd) · wo + bo. -/
def denseOut {M K D O : ℕ} (x : FVec Ideal ⟨2, ![M, K]⟩ .f32) (wd : FVec Ideal ⟨2, ![K, D]⟩ .f32) (bd : FVec Ideal ⟨1, ![D]⟩ .f32)
    (wo : FVec Ideal ⟨2, ![D, O]⟩ .f32) (bo : FVec Ideal ⟨1, ![O]⟩ .f32) : FVec Ideal ⟨2, ![M, O]⟩ .f32 :=
  affine (affine x wd bd) wo bo

/-- The entrywise map written with vector operations — compare with a splat zero, scale by a splat factor, choose —
    is `leakyPt` at every entry. -/
theorem leaky_vec {s : Shape} (D : FVec Ideal s .f32) :
    select (cmpf .oge D (broadcast s (Scalar.ofBits .f32 0x00000000#32))) D (mulf (broadcast s (Scalar.ofBits .f32 0x3C23D70A#32)) D)
      = fun i => leakyPt (D i) := rfl

/-- The mix written with vector operations. -/
theorem mix_vec {s : Shape} (h x0 : FVec Ideal s .f32) :
    addf (mulf (broadcast s (Scalar.ofBits .f32 0x3F666666#32)) h) (mulf (broadcast s (Scalar.ofBits .f32 0x3DCCCCCD#32)) x0) = mix h x0 := rfl

/-- A band of T consecutive rows of a layer's result, starting at row r: when h and x0 hold those rows of H and X0 and
    w is W, the band's entry at y is the whole result's entry at the index whose row is r plus y's row. -/
theorem layer_rows {M K N T : ℕ} (H X0 : FVec Ideal ⟨2, ![M, K]⟩ .f32) (W : FVec Ideal ⟨2, ![K, N]⟩ .f32)
    (h x0 : FVec Ideal ⟨2, ![T, K]⟩ .f32) (w : FVec Ideal ⟨2, ![K, N]⟩ .f32) (r : ℕ)
    (hh : ∀ (p : Fin T) (k : Fin K) (hp : r + p.val < M), h (ix2 p k) = H (ix2 ⟨r + p.val, hp⟩ k))
    (hx : ∀ (p : Fin T) (k : Fin K) (hp : r + p.val < M), x0 (ix2 p k) = X0 (ix2 ⟨r + p.val, hp⟩ k))
    (hw : ∀ z, w z = W z)
    (y : (⟨2, ![T, N]⟩ : Shape).Idx) (i : (⟨2, ![M, N]⟩ : Shape).Idx)
    (hi0 : (i 0).val = r + (y 0).val) (hi1 : (i 1).val = (y 1).val) :
    layer h x0 w y = layer H X0 W i :=
  congrArg leakyPt (matProd_rows (mix H X0) W (mix h x0) w r
    (fun p k hp => by show FloatOps.addf _ _ = FloatOps.addf _ _; rw [hh p k hp, hx p k hp]) hw y i hi0 hi1)

/-- A band of rows of the final stage, likewise. -/
theorem denseOut_rows {M K D O T : ℕ} (X : FVec Ideal ⟨2, ![M, K]⟩ .f32) (x : FVec Ideal ⟨2, ![T, K]⟩ .f32)
    (wd : FVec Ideal ⟨2, ![K, D]⟩ .f32) (bd : FVec Ideal ⟨1, ![D]⟩ .f32) (wo : FVec Ideal ⟨2, ![D, O]⟩ .f32) (bo : FVec Ideal ⟨1, ![O]⟩ .f32)
    (r : ℕ) (hx : ∀ (p : Fin T) (k : Fin K) (hp : r + p.val < M), x (ix2 p k) = X (ix2 ⟨r + p.val, hp⟩ k))
    (y : (⟨2, ![T, O]⟩ : Shape).Idx) (i : (⟨2, ![M, O]⟩ : Shape).Idx)
    (hi0 : (i 0).val = r + (y 0).val) (hi1 : (i 1).val = (y 1).val) :
    denseOut x wd bd wo bo y = denseOut X wd bd wo bo i :=
  affine_rows (affine X wd bd) wo bo (affine x wd bd) wo bo r
    (fun p k hp => affine_rows X wd bd x wd bd r hx (fun _ => rfl) (fun _ => rfl) (ix2 p k) (ix2 ⟨r + p.val, hp⟩ k) rfl rfl)
    (fun _ => rfl) (fun _ => rfl) y i hi0 hi1

end Cert.Spec

end
-- ==== Proof.Layer0.lean ====
/-
  One layer's dense part, region by region of the row-tiled computation, read as one function of whole arrays.

  The region's grid has 25 points. At point t the aggregated features and the input features are each read through rows
  2000·t … 2000·t + 1999 (all 128 columns), the 128 by 128 weight matrix is read whole, and the body stores, into rows
  2000·t … 2000·t + 1999 of the result, the mix of the two row bands times the weights with the entrywise map applied.
  A band of rows of a layer's result depends only on that band of rows of the two feature arrays, so every point writes
  its band of ONE function of the whole arrays; the 25 bands tile the 50000 rows (row r lies in the band of point
  r / 2000), so the result array ends holding that function.
-/
import proofs.«153866_j65085934403701_1_alg».proof.Proof.Spec
import proofs.«153866_j65085934403701_1_alg».proof.Proof.Gen.KernelIdeal.Frame
import Idealize.ShloMosaic.Lib.Pipeline.Value

noncomputable section

namespace Cert.KernelIdeal.Values

open Cert.KernelIdeal Cert.KernelIdeal.Gen Idealize.ShloMosaic Idealize.ShloMosaic.TcCoe Idealize.SL.Sem
open Idealize.ShloMosaic.ValueIdx
open Idealize.ShloMosaic.Pipeline (Dat)

/-- Zero offsets on both axes, however spelt. -/
theorem zero_offsets2 : (![0, 0] : Fin 2 → Nat) = fun _ => 0 := funext fun a => by fin_cases a <;> rfl

/-- The entrywise map applied to a vector that equals another is the map of the other's entries. -/
theorem leaky_of_eq {s : Shape} (D D' : FVec Ideal s .f32) (h : D = D') :
    select (cmpf .oge D (broadcast s (Scalar.ofBits .f32 0x00000000#32))) D (mulf (broadcast s (Scalar.ofBits .f32 0x3C23D70A#32)) D)
      = fun i => Cert.Spec.leakyPt (D' i) := by
  subst h; rfl

/-- What the body stores, from the three blocks it loads: the layer function of the blocks. The two identity re-lays
    drop, the mix is the entrywise 0.9·h + 0.1·x, and the matrix unit's product of the narrowed operands into zeros is the
    matrix product. -/
theorem layer0_payload (v0 v4 : Vec Ideal S2000x128 .f32) (v9 : Vec Ideal S128x128 .f32) :
    k0_pay1 (F := Ideal) v0 v4 v9 = Cert.Spec.layer (M := 2000) (K := 128) (N := 128) v0 v4 v9 := by
  unfold k0_pay1
  refine leaky_of_eq _ _ ?_
  rw [shapeCast_self, shapeCast_self]
  exact Cert.LibMatProd.matmul_eq dot_S2000x128_S128x128_S2000x128_1_0_0_1_n_n rfl rfl rfl rfl rfl rfl
    (Cert.Spec.mix v0 v4) v9 bitsLt_bf16_f32

/-- The printed index maps, decided once over the 25 points: the three row-tiled windows are at block (t, 0) at point
    t, the weights' window at block (0, 0). -/
theorem layer0_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

section Blocks

variable (V : (c : Dev nD) → (b : Ref sig .tc) → Buf (Elt Ideal) ((c : Thread nD τ).loc b))

/-- The first window's block at point t is rows 2000·t … of its array. -/
theorem layer0_block0 (c : Dev nD) (t : Fin cfg0.N) (p : Fin 2000) (k : Fin 128) (hp : 2000 * t.val + p.val < 50000) :
    (iblk0 V c 0 t : Vec Ideal S2000x128 .f32) (ix2 p k)
      = (V c (Pipeline.arrRef spec0 0) : S50000x128.Idx → Ideal .f32) (ix2 ⟨2000 * t.val + p.val, hp⟩ k) := by
  obtain ⟨e0, e1, -⟩ := layer0_index t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 2000 + 1 * p.val = 2000 * t.val + p.val; rw [e0]; omega
  | ⟨1, _⟩ => show win0_0.index t (1 : Fin 2) * 128 + 1 * k.val = k.val; rw [e1]; omega

/-- The second window's block at point t is rows 2000·t … of its array. -/
theorem layer0_block1 (c : Dev nD) (t : Fin cfg0.N) (p : Fin 2000) (k : Fin 128) (hp : 2000 * t.val + p.val < 50000) :
    (iblk0 V c 1 t : Vec Ideal S2000x128 .f32) (ix2 p k)
      = (V c (Pipeline.arrRef spec0 1) : S50000x128.Idx → Ideal .f32) (ix2 ⟨2000 * t.val + p.val, hp⟩ k) := by
  obtain ⟨-, -, e0, e1, -⟩ := layer0_index t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 2000 + 1 * p.val = 2000 * t.val + p.val; rw [e0]; omega
  | ⟨1, _⟩ => show win0_1.index t (1 : Fin 2) * 128 + 1 * k.val = k.val; rw [e1]; omega

/-- The weights' window holds its whole array at every point. -/
theorem layer0_block2 (c : Dev nD) (t : Fin cfg0.N) (z : S128x128.Idx) :
    (iblk0 V c 2 t : Vec Ideal S128x128 .f32) z = (V c (Pipeline.arrRef spec0 2) : S128x128.Idx → Ideal .f32) z := by
  obtain ⟨-, -, -, -, e0, e1, -⟩ := layer0_index t
  unfold iblk0
  rw [View.read_apply]
  show V c (Pipeline.arrRef spec0 2) _ = V c (Pipeline.arrRef spec0 2) _
  congr 1
  funext a
  apply Fin.ext
  match a with
  | ⟨0, _⟩ => show win0_2.index t (0 : Fin 2) * 128 + 1 * (z 0).val = (z 0).val; rw [e0]; omega
  | ⟨1, _⟩ => show win0_2.index t (1 : Fin 2) * 128 + 1 * (z 1).val = (z 1).val; rw [e1]; omega

/-- The whole-array function the region's result array ends holding. -/
abbrev layer0_whole (c : Dev nD) : S50000x128.Idx → Ideal .f32 :=
  Cert.Spec.layer (M := 50000) (K := 128) (N := 128)
    (V c (Pipeline.arrRef spec0 0) : S50000x128.Idx → Ideal .f32)
    (V c (Pipeline.arrRef spec0 1) : S50000x128.Idx → Ideal .f32)
    (V c (Pipeline.arrRef spec0 2) : S128x128.Idx → Ideal .f32)

/-- What point t writes back is its band of rows of the whole-array function. -/
theorem layer0_flushed (c : Dev nD) (t : Fin cfg0.N) :
    (dat0 (F := Ideal) V c).flushed 3 t = ((cfg0.win 3).blk t).view.read (Elt Ideal) (layer0_whole V c) := by
  show (cfg0.win 3).cut (grid0.coords t) ((dat0 (F := Ideal) V c).after 3 t) = _
  rw [after0_3]
  unfold out0_3
  rw [View.canon_unit_zero zero_offsets2]
  simp only [View.ld_unit_zero (S := S2000x128) zero_offsets2, View.ld_unit_zero (S := S128x128) zero_offsets2]
  rw [layer0_payload]
  obtain ⟨-, -, -, -, -, -, e0, e1⟩ := layer0_index t
  have hN : cfg0.N = 25 := N_0
  have ht : t.val < 25 := hN ▸ t.isLt
  funext y
  show Cert.Spec.layer (M := 2000) (K := 128) (N := 128) (iblk0 V c 0 t) (iblk0 V c 1 t) (iblk0 V c 2 t) y
      = layer0_whole V c (((cfg0.win 3).blk t).view.emb y)
  refine Cert.Spec.layer_rows _ _ _ _ _ _ (2000 * t.val)
    (fun p k hp => layer0_block0 V c t p k hp) (fun p k hp => layer0_block1 V c t p k hp)
    (fun z => layer0_block2 V c t z) y _ ?_ ?_
  · show win0_3.index t (0 : Fin 2) * 2000 + 1 * (y 0).val = 2000 * t.val + (y 0).val
    rw [e0]; omega
  · show win0_3.index t (1 : Fin 2) * 128 + 1 * (y 1).val = (y 1).val
    rw [e1]; omega

/-- An index of the result array is in point t's block iff each coordinate is in the block's range on its axis. -/
theorem layer0_mem_blk (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v47).slice (win0_3.rect t)).set ↔ _
  rw [View.set_slice_whole, Rect.mem_set_unit]
  exact Iff.rfl

/-- Every index of the result array is in some point's block: row r is in the band of point r / 2000. -/
theorem layer0_cover (i : S50000x128.Idx) :
    ∃ t : Fin cfg0.N, (cfg0.win 3).flush t = true ∧ i ∈ ((cfg0.win 3).blk t).view.set := by
  have hN : cfg0.N = 25 := N_0
  have hi0 : (i 0).val < 50000 := (i 0).isLt
  have hi1 : (i 1).val < 128 := (i 1).isLt
  have hq : (i 0).val / 2000 < cfg0.N := by rw [hN]; omega
  obtain ⟨-, -, -, -, -, -, e0, e1⟩ := layer0_index ⟨(i 0).val / 2000, hq⟩
  have e0' : win0_3.index ⟨(i 0).val / 2000, hq⟩ (0 : Fin 2) = (i 0).val / 2000 := e0
  refine ⟨⟨(i 0).val / 2000, hq⟩, flush0_3 _, ?_⟩
  rw [layer0_mem_blk]
  intro a
  match a with
  | ⟨0, _⟩ =>
    show win0_3.index ⟨(i 0).val / 2000, hq⟩ (0 : Fin 2) * 2000 ≤ (i 0).val ∧ (i 0).val < win0_3.index ⟨(i 0).val / 2000, hq⟩ (0 : Fin 2) * 2000 + 2000
    rw [e0']; omega
  | ⟨1, _⟩ =>
    show win0_3.index ⟨(i 0).val / 2000, hq⟩ (1 : Fin 2) * 128 ≤ (i 1).val ∧ (i 1).val < win0_3.index ⟨(i 0).val / 2000, hq⟩ (1 : Fin 2) * 128 + 128
    rw [e1]; omega

/-- The result array after the region: the layer function of the three arrays as the region finds them. -/
theorem layer0_final (c : Dev nD) :
    (dat0 (F := Ideal) V c).arrAt 3 cfg0.N = layer0_whole V c :=
  (dat0 (F := Ideal) V c).arrAt_eq_of_cover 3 (layer0_whole V c) (fun t _ => layer0_flushed V c t) layer0_cover

end Blocks

end Cert.KernelIdeal.Values

end
-- ==== Proof.Layer1.lean ====
/-
  One layer's dense part, region by region of the row-tiled computation, read as one function of whole arrays.

  The region's grid has 25 points. At point t the aggregated features and the input features are each read through rows
  2000·t … 2000·t + 1999 (all 128 columns), the 128 by 128 weight matrix is read whole, and the body stores, into rows
  2000·t … 2000·t + 1999 of the result, the mix of the two row bands times the weights with the entrywise map applied.
  A band of rows of a layer's result depends only on that band of rows of the two feature arrays, so every point writes
  its band of ONE function of the whole arrays; the 25 bands tile the 50000 rows (row r lies in the band of point
  r / 2000), so the result array ends holding that function.
-/
import proofs.«153866_j65085934403701_1_alg».proof.Proof.Layer0
import proofs.«153866_j65085934403701_1_alg».proof.Proof.Gen.KernelIdeal.Frame
import Idealize.ShloMosaic.Lib.Pipeline.Value

noncomputable section

namespace Cert.KernelIdeal.Values

open Cert.KernelIdeal Cert.KernelIdeal.Gen Idealize.ShloMosaic Idealize.ShloMosaic.TcCoe Idealize.SL.Sem
open Idealize.ShloMosaic.ValueIdx
open Idealize.ShloMosaic.Pipeline (Dat)

/-- What the body stores, from the three blocks it loads: the layer function of the blocks. The two identity re-lays
    drop, the mix is the entrywise 0.9·h + 0.1·x, and the matrix unit's product of the narrowed operands into zeros is the
    matrix product. -/
theorem layer1_payload (v0 v4 : Vec Ideal S2000x128 .f32) (v9 : Vec Ideal S128x128 .f32) :
    k1_pay1 (F := Ideal) v0 v4 v9 = Cert.Spec.layer (M := 2000) (K := 128) (N := 128) v0 v4 v9 := by
  unfold k1_pay1
  refine leaky_of_eq _ _ ?_
  rw [shapeCast_self, shapeCast_self]
  exact Cert.LibMatProd.matmul_eq dot_S2000x128_S128x128_S2000x128_1_0_0_1_n_n rfl rfl rfl rfl rfl rfl
    (Cert.Spec.mix v0 v4) v9 bitsLt_bf16_f32

/-- The printed index maps, decided once over the 25 points: the three row-tiled windows are at block (t, 0) at point
    t, the weights' window at block (0, 0). -/
theorem layer1_index : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section Blocks

variable (V : (c : Dev nD) → (b : Ref sig .tc) → Buf (Elt Ideal) ((c : Thread nD τ).loc b))

/-- The first window's block at point t is rows 2000·t … of its array. -/
theorem layer1_block0 (c : Dev nD) (t : Fin cfg1.N) (p : Fin 2000) (k : Fin 128) (hp : 2000 * t.val + p.val < 50000) :
    (iblk1 V c 0 t : Vec Ideal S2000x128 .f32) (ix2 p k)
      = (V c (Pipeline.arrRef spec1 0) : S50000x128.Idx → Ideal .f32) (ix2 ⟨2000 * t.val + p.val, hp⟩ k) := by
  obtain ⟨e0, e1, -⟩ := layer1_index t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 2000 + 1 * p.val = 2000 * t.val + p.val; rw [e0]; omega
  | ⟨1, _⟩ => show win1_0.index t (1 : Fin 2) * 128 + 1 * k.val = k.val; rw [e1]; omega

/-- The second window's block at point t is rows 2000·t … of its array. -/
theorem layer1_block1 (c : Dev nD) (t : Fin cfg1.N) (p : Fin 2000) (k : Fin 128) (hp : 2000 * t.val + p.val < 50000) :
    (iblk1 V c 1 t : Vec Ideal S2000x128 .f32) (ix2 p k)
      = (V c (Pipeline.arrRef spec1 1) : S50000x128.Idx → Ideal .f32) (ix2 ⟨2000 * t.val + p.val, hp⟩ k) := by
  obtain ⟨-, -, e0, e1, -⟩ := layer1_index t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 2000 + 1 * p.val = 2000 * t.val + p.val; rw [e0]; omega
  | ⟨1, _⟩ => show win1_1.index t (1 : Fin 2) * 128 + 1 * k.val = k.val; rw [e1]; omega

/-- The weights' window holds its whole array at every point. -/
theorem layer1_block2 (c : Dev nD) (t : Fin cfg1.N) (z : S128x128.Idx) :
    (iblk1 V c 2 t : Vec Ideal S128x128 .f32) z = (V c (Pipeline.arrRef spec1 2) : S128x128.Idx → Ideal .f32) z := by
  obtain ⟨-, -, -, -, e0, e1, -⟩ := layer1_index t
  unfold iblk1
  rw [View.read_apply]
  show V c (Pipeline.arrRef spec1 2) _ = V c (Pipeline.arrRef spec1 2) _
  congr 1
  funext a
  apply Fin.ext
  match a with
  | ⟨0, _⟩ => show win1_2.index t (0 : Fin 2) * 128 + 1 * (z 0).val = (z 0).val; rw [e0]; omega
  | ⟨1, _⟩ => show win1_2.index t (1 : Fin 2) * 128 + 1 * (z 1).val = (z 1).val; rw [e1]; omega

/-- The whole-array function the region's result array ends holding. -/
abbrev layer1_whole (c : Dev nD) : S50000x128.Idx → Ideal .f32 :=
  Cert.Spec.layer (M := 50000) (K := 128) (N := 128)
    (V c (Pipeline.arrRef spec1 0) : S50000x128.Idx → Ideal .f32)
    (V c (Pipeline.arrRef spec1 1) : S50000x128.Idx → Ideal .f32)
    (V c (Pipeline.arrRef spec1 2) : S128x128.Idx → Ideal .f32)

/-- What point t writes back is its band of rows of the whole-array function. -/
theorem layer1_flushed (c : Dev nD) (t : Fin cfg1.N) :
    (dat1 (F := Ideal) V c).flushed 3 t = ((cfg1.win 3).blk t).view.read (Elt Ideal) (layer1_whole V c) := by
  show (cfg1.win 3).cut (grid1.coords t) ((dat1 (F := Ideal) V c).after 3 t) = _
  rw [after1_3]
  unfold out1_3
  rw [View.canon_unit_zero zero_offsets2]
  simp only [View.ld_unit_zero (S := S2000x128) zero_offsets2, View.ld_unit_zero (S := S128x128) zero_offsets2]
  rw [layer1_payload]
  obtain ⟨-, -, -, -, -, -, e0, e1⟩ := layer1_index t
  have hN : cfg1.N = 25 := N_1
  have ht : t.val < 25 := hN ▸ t.isLt
  funext y
  show Cert.Spec.layer (M := 2000) (K := 128) (N := 128) (iblk1 V c 0 t) (iblk1 V c 1 t) (iblk1 V c 2 t) y
      = layer1_whole V c (((cfg1.win 3).blk t).view.emb y)
  refine Cert.Spec.layer_rows _ _ _ _ _ _ (2000 * t.val)
    (fun p k hp => layer1_block0 V c t p k hp) (fun p k hp => layer1_block1 V c t p k hp)
    (fun z => layer1_block2 V c t z) y _ ?_ ?_
  · show win1_3.index t (0 : Fin 2) * 2000 + 1 * (y 0).val = 2000 * t.val + (y 0).val
    rw [e0]; omega
  · show win1_3.index t (1 : Fin 2) * 128 + 1 * (y 1).val = (y 1).val
    rw [e1]; omega

/-- An index of the result array is in point t's block iff each coordinate is in the block's range on its axis. -/
theorem layer1_mem_blk (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v63).slice (win1_3.rect t)).set ↔ _
  rw [View.set_slice_whole, Rect.mem_set_unit]
  exact Iff.rfl

/-- Every index of the result array is in some point's block: row r is in the band of point r / 2000. -/
theorem layer1_cover (i : S50000x128.Idx) :
    ∃ t : Fin cfg1.N, (cfg1.win 3).flush t = true ∧ i ∈ ((cfg1.win 3).blk t).view.set := by
  have hN : cfg1.N = 25 := N_1
  have hi0 : (i 0).val < 50000 := (i 0).isLt
  have hi1 : (i 1).val < 128 := (i 1).isLt
  have hq : (i 0).val / 2000 < cfg1.N := by rw [hN]; omega
  obtain ⟨-, -, -, -, -, -, e0, e1⟩ := layer1_index ⟨(i 0).val / 2000, hq⟩
  have e0' : win1_3.index ⟨(i 0).val / 2000, hq⟩ (0 : Fin 2) = (i 0).val / 2000 := e0
  refine ⟨⟨(i 0).val / 2000, hq⟩, flush1_3 _, ?_⟩
  rw [layer1_mem_blk]
  intro a
  match a with
  | ⟨0, _⟩ =>
    show win1_3.index ⟨(i 0).val / 2000, hq⟩ (0 : Fin 2) * 2000 ≤ (i 0).val ∧ (i 0).val < win1_3.index ⟨(i 0).val / 2000, hq⟩ (0 : Fin 2) * 2000 + 2000
    rw [e0']; omega
  | ⟨1, _⟩ =>
    show win1_3.index ⟨(i 0).val / 2000, hq⟩ (1 : Fin 2) * 128 ≤ (i 1).val ∧ (i 1).val < win1_3.index ⟨(i 0).val / 2000, hq⟩ (1 : Fin 2) * 128 + 128
    rw [e1]; omega

/-- The result array after the region: the layer function of the three arrays as the region finds them. -/
theorem layer1_final (c : Dev nD) :
    (dat1 (F := Ideal) V c).arrAt 3 cfg1.N = layer1_whole V c :=
  (dat1 (F := Ideal) V c).arrAt_eq_of_cover 3 (layer1_whole V c) (fun t _ => layer1_flushed V c t) layer1_cover

end Blocks

end Cert.KernelIdeal.Values

end
-- ==== Proof.Layer2.lean ====
/-
  One layer's dense part, region by region of the row-tiled computation, read as one function of whole arrays.

  The region's grid has 25 points. At point t the aggregated features and the input features are each read through rows
  2000·t … 2000·t + 1999 (all 128 columns), the 128 by 128 weight matrix is read whole, and the body stores, into rows
  2000·t … 2000·t + 1999 of the result, the mix of the two row bands times the weights with the entrywise map applied.
  A band of rows of a layer's result depends only on that band of rows of the two feature arrays, so every point writes
  its band of ONE function of the whole arrays; the 25 bands tile the 50000 rows (row r lies in the band of point
  r / 2000), so the result array ends holding that function.
-/
import proofs.«153866_j65085934403701_1_alg».proof.Proof.Layer0
import proofs.«153866_j65085934403701_1_alg».proof.Proof.Gen.KernelIdeal.Frame
import Idealize.ShloMosaic.Lib.Pipeline.Value

noncomputable section

namespace Cert.KernelIdeal.Values

open Cert.KernelIdeal Cert.KernelIdeal.Gen Idealize.ShloMosaic Idealize.ShloMosaic.TcCoe Idealize.SL.Sem
open Idealize.ShloMosaic.ValueIdx
open Idealize.ShloMosaic.Pipeline (Dat)

/-- What the body stores, from the three blocks it loads: the layer function of the blocks. The two identity re-lays
    drop, the mix is the entrywise 0.9·h + 0.1·x, and the matrix unit's product of the narrowed operands into zeros is the
    matrix product. -/
theorem layer2_payload (v0 v4 : Vec Ideal S2000x128 .f32) (v9 : Vec Ideal S128x128 .f32) :
    k2_pay1 (F := Ideal) v0 v4 v9 = Cert.Spec.layer (M := 2000) (K := 128) (N := 128) v0 v4 v9 := by
  unfold k2_pay1
  refine leaky_of_eq _ _ ?_
  rw [shapeCast_self, shapeCast_self]
  exact Cert.LibMatProd.matmul_eq dot_S2000x128_S128x128_S2000x128_1_0_0_1_n_n rfl rfl rfl rfl rfl rfl
    (Cert.Spec.mix v0 v4) v9 bitsLt_bf16_f32

/-- The printed index maps, decided once over the 25 points: the three row-tiled windows are at block (t, 0) at point
    t, the weights' window at block (0, 0). -/
theorem layer2_index : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

section Blocks

variable (V : (c : Dev nD) → (b : Ref sig .tc) → Buf (Elt Ideal) ((c : Thread nD τ).loc b))

/-- The first window's block at point t is rows 2000·t … of its array. -/
theorem layer2_block0 (c : Dev nD) (t : Fin cfg2.N) (p : Fin 2000) (k : Fin 128) (hp : 2000 * t.val + p.val < 50000) :
    (iblk2 V c 0 t : Vec Ideal S2000x128 .f32) (ix2 p k)
      = (V c (Pipeline.arrRef spec2 0) : S50000x128.Idx → Ideal .f32) (ix2 ⟨2000 * t.val + p.val, hp⟩ k) := by
  obtain ⟨e0, e1, -⟩ := layer2_index t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 2000 + 1 * p.val = 2000 * t.val + p.val; rw [e0]; omega
  | ⟨1, _⟩ => show win2_0.index t (1 : Fin 2) * 128 + 1 * k.val = k.val; rw [e1]; omega

/-- The second window's block at point t is rows 2000·t … of its array. -/
theorem layer2_block1 (c : Dev nD) (t : Fin cfg2.N) (p : Fin 2000) (k : Fin 128) (hp : 2000 * t.val + p.val < 50000) :
    (iblk2 V c 1 t : Vec Ideal S2000x128 .f32) (ix2 p k)
      = (V c (Pipeline.arrRef spec2 1) : S50000x128.Idx → Ideal .f32) (ix2 ⟨2000 * t.val + p.val, hp⟩ k) := by
  obtain ⟨-, -, e0, e1, -⟩ := layer2_index t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 2000 + 1 * p.val = 2000 * t.val + p.val; rw [e0]; omega
  | ⟨1, _⟩ => show win2_1.index t (1 : Fin 2) * 128 + 1 * k.val = k.val; rw [e1]; omega

/-- The weights' window holds its whole array at every point. -/
theorem layer2_block2 (c : Dev nD) (t : Fin cfg2.N) (z : S128x128.Idx) :
    (iblk2 V c 2 t : Vec Ideal S128x128 .f32) z = (V c (Pipeline.arrRef spec2 2) : S128x128.Idx → Ideal .f32) z := by
  obtain ⟨-, -, -, -, e0, e1, -⟩ := layer2_index t
  unfold iblk2
  rw [View.read_apply]
  show V c (Pipeline.arrRef spec2 2) _ = V c (Pipeline.arrRef spec2 2) _
  congr 1
  funext a
  apply Fin.ext
  match a with
  | ⟨0, _⟩ => show win2_2.index t (0 : Fin 2) * 128 + 1 * (z 0).val = (z 0).val; rw [e0]; omega
  | ⟨1, _⟩ => show win2_2.index t (1 : Fin 2) * 128 + 1 * (z 1).val = (z 1).val; rw [e1]; omega

/-- The whole-array function the region's result array ends holding. -/
abbrev layer2_whole (c : Dev nD) : S50000x128.Idx → Ideal .f32 :=
  Cert.Spec.layer (M := 50000) (K := 128) (N := 128)
    (V c (Pipeline.arrRef spec2 0) : S50000x128.Idx → Ideal .f32)
    (V c (Pipeline.arrRef spec2 1) : S50000x128.Idx → Ideal .f32)
    (V c (Pipeline.arrRef spec2 2) : S128x128.Idx → Ideal .f32)

/-- What point t writes back is its band of rows of the whole-array function. -/
theorem layer2_flushed (c : Dev nD) (t : Fin cfg2.N) :
    (dat2 (F := Ideal) V c).flushed 3 t = ((cfg2.win 3).blk t).view.read (Elt Ideal) (layer2_whole V c) := by
  show (cfg2.win 3).cut (grid2.coords t) ((dat2 (F := Ideal) V c).after 3 t) = _
  rw [after2_3]
  unfold out2_3
  rw [View.canon_unit_zero zero_offsets2]
  simp only [View.ld_unit_zero (S := S2000x128) zero_offsets2, View.ld_unit_zero (S := S128x128) zero_offsets2]
  rw [layer2_payload]
  obtain ⟨-, -, -, -, -, -, e0, e1⟩ := layer2_index t
  have hN : cfg2.N = 25 := N_2
  have ht : t.val < 25 := hN ▸ t.isLt
  funext y
  show Cert.Spec.layer (M := 2000) (K := 128) (N := 128) (iblk2 V c 0 t) (iblk2 V c 1 t) (iblk2 V c 2 t) y
      = layer2_whole V c (((cfg2.win 3).blk t).view.emb y)
  refine Cert.Spec.layer_rows _ _ _ _ _ _ (2000 * t.val)
    (fun p k hp => layer2_block0 V c t p k hp) (fun p k hp => layer2_block1 V c t p k hp)
    (fun z => layer2_block2 V c t z) y _ ?_ ?_
  · show win2_3.index t (0 : Fin 2) * 2000 + 1 * (y 0).val = 2000 * t.val + (y 0).val
    rw [e0]; omega
  · show win2_3.index t (1 : Fin 2) * 128 + 1 * (y 1).val = (y 1).val
    rw [e1]; omega

/-- An index of the result array is in point t's block iff each coordinate is in the block's range on its axis. -/
theorem layer2_mem_blk (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v79).slice (win2_3.rect t)).set ↔ _
  rw [View.set_slice_whole, Rect.mem_set_unit]
  exact Iff.rfl

/-- Every index of the result array is in some point's block: row r is in the band of point r / 2000. -/
theorem layer2_cover (i : S50000x128.Idx) :
    ∃ t : Fin cfg2.N, (cfg2.win 3).flush t = true ∧ i ∈ ((cfg2.win 3).blk t).view.set := by
  have hN : cfg2.N = 25 := N_2
  have hi0 : (i 0).val < 50000 := (i 0).isLt
  have hi1 : (i 1).val < 128 := (i 1).isLt
  have hq : (i 0).val / 2000 < cfg2.N := by rw [hN]; omega
  obtain ⟨-, -, -, -, -, -, e0, e1⟩ := layer2_index ⟨(i 0).val / 2000, hq⟩
  have e0' : win2_3.index ⟨(i 0).val / 2000, hq⟩ (0 : Fin 2) = (i 0).val / 2000 := e0
  refine ⟨⟨(i 0).val / 2000, hq⟩, flush2_3 _, ?_⟩
  rw [layer2_mem_blk]
  intro a
  match a with
  | ⟨0, _⟩ =>
    show win2_3.index ⟨(i 0).val / 2000, hq⟩ (0 : Fin 2) * 2000 ≤ (i 0).val ∧ (i 0).val < win2_3.index ⟨(i 0).val / 2000, hq⟩ (0 : Fin 2) * 2000 + 2000
    rw [e0']; omega
  | ⟨1, _⟩ =>
    show win2_3.index ⟨(i 0).val / 2000, hq⟩ (1 : Fin 2) * 128 ≤ (i 1).val ∧ (i 1).val < win2_3.index ⟨(i 0).val / 2000, hq⟩ (1 : Fin 2) * 128 + 128
    rw [e1]; omega

/-- The result array after the region: the layer function of the three arrays as the region finds them. -/
theorem layer2_final (c : Dev nD) :
    (dat2 (F := Ideal) V c).arrAt 3 cfg2.N = layer2_whole V c :=
  (dat2 (F := Ideal) V c).arrAt_eq_of_cover 3 (layer2_whole V c) (fun t _ => layer2_flushed V c t) layer2_cover

end Blocks

end Cert.KernelIdeal.Values

end
-- ==== Proof.Layer3.lean ====
/-
  One layer's dense part, region by region of the row-tiled computation, read as one function of whole arrays.

  The region's grid has 25 points. At point t the aggregated features and the input features are each read through rows
  2000·t … 2000·t + 1999 (all 128 columns), the 128 by 128 weight matrix is read whole, and the body stores, into rows
  2000·t … 2000·t + 1999 of the result, the mix of the two row bands times the weights with the entrywise map applied.
  A band of rows of a layer's result depends only on that band of rows of the two feature arrays, so every point writes
  its band of ONE function of the whole arrays; the 25 bands tile the 50000 rows (row r lies in the band of point
  r / 2000), so the result array ends holding that function.
-/
import proofs.«153866_j65085934403701_1_alg».proof.Proof.Layer0
import proofs.«153866_j65085934403701_1_alg».proof.Proof.Gen.KernelIdeal.Frame
import Idealize.ShloMosaic.Lib.Pipeline.Value

noncomputable section

namespace Cert.KernelIdeal.Values

open Cert.KernelIdeal Cert.KernelIdeal.Gen Idealize.ShloMosaic Idealize.ShloMosaic.TcCoe Idealize.SL.Sem
open Idealize.ShloMosaic.ValueIdx
open Idealize.ShloMosaic.Pipeline (Dat)

/-- What the body stores, from the three blocks it loads: the layer function of the blocks. The two identity re-lays
    drop, the mix is the entrywise 0.9·h + 0.1·x, and the matrix unit's product of the narrowed operands into zeros is the
    matrix product. -/
theorem layer3_payload (v0 v4 : Vec Ideal S2000x128 .f32) (v9 : Vec Ideal S128x128 .f32) :
    k3_pay1 (F := Ideal) v0 v4 v9 = Cert.Spec.layer (M := 2000) (K := 128) (N := 128) v0 v4 v9 := by
  unfold k3_pay1
  refine leaky_of_eq _ _ ?_
  rw [shapeCast_self, shapeCast_self]
  exact Cert.LibMatProd.matmul_eq dot_S2000x128_S128x128_S2000x128_1_0_0_1_n_n rfl rfl rfl rfl rfl rfl
    (Cert.Spec.mix v0 v4) v9 bitsLt_bf16_f32

/-- The printed index maps, decided once over the 25 points: the three row-tiled windows are at block (t, 0) at point
    t, the weights' window at block (0, 0). -/
theorem layer3_index : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

section Blocks

variable (V : (c : Dev nD) → (b : Ref sig .tc) → Buf (Elt Ideal) ((c : Thread nD τ).loc b))

/-- The first window's block at point t is rows 2000·t … of its array. -/
theorem layer3_block0 (c : Dev nD) (t : Fin cfg3.N) (p : Fin 2000) (k : Fin 128) (hp : 2000 * t.val + p.val < 50000) :
    (iblk3 V c 0 t : Vec Ideal S2000x128 .f32) (ix2 p k)
      = (V c (Pipeline.arrRef spec3 0) : S50000x128.Idx → Ideal .f32) (ix2 ⟨2000 * t.val + p.val, hp⟩ k) := by
  obtain ⟨e0, e1, -⟩ := layer3_index t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 2000 + 1 * p.val = 2000 * t.val + p.val; rw [e0]; omega
  | ⟨1, _⟩ => show win3_0.index t (1 : Fin 2) * 128 + 1 * k.val = k.val; rw [e1]; omega

/-- The second window's block at point t is rows 2000·t … of its array. -/
theorem layer3_block1 (c : Dev nD) (t : Fin cfg3.N) (p : Fin 2000) (k : Fin 128) (hp : 2000 * t.val + p.val < 50000) :
    (iblk3 V c 1 t : Vec Ideal S2000x128 .f32) (ix2 p k)
      = (V c (Pipeline.arrRef spec3 1) : S50000x128.Idx → Ideal .f32) (ix2 ⟨2000 * t.val + p.val, hp⟩ k) := by
  obtain ⟨-, -, e0, e1, -⟩ := layer3_index t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 2000 + 1 * p.val = 2000 * t.val + p.val; rw [e0]; omega
  | ⟨1, _⟩ => show win3_1.index t (1 : Fin 2) * 128 + 1 * k.val = k.val; rw [e1]; omega

/-- The weights' window holds its whole array at every point. -/
theorem layer3_block2 (c : Dev nD) (t : Fin cfg3.N) (z : S128x128.Idx) :
    (iblk3 V c 2 t : Vec Ideal S128x128 .f32) z = (V c (Pipeline.arrRef spec3 2) : S128x128.Idx → Ideal .f32) z := by
  obtain ⟨-, -, -, -, e0, e1, -⟩ := layer3_index t
  unfold iblk3
  rw [View.read_apply]
  show V c (Pipeline.arrRef spec3 2) _ = V c (Pipeline.arrRef spec3 2) _
  congr 1
  funext a
  apply Fin.ext
  match a with
  | ⟨0, _⟩ => show win3_2.index t (0 : Fin 2) * 128 + 1 * (z 0).val = (z 0).val; rw [e0]; omega
  | ⟨1, _⟩ => show win3_2.index t (1 : Fin 2) * 128 + 1 * (z 1).val = (z 1).val; rw [e1]; omega

/-- The whole-array function the region's result array ends holding. -/
abbrev layer3_whole (c : Dev nD) : S50000x128.Idx → Ideal .f32 :=
  Cert.Spec.layer (M := 50000) (K := 128) (N := 128)
    (V c (Pipeline.arrRef spec3 0) : S50000x128.Idx → Ideal .f32)
    (V c (Pipeline.arrRef spec3 1) : S50000x128.Idx → Ideal .f32)
    (V c (Pipeline.arrRef spec3 2) : S128x128.Idx → Ideal .f32)

/-- What point t writes back is its band of rows of the whole-array function. -/
theorem layer3_flushed (c : Dev nD) (t : Fin cfg3.N) :
    (dat3 (F := Ideal) V c).flushed 3 t = ((cfg3.win 3).blk t).view.read (Elt Ideal) (layer3_whole V c) := by
  show (cfg3.win 3).cut (grid3.coords t) ((dat3 (F := Ideal) V c).after 3 t) = _
  rw [after3_3]
  unfold out3_3
  rw [View.canon_unit_zero zero_offsets2]
  simp only [View.ld_unit_zero (S := S2000x128) zero_offsets2, View.ld_unit_zero (S := S128x128) zero_offsets2]
  rw [layer3_payload]
  obtain ⟨-, -, -, -, -, -, e0, e1⟩ := layer3_index t
  have hN : cfg3.N = 25 := N_3
  have ht : t.val < 25 := hN ▸ t.isLt
  funext y
  show Cert.Spec.layer (M := 2000) (K := 128) (N := 128) (iblk3 V c 0 t) (iblk3 V c 1 t) (iblk3 V c 2 t) y
      = layer3_whole V c (((cfg3.win 3).blk t).view.emb y)
  refine Cert.Spec.layer_rows _ _ _ _ _ _ (2000 * t.val)
    (fun p k hp => layer3_block0 V c t p k hp) (fun p k hp => layer3_block1 V c t p k hp)
    (fun z => layer3_block2 V c t z) y _ ?_ ?_
  · show win3_3.index t (0 : Fin 2) * 2000 + 1 * (y 0).val = 2000 * t.val + (y 0).val
    rw [e0]; omega
  · show win3_3.index t (1 : Fin 2) * 128 + 1 * (y 1).val = (y 1).val
    rw [e1]; omega

/-- An index of the result array is in point t's block iff each coordinate is in the block's range on its axis. -/
theorem layer3_mem_blk (t : Fin cfg3.N) (i : S50000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v95).slice (win3_3.rect t)).set ↔ _
  rw [View.set_slice_whole, Rect.mem_set_unit]
  exact Iff.rfl

/-- Every index of the result array is in some point's block: row r is in the band of point r / 2000. -/
theorem layer3_cover (i : S50000x128.Idx) :
    ∃ t : Fin cfg3.N, (cfg3.win 3).flush t = true ∧ i ∈ ((cfg3.win 3).blk t).view.set := by
  have hN : cfg3.N = 25 := N_3
  have hi0 : (i 0).val < 50000 := (i 0).isLt
  have hi1 : (i 1).val < 128 := (i 1).isLt
  have hq : (i 0).val / 2000 < cfg3.N := by rw [hN]; omega
  obtain ⟨-, -, -, -, -, -, e0, e1⟩ := layer3_index ⟨(i 0).val / 2000, hq⟩
  have e0' : win3_3.index ⟨(i 0).val / 2000, hq⟩ (0 : Fin 2) = (i 0).val / 2000 := e0
  refine ⟨⟨(i 0).val / 2000, hq⟩, flush3_3 _, ?_⟩
  rw [layer3_mem_blk]
  intro a
  match a with
  | ⟨0, _⟩ =>
    show win3_3.index ⟨(i 0).val / 2000, hq⟩ (0 : Fin 2) * 2000 ≤ (i 0).val ∧ (i 0).val < win3_3.index ⟨(i 0).val / 2000, hq⟩ (0 : Fin 2) * 2000 + 2000
    rw [e0']; omega
  | ⟨1, _⟩ =>
    show win3_3.index ⟨(i 0).val / 2000, hq⟩ (1 : Fin 2) * 128 ≤ (i 1).val ∧ (i 1).val < win3_3.index ⟨(i 0).val / 2000, hq⟩ (1 : Fin 2) * 128 + 128
    rw [e1]; omega

/-- The result array after the region: the layer function of the three arrays as the region finds them. -/
theorem layer3_final (c : Dev nD) :
    (dat3 (F := Ideal) V c).arrAt 3 cfg3.N = layer3_whole V c :=
  (dat3 (F := Ideal) V c).arrAt_eq_of_cover 3 (layer3_whole V c) (fun t _ => layer3_flushed V c t) layer3_cover

end Blocks

end Cert.KernelIdeal.Values

end
-- ==== Proof.Layer4.lean ====
/-
  One layer's dense part, region by region of the row-tiled computation, read as one function of whole arrays.

  The region's grid has 25 points. At point t the aggregated features and the input features are each read through rows
  2000·t … 2000·t + 1999 (all 128 columns), the 128 by 128 weight matrix is read whole, and the body stores, into rows
  2000·t … 2000·t + 1999 of the result, the mix of the two row bands times the weights with the entrywise map applied.
  A band of rows of a layer's result depends only on that band of rows of the two feature arrays, so every point writes
  its band of ONE function of the whole arrays; the 25 bands tile the 50000 rows (row r lies in the band of point
  r / 2000), so the result array ends holding that function.
-/
import proofs.«153866_j65085934403701_1_alg».proof.Proof.Layer0
import proofs.«153866_j65085934403701_1_alg».proof.Proof.Gen.KernelIdeal.Frame
import Idealize.ShloMosaic.Lib.Pipeline.Value

noncomputable section

namespace Cert.KernelIdeal.Values

open Cert.KernelIdeal Cert.KernelIdeal.Gen Idealize.ShloMosaic Idealize.ShloMosaic.TcCoe Idealize.SL.Sem
open Idealize.ShloMosaic.ValueIdx
open Idealize.ShloMosaic.Pipeline (Dat)

/-- What the body stores, from the three blocks it loads: the layer function of the blocks. The two identity re-lays
    drop, the mix is the entrywise 0.9·h + 0.1·x, and the matrix unit's product of the narrowed operands into zeros is the
    matrix product. -/
theorem layer4_payload (v0 v4 : Vec Ideal S2000x128 .f32) (v9 : Vec Ideal S128x128 .f32) :
    k4_pay1 (F := Ideal) v0 v4 v9 = Cert.Spec.layer (M := 2000) (K := 128) (N := 128) v0 v4 v9 := by
  unfold k4_pay1
  refine leaky_of_eq _ _ ?_
  rw [shapeCast_self, shapeCast_self]
  exact Cert.LibMatProd.matmul_eq dot_S2000x128_S128x128_S2000x128_1_0_0_1_n_n rfl rfl rfl rfl rfl rfl
    (Cert.Spec.mix v0 v4) v9 bitsLt_bf16_f32

/-- The printed index maps, decided once over the 25 points: the three row-tiled windows are at block (t, 0) at point
    t, the weights' window at block (0, 0). -/
theorem layer4_index : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

section Blocks

variable (V : (c : Dev nD) → (b : Ref sig .tc) → Buf (Elt Ideal) ((c : Thread nD τ).loc b))

/-- The first window's block at point t is rows 2000·t … of its array. -/
theorem layer4_block0 (c : Dev nD) (t : Fin cfg4.N) (p : Fin 2000) (k : Fin 128) (hp : 2000 * t.val + p.val < 50000) :
    (iblk4 V c 0 t : Vec Ideal S2000x128 .f32) (ix2 p k)
      = (V c (Pipeline.arrRef spec4 0) : S50000x128.Idx → Ideal .f32) (ix2 ⟨2000 * t.val + p.val, hp⟩ k) := by
  obtain ⟨e0, e1, -⟩ := layer4_index t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 2000 + 1 * p.val = 2000 * t.val + p.val; rw [e0]; omega
  | ⟨1, _⟩ => show win4_0.index t (1 : Fin 2) * 128 + 1 * k.val = k.val; rw [e1]; omega

/-- The second window's block at point t is rows 2000·t … of its array. -/
theorem layer4_block1 (c : Dev nD) (t : Fin cfg4.N) (p : Fin 2000) (k : Fin 128) (hp : 2000 * t.val + p.val < 50000) :
    (iblk4 V c 1 t : Vec Ideal S2000x128 .f32) (ix2 p k)
      = (V c (Pipeline.arrRef spec4 1) : S50000x128.Idx → Ideal .f32) (ix2 ⟨2000 * t.val + p.val, hp⟩ k) := by
  obtain ⟨-, -, e0, e1, -⟩ := layer4_index t
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 2000 + 1 * p.val = 2000 * t.val + p.val; rw [e0]; omega
  | ⟨1, _⟩ => show win4_1.index t (1 : Fin 2) * 128 + 1 * k.val = k.val; rw [e1]; omega

/-- The weights' window holds its whole array at every point. -/
theorem layer4_block2 (c : Dev nD) (t : Fin cfg4.N) (z : S128x128.Idx) :
    (iblk4 V c 2 t : Vec Ideal S128x128 .f32) z = (V c (Pipeline.arrRef spec4 2) : S128x128.Idx → Ideal .f32) z := by
  obtain ⟨-, -, -, -, e0, e1, -⟩ := layer4_index t
  unfold iblk4
  rw [View.read_apply]
  show V c (Pipeline.arrRef spec4 2) _ = V c (Pipeline.arrRef spec4 2) _
  congr 1
  funext a
  apply Fin.ext
  match a with
  | ⟨0, _⟩ => show win4_2.index t (0 : Fin 2) * 128 + 1 * (z 0).val = (z 0).val; rw [e0]; omega
  | ⟨1, _⟩ => show win4_2.index t (1 : Fin 2) * 128 + 1 * (z 1).val = (z 1).val; rw [e1]; omega

/-- The whole-array function the region's result array ends holding. -/
abbrev layer4_whole (c : Dev nD) : S50000x128.Idx → Ideal .f32 :=
  Cert.Spec.layer (M := 50000) (K := 128) (N := 128)
    (V c (Pipeline.arrRef spec4 0) : S50000x128.Idx → Ideal .f32)
    (V c (Pipeline.arrRef spec4 1) : S50000x128.Idx → Ideal .f32)
    (V c (Pipeline.arrRef spec4 2) : S128x128.Idx → Ideal .f32)

/-- What point t writes back is its band of rows of the whole-array function. -/
theorem layer4_flushed (c : Dev nD) (t : Fin cfg4.N) :
    (dat4 (F := Ideal) V c).flushed 3 t = ((cfg4.win 3).blk t).view.read (Elt Ideal) (layer4_whole V c) := by
  show (cfg4.win 3).cut (grid4.coords t) ((dat4 (F := Ideal) V c).after 3 t) = _
  rw [after4_3]
  unfold out4_3
  rw [View.canon_unit_zero zero_offsets2]
  simp only [View.ld_unit_zero (S := S2000x128) zero_offsets2, View.ld_unit_zero (S := S128x128) zero_offsets2]
  rw [layer4_payload]
  obtain ⟨-, -, -, -, -, -, e0, e1⟩ := layer4_index t
  have hN : cfg4.N = 25 := N_4
  have ht : t.val < 25 := hN ▸ t.isLt
  funext y
  show Cert.Spec.layer (M := 2000) (K := 128) (N := 128) (iblk4 V c 0 t) (iblk4 V c 1 t) (iblk4 V c 2 t) y
      = layer4_whole V c (((cfg4.win 3).blk t).view.emb y)
  refine Cert.Spec.layer_rows _ _ _ _ _ _ (2000 * t.val)
    (fun p k hp => layer4_block0 V c t p k hp) (fun p k hp => layer4_block1 V c t p k hp)
    (fun z => layer4_block2 V c t z) y _ ?_ ?_
  · show win4_3.index t (0 : Fin 2) * 2000 + 1 * (y 0).val = 2000 * t.val + (y 0).val
    rw [e0]; omega
  · show win4_3.index t (1 : Fin 2) * 128 + 1 * (y 1).val = (y 1).val
    rw [e1]; omega

/-- An index of the result array is in point t's block iff each coordinate is in the block's range on its axis. -/
theorem layer4_mem_blk (t : Fin cfg4.N) (i : S50000x128.Idx) :
    i ∈ ((cfg4.win 3).blk t).view.set ↔ ∀ a : Fin 2, win4_3.index t a * S2000x128.size a ≤ (i a).val ∧ (i a).val < win4_3.index t a * S2000x128.size a + S2000x128.size a := by
  show i ∈ ((View.whole main_v111).slice (win4_3.rect t)).set ↔ _
  rw [View.set_slice_whole, Rect.mem_set_unit]
  exact Iff.rfl

/-- Every index of the result array is in some point's block: row r is in the band of point r / 2000. -/
theorem layer4_cover (i : S50000x128.Idx) :
    ∃ t : Fin cfg4.N, (cfg4.win 3).flush t = true ∧ i ∈ ((cfg4.win 3).blk t).view.set := by
  have hN : cfg4.N = 25 := N_4
  have hi0 : (i 0).val < 50000 := (i 0).isLt
  have hi1 : (i 1).val < 128 := (i 1).isLt
  have hq : (i 0).val / 2000 < cfg4.N := by rw [hN]; omega
  obtain ⟨-, -, -, -, -, -, e0, e1⟩ := layer4_index ⟨(i 0).val / 2000, hq⟩
  have e0' : win4_3.index ⟨(i 0).val / 2000, hq⟩ (0 : Fin 2) = (i 0).val / 2000 := e0
  refine ⟨⟨(i 0).val / 2000, hq⟩, flush4_3 _, ?_⟩
  rw [layer4_mem_blk]
  intro a
  match a with
  | ⟨0, _⟩ =>
    show win4_3.index ⟨(i 0).val / 2000, hq⟩ (0 : Fin 2) * 2000 ≤ (i 0).val ∧ (i 0).val < win4_3.index ⟨(i 0).val / 2000, hq⟩ (0 : Fin 2) * 2000 + 2000
    rw [e0']; omega
  | ⟨1, _⟩ =>
    show win4_3.index ⟨(i 0).val / 2000, hq⟩ (1 : Fin 2) * 128 ≤ (i 1).val ∧ (i 1).val < win4_3.index ⟨(i 0).val / 2000, hq⟩ (1 : Fin 2) * 128 + 128
    rw [e1]; omega

/-- The result array after the region: the layer function of the three arrays as the region finds them. -/
theorem layer4_final (c : Dev nD) :
    (dat4 (F := Ideal) V c).arrAt 3 cfg4.N = layer4_whole V c :=
  (dat4 (F := Ideal) V c).arrAt_eq_of_cover 3 (layer4_whole V c) (fun t _ => layer4_flushed V c t) layer4_cover

end Blocks

end Cert.KernelIdeal.Values

end
-- ==== Proof.DenseOut.lean ====
/-
  The final stage, point by point of the row-tiled computation, read as one function of whole arrays.

  The region's grid has 25 points. At point t the features are read through rows 2000·t … 2000·t + 1999 (all 128
  columns); the 128 by 256 matrix, the 256 vector, the 256 by 2 matrix and the 2 vector are read whole; and the body
  stores, into rows 2000·t … 2000·t + 1999 of the 50000 by 2 result, (rows · matrix + vector) · matrix + vector of
  what it read. A band of rows of that result depends only on the same band of rows of the features, so every point
  writes its band of ONE function of the whole arrays; the 25 bands tile the 50000 rows (row r lies in the band of
  point r / 2000), so the result array ends holding that function.
-/
import proofs.«153866_j65085934403701_1_alg».proof.Proof.Layer0
import proofs.«153866_j65085934403701_1_alg».proof.Proof.Gen.KernelIdeal.Frame
import Idealize.ShloMosaic.Lib.Pipeline.Value

noncomputable section

namespace Cert.KernelIdeal.Values

open Cert.KernelIdeal Cert.KernelIdeal.Gen Idealize.ShloMosaic Idealize.ShloMosaic.TcCoe Idealize.SL.Sem
open Idealize.ShloMosaic.ValueIdx
open Idealize.ShloMosaic.Pipeline (Dat)

/-- A zero offset on the one axis, however spelt. -/
theorem zero_offsets1 : (![0] : Fin 1 → Nat) = fun _ => 0 := funext fun a => by fin_cases a; rfl

/-- A matrix unit's product of the narrowed operands into zeros, plus the vector re-laid as one row and repeated down
    the rows, is rows times columns plus the vector, as whole vectors. -/
theorem affine_vec {M K N : ℕ} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (x : FVec Ideal ⟨2, ![M, K]⟩ .f32) (w : FVec Ideal ⟨2, ![K, N]⟩ .f32) (b : FVec Ideal ⟨1, ![N]⟩ .f32)
    (hb : FTy.bf16.bits < FTy.f32.bits)
    (hc : (⟨1, ![N]⟩ : Shape).ShapeCasts ⟨2, ![1, N]⟩) (hbc : (⟨2, ![1, N]⟩ : Shape).Broadcasts ⟨2, ![M, N]⟩) :
    addf (matmul d none (truncf .bf16 x hb) (truncf .bf16 w hb) (constant ⟨2, ![M, N]⟩ .f32 0x00000000#32))
        (broadcastTo ⟨2, ![M, N]⟩ (shapeCast ⟨2, ![1, N]⟩ b hc) hbc)
      = Cert.LibPlainDot.affine x w b := by
  funext j
  obtain ⟨p, q, rfl⟩ : ∃ (p : Fin M) (q : Fin N), j = ix2 p q := ⟨j 0, j 1, eq_ix2 j⟩
  exact Cert.LibPlainDot.matmul_bias_apply d h1 h2 h3 h4 h5 h6 x w b hb hc hbc p q

/-- Two such stages, the second fed the first's result narrowed: the final stage's function. -/
theorem affine2_vec {M K D O : ℕ} (d1 : DotDims ⟨2, ![M, K]⟩ ⟨2, ![K, D]⟩ ⟨2, ![M, D]⟩)
    (d2 : DotDims ⟨2, ![M, D]⟩ ⟨2, ![D, O]⟩ ⟨2, ![M, O]⟩)
    (a1 : d1.lhsContracting = [1]) (a2 : d1.rhsContracting = [0]) (a3 : d1.lhsNonContracting = [0])
    (a4 : d1.rhsNonContracting = [1]) (a5 : d1.lhsBatch = []) (a6 : d1.rhsBatch = [])
    (b1 : d2.lhsContracting = [1]) (b2 : d2.rhsContracting = [0]) (b3 : d2.lhsNonContracting = [0])
    (b4 : d2.rhsNonContracting = [1]) (b5 : d2.lhsBatch = []) (b6 : d2.rhsBatch = [])
    (x : FVec Ideal ⟨2, ![M, K]⟩ .f32) (wd : FVec Ideal ⟨2, ![K, D]⟩ .f32) (bd : FVec Ideal ⟨1, ![D]⟩ .f32)
    (wo : FVec Ideal ⟨2, ![D, O]⟩ .f32) (bo : FVec Ideal ⟨1, ![O]⟩ .f32)
    (hb : FTy.bf16.bits < FTy.f32.bits)
    (hc1 : (⟨1, ![D]⟩ : Shape).ShapeCasts ⟨2, ![1, D]⟩) (hbc1 : (⟨2, ![1, D]⟩ : Shape).Broadcasts ⟨2, ![M, D]⟩)
    (hc2 : (⟨1, ![O]⟩ : Shape).ShapeCasts ⟨2, ![1, O]⟩) (hbc2 : (⟨2, ![1, O]⟩ : Shape).Broadcasts ⟨2, ![M, O]⟩) :
    addf (matmul d2 none
          (truncf .bf16 (addf (matmul d1 none (truncf .bf16 x hb) (truncf .bf16 wd hb) (constant ⟨2, ![M, D]⟩ .f32 0x00000000#32))
              (broadcastTo ⟨2, ![M, D]⟩ (shapeCast ⟨2, ![1, D]⟩ bd hc1) hbc1)) hb)
          (truncf .bf16 wo hb) (constant ⟨2, ![M, O]⟩ .f32 0x00000000#32))
        (broadcastTo ⟨2, ![M, O]⟩ (shapeCast ⟨2, ![1, O]⟩ bo hc2) hbc2)
      = Cert.Spec.denseOut x wd bd wo bo := by
  rw [affine_vec d1 a1 a2 a3 a4 a5 a6 x wd bd hb hc1 hbc1]
  exact affine_vec d2 b1 b2 b3 b4 b5 b6 (Cert.LibPlainDot.affine x wd bd) wo bo hb hc2 hbc2

/-- What the body stores, from the five blocks it loads: the final stage's function of the blocks (the identity
    re-lay of the features drops). -/
theorem dense_payload (v0 : Vec Ideal S2000x128 .f32) (v3 : Vec Ideal S128x256 .f32) (v6 : Vec Ideal S256 .f32)
    (v11 : Vec Ideal S256x2 .f32) (v14 : Vec Ideal S2 .f32) :
    k5_pay1 (F := Ideal) v0 v3 v6 v11 v14
      = Cert.Spec.denseOut (M := 2000) (K := 128) (D := 256) (O := 2) v0 v3 v6 v11 v14 := by
  unfold k5_pay1
  rw [shapeCast_self]
  exact affine2_vec dot_S2000x128_S128x256_S2000x256_1_0_0_1_n_n dot_S2000x256_S256x2_S2000x2_1_0_0_1_n_n
    rfl rfl rfl rfl rfl rfl rfl rfl rfl rfl rfl rfl v0 v3 v6 v11 v14 bitsLt_bf16_f32
    shapeCasts_S256_S1x256 broadcasts_S1x256_S2000x256 shapeCasts_S2_S1x2 broadcasts_S1x2_S2000x2

/-- The printed index maps, decided once over the 25 points: the two row-tiled windows are at block (t, 0) at point t,
    the four whole-array windows at block zero. -/
theorem dense_index : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 1) = 0
    ∧ win5_3.index t (0 : Fin 2) = 0 ∧ win5_3.index t (1 : Fin 2) = 0
    ∧ win5_4.index t (0 : Fin 1) = 0
    ∧ win5_5.index t (0 : Fin 2) = t.val ∧ win5_5.index t (1 : Fin 2) = 0 :=
  (by decide +kernel : ∀ t : Fin grid5.N, _)

section Blocks

variable (V : (c : Dev nD) → (b : Ref sig .tc) → Buf (Elt Ideal) ((c : Thread nD τ).loc b))

/-- The features' block at point t is rows 2000·t … of their array. -/
theorem dense_block0 (c : Dev nD) (t : Fin cfg5.N) (p : Fin 2000) (k : Fin 128) (hp : 2000 * t.val + p.val < 50000) :
    (iblk5 V c 0 t : Vec Ideal S2000x128 .f32) (ix2 p k)
      = (V c (Pipeline.arrRef spec5 0) : S50000x128.Idx → Ideal .f32) (ix2 ⟨2000 * t.val + p.val, hp⟩ k) := by
  obtain ⟨e0, e1, -⟩ := dense_index t
  unfold iblk5
  rw [View.read_apply]
  show V c (Pipeline.arrRef spec5 0) _ = V c (Pipeline.arrRef spec5 0) _
  congr 1
  funext a
  apply Fin.ext
  match a with
  | ⟨0, _⟩ => show win5_0.index t (0 : Fin 2) * 2000 + 1 * p.val = 2000 * t.val + p.val; rw [e0]; omega
  | ⟨1, _⟩ => show win5_0.index t (1 : Fin 2) * 128 + 1 * k.val = k.val; rw [e1]; omega

/-- The first matrix's window holds its whole array at every point. -/
theorem dense_block1 (c : Dev nD) (t : Fin cfg5.N) (z : S128x256.Idx) :
    (iblk5 V c 1 t : Vec Ideal S128x256 .f32) z = (V c (Pipeline.arrRef spec5 1) : S128x256.Idx → Ideal .f32) z := by
  obtain ⟨-, -, e0, e1, -⟩ := dense_index t
  unfold iblk5
  rw [View.read_apply]
  show V c (Pipeline.arrRef spec5 1) _ = V c (Pipeline.arrRef spec5 1) _
  congr 1
  funext a
  apply Fin.ext
  match a with
  | ⟨0, _⟩ => show win5_1.index t (0 : Fin 2) * 128 + 1 * (z 0).val = (z 0).val; rw [e0]; omega
  | ⟨1, _⟩ => show win5_1.index t (1 : Fin 2) * 256 + 1 * (z 1).val = (z 1).val; rw [e1]; omega

/-- The first vector's window holds its whole array at every point. -/
theorem dense_block2 (c : Dev nD) (t : Fin cfg5.N) (z : S256.Idx) :
    (iblk5 V c 2 t : Vec Ideal S256 .f32) z = (V c (Pipeline.arrRef spec5 2) : S256.Idx → Ideal .f32) z := by
  obtain ⟨-, -, -, -, e0, -⟩ := dense_index t
  unfold iblk5
  rw [View.read_apply]
  show V c (Pipeline.arrRef spec5 2) _ = V c (Pipeline.arrRef spec5 2) _
  congr 1
  funext a
  apply Fin.ext
  match a with
  | ⟨0, _⟩ => show win5_2.index t (0 : Fin 1) * 256 + 1 * (z 0).val = (z 0).val; rw [e0]; omega

/-- The second matrix's window holds its whole array at every point. -/
theorem dense_block3 (c : Dev nD) (t : Fin cfg5.N) (z : S256x2.Idx) :
    (iblk5 V c 3 t : Vec Ideal S256x2 .f32) z = (V c (Pipeline.arrRef spec5 3) : S256x2.Idx → Ideal .f32) z := by
  obtain ⟨-, -, -, -, -, e0, e1, -⟩ := dense_index t
  unfold iblk5
  rw [View.read_apply]
  show V c (Pipeline.arrRef spec5 3) _ = V c (Pipeline.arrRef spec5 3) _
  congr 1
  funext a
  apply Fin.ext
  match a with
  | ⟨0, _⟩ => show win5_3.index t (0 : Fin 2) * 256 + 1 * (z 0).val = (z 0).val; rw [e0]; omega
  | ⟨1, _⟩ => show win5_3.index t (1 : Fin 2) * 2 + 1 * (z 1).val = (z 1).val; rw [e1]; omega

/-- The second vector's window holds its whole array at every point. -/
theorem dense_block4 (c : Dev nD) (t : Fin cfg5.N) (z : S2.Idx) :
    (iblk5 V c 4 t : Vec Ideal S2 .f32) z = (V c (Pipeline.arrRef spec5 4) : S2.Idx → Ideal .f32) z := by
  obtain ⟨-, -, -, -, -, -, -, e0, -⟩ := dense_index t
  unfold iblk5
  rw [View.read_apply]
  show V c (Pipeline.arrRef spec5 4) _ = V c (Pipeline.arrRef spec5 4) _
  congr 1
  funext a
  apply Fin.ext
  match a with
  | ⟨0, _⟩ => show win5_4.index t (0 : Fin 1) * 2 + 1 * (z 0).val = (z 0).val; rw [e0]; omega

/-- The whole-array function the region's result array ends holding. -/
abbrev dense_whole (c : Dev nD) : S50000x2.Idx → Ideal .f32 :=
  Cert.Spec.denseOut (M := 50000) (K := 128) (D := 256) (O := 2)
    (V c (Pipeline.arrRef spec5 0) : S50000x128.Idx → Ideal .f32)
    (V c (Pipeline.arrRef spec5 1) : S128x256.Idx → Ideal .f32)
    (V c (Pipeline.arrRef spec5 2) : S256.Idx → Ideal .f32)
    (V c (Pipeline.arrRef spec5 3) : S256x2.Idx → Ideal .f32)
    (V c (Pipeline.arrRef spec5 4) : S2.Idx → Ideal .f32)

/-- What point t writes back is its band of rows of the whole-array function. -/
theorem dense_flushed (c : Dev nD) (t : Fin cfg5.N) :
    (dat5 (F := Ideal) V c).flushed 5 t = ((cfg5.win 5).blk t).view.read (Elt Ideal) (dense_whole V c) := by
  show (cfg5.win 5).cut (grid5.coords t) ((dat5 (F := Ideal) V c).after 5 t) = _
  rw [after5_5]
  unfold out5_5
  rw [View.canon_unit_zero zero_offsets2]
  simp only [View.ld_unit_zero (S := S2000x128) zero_offsets2, View.ld_unit_zero (S := S128x256) zero_offsets2,
    View.ld_unit_zero (S := S256) zero_offsets1, View.ld_unit_zero (S := S256x2) zero_offsets2,
    View.ld_unit_zero (S := S2) zero_offsets1]
  rw [dense_payload]
  obtain ⟨-, -, -, -, -, -, -, -, e0, e1⟩ := dense_index t
  funext y
  show Cert.LibPlainDot.affine (M := 2000) (K := 256) (N := 2)
        (Cert.LibPlainDot.affine (M := 2000) (K := 128) (N := 256) (iblk5 V c 0 t) (iblk5 V c 1 t) (iblk5 V c 2 t))
        (iblk5 V c 3 t) (iblk5 V c 4 t) y
      = Cert.LibPlainDot.affine (M := 50000) (K := 256) (N := 2)
        (Cert.LibPlainDot.affine (M := 50000) (K := 128) (N := 256)
          (V c (Pipeline.arrRef spec5 0) : S50000x128.Idx → Ideal .f32)
          (V c (Pipeline.arrRef spec5 1) : S128x256.Idx → Ideal .f32)
          (V c (Pipeline.arrRef spec5 2) : S256.Idx → Ideal .f32))
        (V c (Pipeline.arrRef spec5 3) : S256x2.Idx → Ideal .f32)
        (V c (Pipeline.arrRef spec5 4) : S2.Idx → Ideal .f32) (((cfg5.win 5).blk t).view.emb y)
  refine Cert.LibPlainDot.affine_rows _ _ _ _ _ _ (2000 * t.val)
    (fun p k hp => Cert.LibPlainDot.affine_rows _ _ _ _ _ _ (2000 * t.val)
      (fun p' k' hp' => dense_block0 V c t p' k' hp') (fun z => dense_block1 V c t z) (fun z => dense_block2 V c t z)
      (ix2 p k) (ix2 ⟨2000 * t.val + p.val, hp⟩ k) rfl rfl)
    (fun z => dense_block3 V c t z) (fun z => dense_block4 V c t z) y _ ?_ ?_
  · show win5_5.index t (0 : Fin 2) * 2000 + 1 * (y 0).val = 2000 * t.val + (y 0).val
    rw [e0]; omega
  · show win5_5.index t (1 : Fin 2) * 2 + 1 * (y 1).val = (y 1).val
    rw [e1]; omega

/-- An index of the result array is in point t's block iff each coordinate is in the block's range on its axis. -/
theorem dense_mem_blk (t : Fin cfg5.N) (i : S50000x2.Idx) :
    i ∈ ((cfg5.win 5).blk t).view.set ↔ ∀ a : Fin 2, win5_5.index t a * S2000x2.size a ≤ (i a).val ∧ (i a).val < win5_5.index t a * S2000x2.size a + S2000x2.size a := by
  show i ∈ ((View.whole main_v112).slice (win5_5.rect t)).set ↔ _
  rw [View.set_slice_whole, Rect.mem_set_unit]
  exact Iff.rfl

/-- Every index of the result array is in some point's block: row r is in the band of point r / 2000. -/
theorem dense_cover (i : S50000x2.Idx) :
    ∃ t : Fin cfg5.N, (cfg5.win 5).flush t = true ∧ i ∈ ((cfg5.win 5).blk t).view.set := by
  have hN : cfg5.N = 25 := N_5
  have hi0 : (i 0).val < 50000 := (i 0).isLt
  have hi1 : (i 1).val < 2 := (i 1).isLt
  have hq : (i 0).val / 2000 < cfg5.N := by rw [hN]; omega
  obtain ⟨-, -, -, -, -, -, -, -, e0, e1⟩ := dense_index ⟨(i 0).val / 2000, hq⟩
  have e0' : win5_5.index ⟨(i 0).val / 2000, hq⟩ (0 : Fin 2) = (i 0).val / 2000 := e0
  refine ⟨⟨(i 0).val / 2000, hq⟩, flush5_5 _, ?_⟩
  rw [dense_mem_blk]
  intro a
  match a with
  | ⟨0, _⟩ =>
    show win5_5.index ⟨(i 0).val / 2000, hq⟩ (0 : Fin 2) * 2000 ≤ (i 0).val ∧ (i 0).val < win5_5.index ⟨(i 0).val / 2000, hq⟩ (0 : Fin 2) * 2000 + 2000
    rw [e0']; omega
  | ⟨1, _⟩ =>
    show win5_5.index ⟨(i 0).val / 2000, hq⟩ (1 : Fin 2) * 2 ≤ (i 1).val ∧ (i 1).val < win5_5.index ⟨(i 0).val / 2000, hq⟩ (1 : Fin 2) * 2 + 2
    rw [e1]; omega

/-- The result array after the region: the final stage's function of the five arrays as the region finds them. -/
theorem dense_final (c : Dev nD) :
    (dat5 (F := Ideal) V c).arrAt 5 cfg5.N = dense_whole V c :=
  (dat5 (F := Ideal) V c).arrAt_eq_of_cover 5 (dense_whole V c) (fun t _ => dense_flushed V c t) dense_cover

end Blocks

end Cert.KernelIdeal.Values

end
-- ==== Proof.KerChain.lean ====
/-
  The idealized kernel program's result as a function of its arguments.

  Boundary by boundary through @main: the host stretch before the first tiled region leaves the source list, the target
  list and the edge weights — functions of the edge list alone — and the first round of message passing over the input
  features; each tiled region leaves, in its output array, one layer applied to the aggregated features, the input
  features and that layer's weights (the region's tiles of 2000 rows cover the array, and a tile of a layer is the
  layer on those rows); each later host stretch leaves the next round of message passing over the previous layer's
  output; no segment touches the lists, the edge weights or the argument arrays. The last region leaves the final
  stage applied to the fifth layer's output.
-/
import proofs.«153866_j65085934403701_1_alg».proof.Proof.Gen.KernelIdeal.Frame
import proofs.«153866_j65085934403701_1_alg».proof.Proof.KerHost0
import proofs.«153866_j65085934403701_1_alg».proof.Proof.KerHostL
import proofs.«153866_j65085934403701_1_alg».proof.Proof.Layer0
import proofs.«153866_j65085934403701_1_alg».proof.Proof.Layer1
import proofs.«153866_j65085934403701_1_alg».proof.Proof.Layer2
import proofs.«153866_j65085934403701_1_alg».proof.Proof.Layer3
import proofs.«153866_j65085934403701_1_alg».proof.Proof.Layer4
import proofs.«153866_j65085934403701_1_alg».proof.Proof.DenseOut
import proofs.«153866_j65085934403701_1_alg».proof.Proof.Spec

set_option maxRecDepth 16384

noncomputable section

namespace Cert.KernelIdeal.Chain

open Idealize.ShloMosaic Idealize.ShloMosaic.StableHlo Idealize.ShloMosaic.TcCoe Idealize.SL.Sem
open Cert.KernelIdeal Cert.KernelIdeal.Gen Cert.KernelIdeal.Host Cert.KernelIdeal.HostRead0 Cert.KernelIdeal.HostReadL
open Cert.KernelIdeal.Values

variable (m : (ℓ : Loc nD τ sig) → Buf (Elt Ideal) ℓ) (ρ : Dev nD → PrngReg) (c : Dev nD)

/-- The launch contents of the input features, the edge list and the stacked weights. -/
abbrev xA : (⟨S50000x128, .f32⟩ : BufTy).Contents (Elt Ideal) := m ((c : Thread nD τ).loc main_arg0)
abbrev eiA : (⟨S2x800000, .i32⟩ : BufTy).Contents (Elt Ideal) := m ((c : Thread nD τ).loc main_arg1)
abbrev cwA : (⟨S5x128x128, .f32⟩ : BufTy).Contents (Elt Ideal) := m ((c : Thread nD τ).loc main_arg2)

/-- What every boundary from the first region's entry on holds in the buffers no later segment writes. -/
structure St (W : Valuation τ sig (Elt Ideal)) : Prop where
  row : W (Proc.devRef .tc main_v3) = rowOf (eiA m c)
  col : W (Proc.devRef .tc main_v6) = colOf (eiA m c)
  norm : W (Proc.devRef .tc main_v31) = normOfEdges (eiA m c)
  x : W (Proc.devRef .tc main_arg0) = xA m c
  cw : W (Proc.devRef .tc main_arg2) = cwA m c

/-- The layers' outputs, one after the other. -/
def X1 : (⟨S50000x128, .f32⟩ : BufTy).Contents (Elt Ideal) :=
  Cert.Spec.layer (M := 50000) (K := 128) (N := 128) (propOfEdges (eiA m c) (xA m c)) (xA m c) (wsl0 (cwA m c))

theorem w1_row : W1 m ρ c (Proc.devRef .tc main_v3) = rowOf (eiA m c) := s0_row (V := W0 m ρ c)
theorem w1_col : W1 m ρ c (Proc.devRef .tc main_v6) = colOf (eiA m c) := s0_col (V := W0 m ρ c)
theorem w2_row : W2 m ρ c (Proc.devRef .tc main_v3) = rowOf (eiA m c) := (s1_keep_v3 (V := W1 m ρ c)).trans (w1_row m ρ c)
theorem w2_col : W2 m ρ c (Proc.devRef .tc main_v6) = colOf (eiA m c) := (s1_keep_v6 (V := W1 m ρ c)).trans (w1_col m ρ c)
theorem w2_x : W2 m ρ c (Proc.devRef .tc main_arg0) = xA m c := (s1_keep_arg0 (V := W1 m ρ c)).trans (s0_x (V := W0 m ρ c))
theorem w2_cw : W2 m ρ c (Proc.devRef .tc main_arg2) = cwA m c := (s1_keep_arg2 (V := W1 m ρ c)).trans (s0_cw (V := W0 m ρ c))
theorem w2_dinv : W2 m ρ c (Proc.devRef .tc main_v16)
    = dinvOf (posOf (degOf (colOf (eiA m c)))) (rsOf (degOf (colOf (eiA m c))))
        (constant (F := Ideal) S_ .f32 0x00000000#32 : (⟨S_, .f32⟩ : BufTy).Contents (Elt Ideal)) := by
  refine (s1_dinv (V := W1 m ρ c)).trans ?_
  rw [show W1 m ρ c (Proc.devRef .tc main_v12) = _ from s0_pos (V := W0 m ρ c),
    show W1 m ρ c (Proc.devRef .tc main_v15) = _ from s0_rs (V := W0 m ρ c),
    show W1 m ρ c (Proc.devRef .tc main_cst_3) = _ from s0_zero (V := W0 m ρ c)]

theorem w3_norm : W3 m ρ c (Proc.devRef .tc main_v31) = normOfEdges (eiA m c) := by
  refine (s2_norm (V := W2 m ρ c)).trans ?_
  rw [w2_dinv m ρ c, w2_row m ρ c, w2_col m ρ c]
  rfl

theorem st3 : St m c (W3 m ρ c) where
  row := (s2_keep_v3 (V := W2 m ρ c)).trans (w2_row m ρ c)
  col := (s2_keep_v6 (V := W2 m ρ c)).trans (w2_col m ρ c)
  norm := w3_norm m ρ c
  x := (s2_keep_arg0 (V := W2 m ρ c)).trans (w2_x m ρ c)
  cw := (s2_keep_arg2 (V := W2 m ρ c)).trans (w2_cw m ρ c)

theorem h0 : W3 m ρ c (Proc.devRef .tc main_v44) = propOfEdges (eiA m c) (xA m c) := by
  refine (s2_h (V := W2 m ρ c)).trans ?_
  rw [w2_dinv m ρ c, w2_row m ρ c, w2_col m ρ c, w2_x m ρ c]
  rfl

theorem w0 : W3 m ρ c (Proc.devRef .tc main_v46) = wsl0 (cwA m c) := by
  refine (s2_w (V := W2 m ρ c)).trans ?_
  rw [w2_cw m ρ c]

theorem x1 : W4 m ρ c (Proc.devRef .tc main_v47) = X1 m c := by
  refine (W4_arr m ρ c 3).trans ((layer0_final (V3 m ρ) c).trans ?_)
  show Cert.Spec.layer (M := 50000) (K := 128) (N := 128) (W3 m ρ c (Proc.devRef .tc main_v44)) (W3 m ρ c (Proc.devRef .tc main_arg0))
    (W3 m ρ c (Proc.devRef .tc main_v46)) = _
  rw [h0 m ρ c, (st3 m ρ c).x, w0 m ρ c]
  rfl

theorem st4 : St m c (W4 m ρ c) where
  row := (W4_of_ne m ρ c main_v3 (by decide)).trans (st3 m ρ c).row
  col := (W4_of_ne m ρ c main_v6 (by decide)).trans (st3 m ρ c).col
  norm := (W4_of_ne m ρ c main_v31 (by decide)).trans (st3 m ρ c).norm
  x := ((W4_arr m ρ c 1).trans (((dat0 (V3 m ρ) c).arrAt_in 1 rfl _).trans (A_eq0 (V3 m ρ) c 1))).trans (st3 m ρ c).x
  cw := (W4_of_ne m ρ c main_arg2 (by decide)).trans (st3 m ρ c).cw

/-- The second layer's output. -/
def X2 : (⟨S50000x128, .f32⟩ : BufTy).Contents (Elt Ideal) :=
  Cert.Spec.layer (M := 50000) (K := 128) (N := 128) (propOfEdges (eiA m c) (X1 m c)) (xA m c) (wsl1 (cwA m c))

theorem st5 : St m c (W5 m ρ c) where
  row := (t1_keep_v3 (V := W4 m ρ c)).trans (st4 m ρ c).row
  col := (t1_keep_v6 (V := W4 m ρ c)).trans (st4 m ρ c).col
  norm := (t1_keep_v31 (V := W4 m ρ c)).trans (st4 m ρ c).norm
  x := (t1_keep_arg0 (V := W4 m ρ c)).trans (st4 m ρ c).x
  cw := (t1_keep_arg2 (V := W4 m ρ c)).trans (st4 m ρ c).cw

theorem h1 : W5 m ρ c (Proc.devRef .tc main_v60) = propOfEdges (eiA m c) (X1 m c) := by
  refine (t1_h (V := W4 m ρ c)).trans ?_
  rw [(st4 m ρ c).row, (st4 m ρ c).col, (st4 m ρ c).norm, x1 m ρ c]
  rfl

theorem w1 : W5 m ρ c (Proc.devRef .tc main_v62) = wsl1 (cwA m c) := by
  refine (t1_w (V := W4 m ρ c)).trans ?_
  rw [(st4 m ρ c).cw]

theorem x2 : W6 m ρ c (Proc.devRef .tc main_v63) = X2 m c := by
  refine (W6_arr m ρ c 3).trans ((layer1_final (V5 m ρ) c).trans ?_)
  show Cert.Spec.layer (M := 50000) (K := 128) (N := 128) (W5 m ρ c (Proc.devRef .tc main_v60)) (W5 m ρ c (Proc.devRef .tc main_arg0))
    (W5 m ρ c (Proc.devRef .tc main_v62)) = _
  rw [h1 m ρ c, (st5 m ρ c).x, w1 m ρ c]
  rfl

theorem st6 : St m c (W6 m ρ c) where
  row := (W6_of_ne m ρ c main_v3 (by decide)).trans (st5 m ρ c).row
  col := (W6_of_ne m ρ c main_v6 (by decide)).trans (st5 m ρ c).col
  norm := (W6_of_ne m ρ c main_v31 (by decide)).trans (st5 m ρ c).norm
  x := ((W6_arr m ρ c 1).trans (((dat1 (V5 m ρ) c).arrAt_in 1 rfl _).trans (A_eq1 (V5 m ρ) c 1))).trans (st5 m ρ c).x
  cw := (W6_of_ne m ρ c main_arg2 (by decide)).trans (st5 m ρ c).cw

/-- The third layer's output. -/
def X3 : (⟨S50000x128, .f32⟩ : BufTy).Contents (Elt Ideal) :=
  Cert.Spec.layer (M := 50000) (K := 128) (N := 128) (propOfEdges (eiA m c) (X2 m c)) (xA m c) (wsl2 (cwA m c))

theorem st7 : St m c (W7 m ρ c) where
  row := (t2_keep_v3 (V := W6 m ρ c)).trans (st6 m ρ c).row
  col := (t2_keep_v6 (V := W6 m ρ c)).trans (st6 m ρ c).col
  norm := (t2_keep_v31 (V := W6 m ρ c)).trans (st6 m ρ c).norm
  x := (t2_keep_arg0 (V := W6 m ρ c)).trans (st6 m ρ c).x
  cw := (t2_keep_arg2 (V := W6 m ρ c)).trans (st6 m ρ c).cw

theorem h2 : W7 m ρ c (Proc.devRef .tc main_v76) = propOfEdges (eiA m c) (X2 m c) := by
  refine (t2_h (V := W6 m ρ c)).trans ?_
  rw [(st6 m ρ c).row, (st6 m ρ c).col, (st6 m ρ c).norm, x2 m ρ c]
  rfl

theorem w2 : W7 m ρ c (Proc.devRef .tc main_v78) = wsl2 (cwA m c) := by
  refine (t2_w (V := W6 m ρ c)).trans ?_
  rw [(st6 m ρ c).cw]

theorem x3 : W8 m ρ c (Proc.devRef .tc main_v79) = X3 m c := by
  refine (W8_arr m ρ c 3).trans ((layer2_final (V7 m ρ) c).trans ?_)
  show Cert.Spec.layer (M := 50000) (K := 128) (N := 128) (W7 m ρ c (Proc.devRef .tc main_v76)) (W7 m ρ c (Proc.devRef .tc main_arg0))
    (W7 m ρ c (Proc.devRef .tc main_v78)) = _
  rw [h2 m ρ c, (st7 m ρ c).x, w2 m ρ c]
  rfl

theorem st8 : St m c (W8 m ρ c) where
  row := (W8_of_ne m ρ c main_v3 (by decide)).trans (st7 m ρ c).row
  col := (W8_of_ne m ρ c main_v6 (by decide)).trans (st7 m ρ c).col
  norm := (W8_of_ne m ρ c main_v31 (by decide)).trans (st7 m ρ c).norm
  x := ((W8_arr m ρ c 1).trans (((dat2 (V7 m ρ) c).arrAt_in 1 rfl _).trans (A_eq2 (V7 m ρ) c 1))).trans (st7 m ρ c).x
  cw := (W8_of_ne m ρ c main_arg2 (by decide)).trans (st7 m ρ c).cw

/-- The fourth layer's output. -/
def X4 : (⟨S50000x128, .f32⟩ : BufTy).Contents (Elt Ideal) :=
  Cert.Spec.layer (M := 50000) (K := 128) (N := 128) (propOfEdges (eiA m c) (X3 m c)) (xA m c) (wsl3 (cwA m c))

theorem st9 : St m c (W9 m ρ c) where
  row := (t3_keep_v3 (V := W8 m ρ c)).trans (st8 m ρ c).row
  col := (t3_keep_v6 (V := W8 m ρ c)).trans (st8 m ρ c).col
  norm := (t3_keep_v31 (V := W8 m ρ c)).trans (st8 m ρ c).norm
  x := (t3_keep_arg0 (V := W8 m ρ c)).trans (st8 m ρ c).x
  cw := (t3_keep_arg2 (V := W8 m ρ c)).trans (st8 m ρ c).cw

theorem h3 : W9 m ρ c (Proc.devRef .tc main_v92) = propOfEdges (eiA m c) (X3 m c) := by
  refine (t3_h (V := W8 m ρ c)).trans ?_
  rw [(st8 m ρ c).row, (st8 m ρ c).col, (st8 m ρ c).norm, x3 m ρ c]
  rfl

theorem w3 : W9 m ρ c (Proc.devRef .tc main_v94) = wsl3 (cwA m c) := by
  refine (t3_w (V := W8 m ρ c)).trans ?_
  rw [(st8 m ρ c).cw]

theorem x4 : W10 m ρ c (Proc.devRef .tc main_v95) = X4 m c := by
  refine (W10_arr m ρ c 3).trans ((layer3_final (V9 m ρ) c).trans ?_)
  show Cert.Spec.layer (M := 50000) (K := 128) (N := 128) (W9 m ρ c (Proc.devRef .tc main_v92)) (W9 m ρ c (Proc.devRef .tc main_arg0))
    (W9 m ρ c (Proc.devRef .tc main_v94)) = _
  rw [h3 m ρ c, (st9 m ρ c).x, w3 m ρ c]
  rfl

theorem st10 : St m c (W10 m ρ c) where
  row := (W10_of_ne m ρ c main_v3 (by decide)).trans (st9 m ρ c).row
  col := (W10_of_ne m ρ c main_v6 (by decide)).trans (st9 m ρ c).col
  norm := (W10_of_ne m ρ c main_v31 (by decide)).trans (st9 m ρ c).norm
  x := ((W10_arr m ρ c 1).trans (((dat3 (V9 m ρ) c).arrAt_in 1 rfl _).trans (A_eq3 (V9 m ρ) c 1))).trans (st9 m ρ c).x
  cw := (W10_of_ne m ρ c main_arg2 (by decide)).trans (st9 m ρ c).cw

/-- The fifth layer's output. -/
def X5 : (⟨S50000x128, .f32⟩ : BufTy).Contents (Elt Ideal) :=
  Cert.Spec.layer (M := 50000) (K := 128) (N := 128) (propOfEdges (eiA m c) (X4 m c)) (xA m c) (wsl4 (cwA m c))

theorem st11 : St m c (W11 m ρ c) where
  row := (t4_keep_v3 (V := W10 m ρ c)).trans (st10 m ρ c).row
  col := (t4_keep_v6 (V := W10 m ρ c)).trans (st10 m ρ c).col
  norm := (t4_keep_v31 (V := W10 m ρ c)).trans (st10 m ρ c).norm
  x := (t4_keep_arg0 (V := W10 m ρ c)).trans (st10 m ρ c).x
  cw := (t4_keep_arg2 (V := W10 m ρ c)).trans (st10 m ρ c).cw

theorem h4 : W11 m ρ c (Proc.devRef .tc main_v108) = propOfEdges (eiA m c) (X4 m c) := by
  refine (t4_h (V := W10 m ρ c)).trans ?_
  rw [(st10 m ρ c).row, (st10 m ρ c).col, (st10 m ρ c).norm, x4 m ρ c]
  rfl

theorem w4 : W11 m ρ c (Proc.devRef .tc main_v110) = wsl4 (cwA m c) := by
  refine (t4_w (V := W10 m ρ c)).trans ?_
  rw [(st10 m ρ c).cw]

theorem x5 : W12 m ρ c (Proc.devRef .tc main_v111) = X5 m c := by
  refine (W12_arr m ρ c 3).trans ((layer4_final (V11 m ρ) c).trans ?_)
  show Cert.Spec.layer (M := 50000) (K := 128) (N := 128) (W11 m ρ c (Proc.devRef .tc main_v108)) (W11 m ρ c (Proc.devRef .tc main_arg0))
    (W11 m ρ c (Proc.devRef .tc main_v110)) = _
  rw [h4 m ρ c, (st11 m ρ c).x, w4 m ρ c]
  rfl

theorem st12 : St m c (W12 m ρ c) where
  row := (W12_of_ne m ρ c main_v3 (by decide)).trans (st11 m ρ c).row
  col := (W12_of_ne m ρ c main_v6 (by decide)).trans (st11 m ρ c).col
  norm := (W12_of_ne m ρ c main_v31 (by decide)).trans (st11 m ρ c).norm
  x := ((W12_arr m ρ c 1).trans (((dat4 (V11 m ρ) c).arrAt_in 1 rfl _).trans (A_eq4 (V11 m ρ) c 1))).trans (st11 m ρ c).x
  cw := (W12_of_ne m ρ c main_arg2 (by decide)).trans (st11 m ρ c).cw

/-- The launch contents of the final stage's weights and biases. -/
abbrev wdA : (⟨S128x256, .f32⟩ : BufTy).Contents (Elt Ideal) := m ((c : Thread nD τ).loc main_arg3)
abbrev bdA : (⟨S256, .f32⟩ : BufTy).Contents (Elt Ideal) := m ((c : Thread nD τ).loc main_arg4)
abbrev woA : (⟨S256x2, .f32⟩ : BufTy).Contents (Elt Ideal) := m ((c : Thread nD τ).loc main_arg5)
abbrev boA : (⟨S2, .f32⟩ : BufTy).Contents (Elt Ideal) := m ((c : Thread nD τ).loc main_arg6)

/-- The last region reads each of its four constant operands as launched: the region leaves an input array as it
    finds it, and the array ends as launched. -/
theorem a3 : W12 m ρ c (Proc.devRef .tc main_arg3) = wdA m c :=
  ((W13_arr m ρ c 1).trans (((dat5 (V12 m ρ) c).arrAt_in 1 rfl _).trans (A_eq5 (V12 m ρ) c 1))).symm.trans (W13_main_arg3 m ρ c)
theorem a4 : W12 m ρ c (Proc.devRef .tc main_arg4) = bdA m c :=
  ((W13_arr m ρ c 2).trans (((dat5 (V12 m ρ) c).arrAt_in 2 rfl _).trans (A_eq5 (V12 m ρ) c 2))).symm.trans (W13_main_arg4 m ρ c)
theorem a5 : W12 m ρ c (Proc.devRef .tc main_arg5) = woA m c :=
  ((W13_arr m ρ c 3).trans (((dat5 (V12 m ρ) c).arrAt_in 3 rfl _).trans (A_eq5 (V12 m ρ) c 3))).symm.trans (W13_main_arg5 m ρ c)
theorem a6 : W12 m ρ c (Proc.devRef .tc main_arg6) = boA m c :=
  ((W13_arr m ρ c 4).trans (((dat5 (V12 m ρ) c).arrAt_in 4 rfl _).trans (A_eq5 (V12 m ρ) c 4))).symm.trans (W13_main_arg6 m ρ c)

/-- The program's result as a function of its seven arguments. -/
def result : (⟨S50000x2, .f32⟩ : BufTy).Contents (Elt Ideal) :=
  Cert.Spec.denseOut (M := 50000) (K := 128) (D := 256) (O := 2) (X5 m c) (wdA m c) (bdA m c) (woA m c) (boA m c)

/-- The last boundary holds that function at the result buffer. -/
theorem result_eq : W13 m ρ c (Proc.devRef .tc main_v112) = result m c := by
  refine (W13_arr m ρ c 5).trans ((dense_final (V12 m ρ) c).trans ?_)
  show Cert.Spec.denseOut (M := 50000) (K := 128) (D := 256) (O := 2) (W12 m ρ c (Proc.devRef .tc main_v111))
    (W12 m ρ c (Proc.devRef .tc main_arg3)) (W12 m ρ c (Proc.devRef .tc main_arg4)) (W12 m ρ c (Proc.devRef .tc main_arg5))
    (W12 m ρ c (Proc.devRef .tc main_arg6)) = _
  rw [x5 m ρ c, a3 m ρ c, a4 m ρ c, a5 m ρ c, a6 m ρ c]
  rfl

end Cert.KernelIdeal.Chain

end
-- ==== Proof.LibWriteOnce.lean ====
/-
  A straight line of host operations in which every buffer is written at most once.

  When each operation of a list writes exactly one buffer, no buffer is written by two of them, and every operand of an
  operation is either never written or written earlier in the list, the fold of the operations' results over any starting
  contents is a fixed point at every written buffer: what the line leaves in an operation's result buffer is the operation's
  function of what the line leaves in its operands' buffers, and a buffer the line never writes holds what it held. Stated
  per kind of operation (no operand, one, two, n, three, four), with the side conditions `reference ∉ the buffers written from
  position k on`, which are decided on literal lists. This reads a long straight-line program one operation at a time, with
  no term ever holding the whole composition.
-/
import Idealize.ShloMosaic.Lib.StableHlo.Run

noncomputable section

/-! ## A straight line of operations in which every buffer is written at most once

Every operation of the reference's @main writes one buffer, no buffer is written twice, and every operand is written before
it is read. Then what the line leaves in an operation's result buffer is the operation's function of what the line leaves in
its operands' buffers, and a buffer the line never writes holds what it held. -/

namespace Cert.RefSSA

open Idealize.ShloMosaic Idealize.ShloMosaic.StableHlo

variable {τ : Topo} {sig : RefSig} {Val : EltTy → Type}

theorem after_app : ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

/-- Position by position, the operation writes exactly the listed reference. -/
abbrev Writes (l : List (HloOp τ sig Val)) (wl : List (Ref sig .tc)) : Prop :=
  List.Forall₂ (fun op r => op.writes = {Proc.devRef (τ := τ) .tc r}) l wl

theorem writes_mem {l : List (HloOp τ sig Val)} {wl : List (Ref sig .tc)} (h : Writes l wl) {op : HloOp τ sig Val} (hop : op ∈ l) :
    ∃ r ∈ wl, op.writes = {Proc.devRef (τ := τ) .tc r} := by
  induction h with
  | nil => cases hop
  | @cons o r l' wl' hw _ ih =>
    rcases List.mem_cons.mp hop with rfl | hop
    · exact ⟨r, List.mem_cons.mpr (Or.inl rfl), hw⟩
    · obtain ⟨r', hr', e⟩ := ih hop
      exact ⟨r', List.mem_cons.mpr (Or.inr hr'), e⟩

/-- A reference that is not listed keeps its contents. -/
theorem after_keep {l : List (HloOp τ sig Val)} {wl : List (Ref sig .tc)} (h : Writes l wl) {r : Ref sig .tc} (hr : r ∉ wl)
    (V : Valuation τ sig Val) : after l V (Proc.devRef .tc r) = V (Proc.devRef .tc r) := by
  refine after_of_forall_not_mem l V fun op hop hb => ?_
  obtain ⟨r', hr', e⟩ := writes_mem h hop
  rw [e, Finset.mem_singleton] at hb
  exact hr (by rw [Proc.devRef_injective _ hb]; exact hr')

theorem after_take_drop (l : List (HloOp τ sig Val)) (k : ℕ) (V : Valuation τ sig Val) :
    after l V = after (l.drop k) (after (l.take k) V) := by
  rw [← after_app, List.take_append_drop]

theorem after_at {l : List (HloOp τ sig Val)} {k : ℕ} {op : HloOp τ sig Val} (hop : l[k]? = some op) (V : Valuation τ sig Val) :
    after l V = after (l.drop (k + 1)) (op.result (after (l.take k) V)) := by
  obtain ⟨hk, e⟩ := List.getElem?_eq_some_iff.mp hop
  rw [after_take_drop l k V, List.drop_eq_getElem_cons hk, e, after_cons]

section
variable {l : List (HloOp τ sig Val)} {wl : List (Ref sig .tc)} (h : Writes l wl) (V : Valuation τ sig Val) (k : ℕ)
include h

/-- An operand not written from position k on holds, at the end, what it held before position k. -/
theorem operand_eq {a : Ref sig .tc} (ha : a ∉ wl.drop k) :
    after l V (Proc.devRef .tc a) = after (l.take k) V (Proc.devRef .tc a) := by
  rw [after_take_drop l k V]
  exact after_keep (List.forall₂_drop k h) ha _

/-- The result of the operation at position k, not written afterwards, holds at the end what that operation left. -/
theorem result_eq {op : HloOp τ sig Val} (hop : l[k]? = some op) {y : Ref sig .tc} (hy : y ∉ wl.drop (k + 1)) :
    after l V (Proc.devRef .tc y) = op.result (after (l.take k) V) (Proc.devRef .tc y) := by
  rw [after_at hop V]
  exact after_keep (List.forall₂_drop (k + 1) h) hy _

theorem ssa_nullary {y : Ref sig .tc} {v : y.ty.Contents Val} {hy}
    (hop : l[k]? = some (nullary y v hy)) (hy' : y ∉ wl.drop (k + 1)) :
    after l V (Proc.devRef .tc y) = v := by
  rw [result_eq h V k hop hy', nullary_result]

theorem ssa_unary {x y : Ref sig .tc} {f : x.ty.Contents Val → y.ty.Contents Val} {hx hy}
    (hop : l[k]? = some (unary x y f hx hy)) (hy' : y ∉ wl.drop (k + 1)) (hx' : x ∉ wl.drop k)
    (vx : x.ty.Contents Val) (ex : after l V (Proc.devRef .tc x) = vx) :
    after l V (Proc.devRef .tc y) = f vx := by
  rw [result_eq h V k hop hy', unary_result, ← operand_eq h V k hx', ex]

theorem ssa_binary {a b y : Ref sig .tc} {f : a.ty.Contents Val → b.ty.Contents Val → y.ty.Contents Val} {ha hb hy}
    (hop : l[k]? = some (binary a b y f ha hb hy)) (hy' : y ∉ wl.drop (k + 1)) (ha' : a ∉ wl.drop k) (hb' : b ∉ wl.drop k)
    (va : a.ty.Contents Val) (vb : b.ty.Contents Val)
    (ea : after l V (Proc.devRef .tc a) = va) (eb : after l V (Proc.devRef .tc b) = vb) :
    after l V (Proc.devRef .tc y) = f va vb := by
  rw [result_eq h V k hop hy', binary_result, ← operand_eq h V k ha', ← operand_eq h V k hb', ea, eb]

theorem ssa_nary {n : ℕ} {xs : Fin n → Ref sig .tc} {y : Ref sig .tc}
    {f : ((i : Fin n) → (xs i).ty.Contents Val) → y.ty.Contents Val} {hxs hy}
    (hop : l[k]? = some (nary xs y f hxs hy)) (hy' : y ∉ wl.drop (k + 1)) (hx' : ∀ i, xs i ∉ wl.drop k)
    (vs : (i : Fin n) → (xs i).ty.Contents Val) (es : ∀ i, after l V (Proc.devRef .tc (xs i)) = vs i) :
    after l V (Proc.devRef .tc y) = f vs := by
  rw [result_eq h V k hop hy', nary_result]
  exact congrArg f (funext fun i => by rw [← operand_eq h V k (hx' i), es i])

theorem ssa_nary4 {x0 x1 x2 x3 y : Ref sig .tc}
    {f : ((i : Fin 4) → ((![x0, x1, x2, x3] : Fin 4 → Ref sig .tc) i).ty.Contents Val) → y.ty.Contents Val} {hxs hy}
    (hop : l[k]? = some (nary ![x0, x1, x2, x3] y f hxs hy)) (hy' : y ∉ wl.drop (k + 1))
    (h0 : x0 ∉ wl.drop k) (h1 : x1 ∉ wl.drop k) (h2 : x2 ∉ wl.drop k) (h3 : x3 ∉ wl.drop k)
    (v0 : x0.ty.Contents Val) (v1 : x1.ty.Contents Val) (v2 : x2.ty.Contents Val) (v3 : x3.ty.Contents Val)
    (e0 : after l V (Proc.devRef .tc x0) = v0) (e1 : after l V (Proc.devRef .tc x1) = v1)
    (e2 : after l V (Proc.devRef .tc x2) = v2) (e3 : after l V (Proc.devRef .tc x3) = v3) :
    after l V (Proc.devRef .tc y) = f (Fin.cons v0 (Fin.cons v1 (Fin.cons v2 (Fin.cons v3 (fun i => i.elim0))))) :=
  ssa_nary h V k hop hy' (fun i => by fin_cases i; exacts [h0, h1, h2, h3]) _ (fun i => by fin_cases i; exacts [e0, e1, e2, e3])

theorem ssa_nary3 {x0 x1 x2 y : Ref sig .tc}
    {f : ((i : Fin 3) → ((![x0, x1, x2] : Fin 3 → Ref sig .tc) i).ty.Contents Val) → y.ty.Contents Val} {hxs hy}
    (hop : l[k]? = some (nary ![x0, x1, x2] y f hxs hy)) (hy' : y ∉ wl.drop (k + 1))
    (h0 : x0 ∉ wl.drop k) (h1 : x1 ∉ wl.drop k) (h2 : x2 ∉ wl.drop k)
    (v0 : x0.ty.Contents Val) (v1 : x1.ty.Contents Val) (v2 : x2.ty.Contents Val)
    (e0 : after l V (Proc.devRef .tc x0) = v0) (e1 : after l V (Proc.devRef .tc x1) = v1)
    (e2 : after l V (Proc.devRef .tc x2) = v2) :
    after l V (Proc.devRef .tc y) = f (Fin.cons v0 (Fin.cons v1 (Fin.cons v2 (fun i => i.elim0)))) :=
  ssa_nary h V k hop hy' (fun i => by fin_cases i; exacts [h0, h1, h2]) _ (fun i => by fin_cases i; exacts [e0, e1, e2])

end

end Cert.RefSSA

end
-- ==== Proof.RefOps.lean ====
/-
  The reference computation as a list of host operations, in the order they run, cut into pieces by what they compute:
  the edge lists and edge weights; then for each of the five layers the aggregation over edges and the dense part; then
  the final stage. The same list is also cut where the program text is cut into four consecutive parts, so that each
  part of the program is the straight line of its own operations. Each piece comes with the list of buffers it writes
  (one per operation, no buffer twice) and the fact that it touches only buffers of the one processor.
-/
import proofs.«153866_j65085934403701_1_alg».proof.Proof.Gen.ReferenceIdeal
import proofs.«153866_j65085934403701_1_alg».proof.Proof.LibWriteOnce
import Idealize.ShloMosaic.Lib.StableHlo.Run

set_option maxRecDepth 8192

noncomputable section

namespace Cert.ReferenceIdeal.RefOps

open Cert.ReferenceIdeal Cert.ReferenceIdeal.Gen Idealize.ShloMosaic Idealize.ShloMosaic.TcCoe Idealize.SL.Sem Idealize.ShloMosaic.StableHlo

variable {F : FTy → Type} [FloatOps F]

/-- The edge lists and the edge weights: the source and target node of every edge (the given edges followed by one loop per node), each node's count of incoming edges, its inverse square root where positive, and per edge the product of the two end nodes' values. -/
abbrev pre : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.nullary main_cst_2 (constant S_ .f32 0x2B8CBCCC#32),
    StableHlo.unary main_cst_2 main_v13 (broadcastInDim S50000 ![] bcast_S_S50000 : (⟨S_, .f32⟩ : BufTy).Contents (Elt F) → (⟨S50000, .f32⟩ : BufTy).Contents (Elt F)),
    StableHlo.binary main_v10 main_v13 main_v14 (maximumf : (⟨S50000, .f32⟩ : BufTy).Contents (Elt F) → (⟨S50000, .f32⟩ : BufTy).Contents (Elt F) → (⟨S50000, .f32⟩ : BufTy).Contents (Elt F)),
    StableHlo.unary main_v14 main_v15 (Host.rsqrt : (⟨S50000, .f32⟩ : BufTy).Contents (Elt F) → (⟨S50000, .f32⟩ : BufTy).Contents (Elt F)),
    StableHlo.nullary main_cst_3 (constant S_ .f32 0x00000000#32),
    StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S50000, .f32⟩) (broadcastInDim S50000 ![] bcast_S_S50000),
    StableHlo.TRef.ternary (.of main_v12 : StableHlo.TRef sig ⟨S50000, .i1⟩) (.of main_v15 : StableHlo.TRef sig ⟨S50000, .f32⟩) (.of main_call0_v1 : StableHlo.TRef sig ⟨S50000, .f32⟩) (.of main_v16 : StableHlo.TRef sig ⟨S50000, .f32⟩) select,
    StableHlo.nullary main_c (constantI S_ 32 0#32),
    StableHlo.unary main_c main_v17 (broadcastInDim S850000 ![] bcast_S_S850000 : (⟨S_, .i32⟩ : BufTy).Contents (Elt F) → (⟨S850000, .i32⟩ : BufTy).Contents (Elt F)),
    StableHlo.binary main_v3 main_v17 main_v18 (cmpi .slt : (⟨S850000, .i32⟩ : BufTy).Contents (Elt F) → (⟨S850000, .i32⟩ : BufTy).Contents (Elt F) → (⟨S850000, .i1⟩ : BufTy).Contents (Elt F)),
    StableHlo.nullary main_c_4 (constantI S_ 32 50000#32),
    StableHlo.unary main_c_4 main_v19 (broadcastInDim S850000 ![] bcast_S_S850000 : (⟨S_, .i32⟩ : BufTy).Contents (Elt F) → (⟨S850000, .i32⟩ : BufTy).Contents (Elt F)),
    StableHlo.binary main_v3 main_v19 main_v20 (addi : (⟨S850000, .i32⟩ : BufTy).Contents (Elt F) → (⟨S850000, .i32⟩ : BufTy).Contents (Elt F) → (⟨S850000, .i32⟩ : BufTy).Contents (Elt F)),
    StableHlo.ternary main_v18 main_v20 main_v3 main_v21 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v21 main_v22 (broadcastInDim S850000x1 ![0] bcast_S850000_S850000x1_0 : (⟨S850000, .i32⟩ : BufTy).Contents (Elt F) → (⟨S850000x1, .i32⟩ : BufTy).Contents (Elt F)),
    StableHlo.binary main_v16 main_v22 main_v23 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_5 (constantI S_ 32 0#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (cmpi .slt : (⟨S850000, .i32⟩ : BufTy).Contents (Elt F) → (⟨S850000, .i32⟩ : BufTy).Contents (Elt F) → (⟨S850000, .i1⟩ : BufTy).Contents (Elt F)),
    StableHlo.nullary main_c_6 (constantI S_ 32 50000#32),
    StableHlo.unary main_c_6 main_v26 (broadcastInDim S850000 ![] bcast_S_S850000 : (⟨S_, .i32⟩ : BufTy).Contents (Elt F) → (⟨S850000, .i32⟩ : BufTy).Contents (Elt F)),
    StableHlo.binary main_v6 main_v26 main_v27 (addi : (⟨S850000, .i32⟩ : BufTy).Contents (Elt F) → (⟨S850000, .i32⟩ : BufTy).Contents (Elt F) → (⟨S850000, .i32⟩ : BufTy).Contents (Elt F)),
    StableHlo.ternary main_v25 main_v27 main_v6 main_v28 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v28 main_v29 (broadcastInDim S850000x1 ![0] bcast_S850000_S850000x1_0 : (⟨S850000, .i32⟩ : BufTy).Contents (Elt F) → (⟨S850000x1, .i32⟩ : BufTy).Contents (Elt F)),
    StableHlo.binary main_v16 main_v29 main_v30 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v23 main_v30 main_v31 (mulf : (⟨S850000, .f32⟩ : BufTy).Contents (Elt F) → (⟨S850000, .f32⟩ : BufTy).Contents (Elt F) → (⟨S850000, .f32⟩ : BufTy).Contents (Elt F)) ]

/-- The buffer each operation of `pre` writes, in order. -/
abbrev pre_wl : List (Ref sig .tc) :=
  [main_v0, main_v1, main_v2, main_v3, main_v4, main_v5, main_v6, main_cst, main_v7, main_cst_0, main_v8, main_v9, main_v10, main_cst_1, main_v11, main_v12, main_cst_2, main_v13, main_v14, main_v15, main_cst_3, main_call0_v0, main_call0_v1, main_v16, main_c, main_v17, main_v18, main_c_4, main_v19, main_v20, main_v21, main_v22, main_v23, main_c_5, main_v24, main_v25, main_c_6, main_v26, main_v27, main_v28, main_v29, main_v30, main_v31]
theorem pre_writes : Cert.RefSSA.Writes (pre : List (HloOp τ sig (Elt F))) pre_wl :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))
theorem pre_sub : (pre : List (HloOp τ sig (Elt F))).Forall fun op => op.bufs ⊆ tcRefs τ sig :=
  ⟨StableHlo.nullary_bufs_sub .., StableHlo.unary_bufs_sub .., StableHlo.reshape_bufs_sub .., StableHlo.binary_bufs_sub .., StableHlo.unary_bufs_sub .., StableHlo.reshape_bufs_sub .., StableHlo.binary_bufs_sub .., StableHlo.nullary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.nullary_bufs_sub .., StableHlo.unary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.binary_bufs_sub ..⟩
theorem pre_fresh : (pre : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Layer 1's aggregation: per edge the source node's row of the layer's input scaled by the edge weight, added into the target node's row of a zero array. -/
abbrev agg1 : List (HloOp τ sig (Elt F)) :=
  [ StableHlo.unary main_v31 main_v32 (broadcastInDim S850000x1 ![0] bcast_S850000_S850000x1_0 : (⟨S850000, .f32⟩ : BufTy).Contents (Elt F) → (⟨S850000x1, .f32⟩ : BufTy).Contents (Elt F)),
    StableHlo.nullary main_c_7 (constantI S_ 32 0#32),
    StableHlo.unary main_c_7 main_v33 (broadcastInDim S850000 ![] bcast_S_S850000 : (⟨S_, .i32⟩ : BufTy).Contents (Elt F) → (⟨S850000, .i32⟩ : BufTy).Contents (Elt F)),
    StableHlo.binary main_v3 main_v33 main_v34 (cmpi .slt : (⟨S850000, .i32⟩ : BufTy).Contents (Elt F) → (⟨S850000, .i32⟩ : BufTy).Contents (Elt F) → (⟨S850000, .i1⟩ : BufTy).Contents (Elt F)),
    StableHlo.nullary main_c_8 (constantI S_ 32 50000#32),
    StableHlo.unary main_c_8 main_v35 (broadcastInDim S850000 ![] bcast_S_S850000 : (⟨S_, .i32⟩ : BufTy).Contents (Elt F) → (⟨S850000, .i32⟩ : BufTy).Contents (Elt F)),
    StableHlo.binary main_v3 main_v35 main_v36 (addi : (⟨S850000, .i32⟩ : BufTy).Contents (Elt F) → (⟨S850000, .i32⟩ : BufTy).Contents (Elt F) → (⟨S850000, .i32⟩ : BufTy).Contents (Elt F)),
    StableHlo.ternary main_v34 main_v36 main_v3 main_v37 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v37 main_v38 (broadcastInDim S850000x1 ![0] bcast_S850000_S850000x1_0 : (⟨S850000, .i32⟩ : BufTy).Contents (Elt F) → (⟨S850000x1, .i32⟩ : BufTy).Contents (Elt F)),
    StableHlo.binary main_arg0 main_v38 main_v39 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v32 main_v40 (broadcastInDim S850000x128 ![0, 1] bcast_S850000x1_S850000x128_0_1 : (⟨S850000x1, .f32⟩ : BufTy).Contents (Elt F) → (⟨S850000x128, .f32⟩ : BufTy).Contents (Elt F)),
    StableHlo.binary main_v40 main_v39 main_v41 (mulf : (⟨S850000x128, .f32⟩ : BufTy).Contents (Elt F) → (⟨S850000x128, .f32⟩ : BufTy).Contents (Elt F) → (⟨S850000x128, .f32⟩ : BufTy).Contents (Elt F)),
    StableHlo.nullary main_cst_9 (constant S_ .f32 0x00000000#32),
    StableHlo.unary main_cst_9 main_v42 (broadcastInDim S50000x128 ![] bcast_S_S50000x128 : (⟨S_, .f32⟩ : BufTy).Contents (Elt F) → (⟨S50000x128, .f32⟩ : BufTy).Contents (Elt F)),
    StableHlo.unary main_v6 main_v43 (broadcastInDim S850000x1 ![0] bcast_S850000_S850000x1_0 : (⟨S850000, .i32⟩ : BufTy).Contents (Elt F) → (⟨S850000x1, .i32⟩ : BufTy).Contents (Elt F)),
    StableHlo.ternary main_v42 main_v43 main_v41 main_v44 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

/-- The buffer each operation of `agg1` writes, in order. -/
abbrev agg1_wl : List (Ref sig .tc) :=
  [main_v32, main_c_7, main_v33, main_v34, main_c_8, main_v35, main_v36, main_v37, main_v38, main_v39, main_v40, main_v41, main_cst_9, main_v42, main_v43, main_v44]
theorem agg1_writes : Cert.RefSSA.Writes (agg1 : List (HloOp τ sig (Elt F))) agg1_wl :=
  .cons rfl (.cons rfl (.cons rfl (.cons rfl (.cons rfl (.cons rfl (.cons rfl (.cons rfl (.cons rfl (.cons rfl (.cons rfl (.cons rfl (.cons rfl (.cons rfl (.cons rfl (.cons rfl (.nil))))))))))))))))
theorem agg1_sub : (agg1 : List (HloOp τ sig (Elt F))).Forall fun op => op.bufs ⊆ tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub ..⟩
theorem agg1_fresh : (agg1 : List (HloOp τ sig (Elt F))).Forall fun op => op.fresh = ∅ :=
  ⟨rfl, rfl, rfl, rfl, rfl, rfl, rfl, rfl, rfl, rfl, rfl, rfl, rfl, rfl, rfl, rfl⟩

/-- Layer 1's dense part: 0.9 times the aggregated rows plus 0.1 times the input features, times the layer's weight matrix, then on every entry z the map that keeps z when z ≥ 0 and scales it by the small factor elsewhere. -/
abbrev lin1 : List (HloOp τ sig (Elt F)) :=
  [ StableHlo.nullary main_cst_10 (constant S_ .f32 0x3F666666#32),
    StableHlo.unary main_cst_10 main_v45 (broadcastInDim S50000x128 ![] bcast_S_S50000x128 : (⟨S_, .f32⟩ : BufTy).Contents (Elt F) → (⟨S50000x128, .f32⟩ : BufTy).Contents (Elt F)),
    StableHlo.binary main_v45 main_v44 main_v46 (mulf : (⟨S50000x128, .f32⟩ : BufTy).Contents (Elt F) → (⟨S50000x128, .f32⟩ : BufTy).Contents (Elt F) → (⟨S50000x128, .f32⟩ : BufTy).Contents (Elt F)),
    StableHlo.nullary main_cst_11 (constant S_ .f32 0x3DCCCCCD#32),
    StableHlo.unary main_cst_11 main_v47 (broadcastInDim S50000x128 ![] bcast_S_S50000x128 : (⟨S_, .f32⟩ : BufTy).Contents (Elt F) → (⟨S50000x128, .f32⟩ : BufTy).Contents (Elt F)),
    StableHlo.binary main_v47 main_arg0 main_v48 (mulf : (⟨S50000x128, .f32⟩ : BufTy).Contents (Elt F) → (⟨S50000x128, .f32⟩ : BufTy).Contents (Elt F) → (⟨S50000x128, .f32⟩ : BufTy).Contents (Elt F)),
    StableHlo.binary main_v46 main_v48 main_v49 (addf : (⟨S50000x128, .f32⟩ : BufTy).Contents (Elt F) → (⟨S50000x128, .f32⟩ : BufTy).Contents (Elt F) → (⟨S50000x128, .f32⟩ : BufTy).Contents (Elt F)),
    StableHlo.unary main_arg2 main_v50 ((extractStridedSlice S1x128x128 ![0, 0, 0] · slices_S5x128x128_S1x128x128_0_0_0) : (⟨S5x128x128, .f32⟩ : BufTy).Contents (Elt F) → (⟨S1x128x128, .f32⟩ : BufTy).Contents (Elt F)),
    StableHlo.reshape main_v50 main_v51 rfl shapeCasts_S1x128x128_S128x128,
    StableHlo.binary main_v49 main_v51 main_v52 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_12 (constant S_ .f32 0x3C23D70A#32),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x128, .f32⟩) (broadcastInDim S50000x128 ![] bcast_S_S50000x128),
    StableHlo.TRef.binary (.of main_v52 : StableHlo.TRef sig ⟨S50000x128, .f32⟩) (.of main_call1_v0 : StableHlo.TRef sig ⟨S50000x128, .f32⟩) (.of main_call1_v1 : StableHlo.TRef sig ⟨S50000x128, .i1⟩) (cmpf .oge),
    StableHlo.TRef.unary (.of main_cst_12 : StableHlo.TRef sig ⟨S_, .f32⟩) (.of main_call1_v2 : StableHlo.TRef sig ⟨S_, .f32⟩) id,
    StableHlo.TRef.unary (.of main_call1_v2 : StableHlo.TRef sig ⟨S_, .f32⟩) (.of main_call1_v3 : StableHlo.TRef sig ⟨S50000x128, .f32⟩) (broadcastInDim S50000x128 ![] bcast_S_S50000x128),
    StableHlo.TRef.binary (.of main_call1_v3 : StableHlo.TRef sig ⟨S50000x128, .f32⟩) (.of main_v52 : StableHlo.TRef sig ⟨S50000x128, .f32⟩) (.of main_call1_v4 : StableHlo.TRef sig ⟨S50000x128, .f32⟩) mulf,
    StableHlo.TRef.ternary (.of main_call1_v1 : StableHlo.TRef sig ⟨S50000x128, .i1⟩) (.of main_v52 : StableHlo.TRef sig ⟨S50000x128, .f32⟩) (.of main_call1_v4 : StableHlo.TRef sig ⟨S50000x128, .f32⟩) (.of main_v53 : StableHlo.TRef sig ⟨S50000x128, .f32⟩) select ]

/-- The buffer each operation of `lin1` writes, in order. -/
abbrev lin1_wl : List (Ref sig .tc) :=
  [main_cst_10, main_v45, main_v46, main_cst_11, main_v47, main_v48, main_v49, main_v50, main_v51, main_v52, main_cst_12, main_call1_cst, main_call1_v0, main_call1_v1, main_call1_v2, main_call1_v3, main_call1_v4, main_v53]
theorem lin1_writes : Cert.RefSSA.Writes (lin1 : List (HloOp τ sig (Elt F))) lin1_wl :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))
theorem lin1_sub : (lin1 : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub ..⟩
theorem lin1_fresh : (lin1 : List (HloOp τ sig (Elt F))).Forall fun op => op.fresh = ∅ :=
  ⟨rfl, rfl, rfl, rfl, rfl, rfl, rfl, rfl, rfl, rfl, rfl, rfl, rfl, rfl, rfl, rfl, rfl, rfl⟩

/-- Layer 2's aggregation: per edge the source node's row of the layer's input scaled by the edge weight, added into the target node's row of a zero array. -/
abbrev agg2 : List (HloOp τ sig (Elt F)) :=
  [ StableHlo.unary main_v31 main_v54 (broadcastInDim S850000x1 ![0] bcast_S850000_S850000x1_0 : (⟨S850000, .f32⟩ : BufTy).Contents (Elt F) → (⟨S850000x1, .f32⟩ : BufTy).Contents (Elt F)),
    StableHlo.nullary main_c_13 (constantI S_ 32 0#32),
    StableHlo.unary main_c_13 main_v55 (broadcastInDim S850000 ![] bcast_S_S850000 : (⟨S_, .i32⟩ : BufTy).Contents (Elt F) → (⟨S850000, .i32⟩ : BufTy).Contents (Elt F)),
    StableHlo.binary main_v3 main_v55 main_v56 (cmpi .slt : (⟨S850000, .i32⟩ : BufTy).Contents (Elt F) → (⟨S850000, .i32⟩ : BufTy).Contents (Elt F) → (⟨S850000, .i1⟩ : BufTy).Contents (Elt F)),
    StableHlo.nullary main_c_14 (constantI S_ 32 50000#32),
    StableHlo.unary main_c_14 main_v57 (broadcastInDim S850000 ![] bcast_S_S850000 : (⟨S_, .i32⟩ : BufTy).Contents (Elt F) → (⟨S850000, .i32⟩ : BufTy).Contents (Elt F)),
    StableHlo.binary main_v3 main_v57 main_v58 (addi : (⟨S850000, .i32⟩ : BufTy).Contents (Elt F) → (⟨S850000, .i32⟩ : BufTy).Contents (Elt F) → (⟨S850000, .i32⟩ : BufTy).Contents (Elt F)),
    StableHlo.ternary main_v56 main_v58 main_v3 main_v59 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v59 main_v60 (broadcastInDim S850000x1 ![0] bcast_S850000_S850000x1_0 : (⟨S850000, .i32⟩ : BufTy).Contents (Elt F) → (⟨S850000x1, .i32⟩ : BufTy).Contents (Elt F)),
    StableHlo.binary main_v53 main_v60 main_v61 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v54 main_v62 (broadcastInDim S850000x128 ![0, 1] bcast_S850000x1_S850000x128_0_1 : (⟨S850000x1, .f32⟩ : BufTy).Contents (Elt F) → (⟨S850000x128, .f32⟩ : BufTy).Contents (Elt F)),
    StableHlo.binary main_v62 main_v61 main_v63 (mulf : (⟨S850000x128, .f32⟩ : BufTy).Contents (Elt F) → (⟨S850000x128, .f32⟩ : BufTy).Contents (Elt F) → (⟨S850000x128, .f32⟩ : BufTy).Contents (Elt F)),
    StableHlo.nullary main_cst_15 (constant S_ .f32 0x00000000#32),
    StableHlo.unary main_cst_15 main_v64 (broadcastInDim S50000x128 ![] bcast_S_S50000x128 : (⟨S_, .f32⟩ : BufTy).Contents (Elt F) → (⟨S50000x128, .f32⟩ : BufTy).Contents (Elt F)),
    StableHlo.unary main_v6 main_v65 (broadcastInDim S850000x1 ![0] bcast_S850000_S850000x1_0 : (⟨S850000, .i32⟩ : BufTy).Contents (Elt F) → (⟨S850000x1, .i32⟩ : BufTy).Contents (Elt F)),
    StableHlo.ternary main_v64 main_v65 main_v63 main_v66 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

/-- The buffer each operation of `agg2` writes, in order. -/
abbrev agg2_wl : List (Ref sig .tc) :=
  [main_v54, main_c_13, main_v55, main_v56, main_c_14, main_v57, main_v58, main_v59, main_v60, main_v61, main_v62, main_v63, main_cst_15, main_v64, main_v65, main_v66]
theorem agg2_writes : Cert.RefSSA.Writes (agg2 : List (HloOp τ sig (Elt F))) agg2_wl :=
  .cons rfl (.cons rfl (.cons rfl (.cons rfl (.cons rfl (.cons rfl (.cons rfl (.cons rfl (.cons rfl (.cons rfl (.cons rfl (.cons rfl (.cons rfl (.cons rfl (.cons rfl (.cons rfl (.nil))))))))))))))))
theorem agg2_sub : (agg2 : List (HloOp τ sig (Elt F))).Forall fun op => op.bufs ⊆ tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub ..⟩
theorem agg2_fresh : (agg2 : List (HloOp τ sig (Elt F))).Forall fun op => op.fresh = ∅ :=
  ⟨rfl, rfl, rfl, rfl, rfl, rfl, rfl, rfl, rfl, rfl, rfl, rfl, rfl, rfl, rfl, rfl⟩

/-- Layer 2's dense part: 0.9 times the aggregated rows plus 0.1 times the input features, times the layer's weight matrix, then on every entry z the map that keeps z when z ≥ 0 and scales it by the small factor elsewhere. -/
abbrev lin2 : List (HloOp τ sig (Elt F)) :=
  [ StableHlo.nullary main_cst_16 (constant S_ .f32 0x3F666666#32),
    StableHlo.unary main_cst_16 main_v67 (broadcastInDim S50000x128 ![] bcast_S_S50000x128 : (⟨S_, .f32⟩ : BufTy).Contents (Elt F) → (⟨S50000x128, .f32⟩ : BufTy).Contents (Elt F)),
    StableHlo.binary main_v67 main_v66 main_v68 (mulf : (⟨S50000x128, .f32⟩ : BufTy).Contents (Elt F) → (⟨S50000x128, .f32⟩ : BufTy).Contents (Elt F) → (⟨S50000x128, .f32⟩ : BufTy).Contents (Elt F)),
    StableHlo.nullary main_cst_17 (constant S_ .f32 0x3DCCCCCD#32),
    StableHlo.unary main_cst_17 main_v69 (broadcastInDim S50000x128 ![] bcast_S_S50000x128 : (⟨S_, .f32⟩ : BufTy).Contents (Elt F) → (⟨S50000x128, .f32⟩ : BufTy).Contents (Elt F)),
    StableHlo.binary main_v69 main_arg0 main_v70 (mulf : (⟨S50000x128, .f32⟩ : BufTy).Contents (Elt F) → (⟨S50000x128, .f32⟩ : BufTy).Contents (Elt F) → (⟨S50000x128, .f32⟩ : BufTy).Contents (Elt F)),
    StableHlo.binary main_v68 main_v70 main_v71 (addf : (⟨S50000x128, .f32⟩ : BufTy).Contents (Elt F) → (⟨S50000x128, .f32⟩ : BufTy).Contents (Elt F) → (⟨S50000x128, .f32⟩ : BufTy).Contents (Elt F)),
    StableHlo.unary main_arg2 main_v72 ((extractStridedSlice S1x128x128 ![1, 0, 0] · slices_S5x128x128_S1x128x128_1_0_0) : (⟨S5x128x128, .f32⟩ : BufTy).Contents (Elt F) → (⟨S1x128x128, .f32⟩ : BufTy).Contents (Elt F)),
    StableHlo.reshape main_v72 main_v73 rfl shapeCasts_S1x128x128_S128x128,
    StableHlo.binary main_v71 main_v73 main_v74 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_18 (constant S_ .f32 0x3C23D70A#32),
    StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S50000x128, .f32⟩) (broadcastInDim S50000x128 ![] bcast_S_S50000x128),
    StableHlo.TRef.binary (.of main_v74 : StableHlo.TRef sig ⟨S50000x128, .f32⟩) (.of main_call2_v0 : StableHlo.TRef sig ⟨S50000x128, .f32⟩) (.of main_call2_v1 : StableHlo.TRef sig ⟨S50000x128, .i1⟩) (cmpf .oge),
    StableHlo.TRef.unary (.of main_cst_18 : StableHlo.TRef sig ⟨S_, .f32⟩) (.of main_call2_v2 : StableHlo.TRef sig ⟨S_, .f32⟩) id,
    StableHlo.TRef.unary (.of main_call2_v2 : StableHlo.TRef sig ⟨S_, .f32⟩) (.of main_call2_v3 : StableHlo.TRef sig ⟨S50000x128, .f32⟩) (broadcastInDim S50000x128 ![] bcast_S_S50000x128),
    StableHlo.TRef.binary (.of main_call2_v3 : StableHlo.TRef sig ⟨S50000x128, .f32⟩) (.of main_v74 : StableHlo.TRef sig ⟨S50000x128, .f32⟩) (.of main_call2_v4 : StableHlo.TRef sig ⟨S50000x128, .f32⟩) mulf,
    StableHlo.TRef.ternary (.of main_call2_v1 : StableHlo.TRef sig ⟨S50000x128, .i1⟩) (.of main_v74 : StableHlo.TRef sig ⟨S50000x128, .f32⟩) (.of main_call2_v4 : StableHlo.TRef sig ⟨S50000x128, .f32⟩) (.of main_v75 : StableHlo.TRef sig ⟨S50000x128, .f32⟩) select ]

/-- The buffer each operation of `lin2` writes, in order. -/
abbrev lin2_wl : List (Ref sig .tc) :=
  [main_cst_16, main_v67, main_v68, main_cst_17, main_v69, main_v70, main_v71, main_v72, main_v73, main_v74, main_cst_18, main_call2_cst, main_call2_v0, main_call2_v1, main_call2_v2, main_call2_v3, main_call2_v4, main_v75]
theorem lin2_writes : Cert.RefSSA.Writes (lin2 : List (HloOp τ sig (Elt F))) lin2_wl :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))
theorem lin2_sub : (lin2 : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub ..⟩
theorem lin2_fresh : (lin2 : List (HloOp τ sig (Elt F))).Forall fun op => op.fresh = ∅ :=
  ⟨rfl, rfl, rfl, rfl, rfl, rfl, rfl, rfl, rfl, rfl, rfl, rfl, rfl, rfl, rfl, rfl, rfl, rfl⟩

/-- Layer 3's aggregation: per edge the source node's row of the layer's input scaled by the edge weight, added into the target node's row of a zero array. -/
abbrev agg3 : List (HloOp τ sig (Elt F)) :=
  [ StableHlo.unary main_v31 main_v76 (broadcastInDim S850000x1 ![0] bcast_S850000_S850000x1_0 : (⟨S850000, .f32⟩ : BufTy).Contents (Elt F) → (⟨S850000x1, .f32⟩ : BufTy).Contents (Elt F)),
    StableHlo.nullary main_c_19 (constantI S_ 32 0#32),
    StableHlo.unary main_c_19 main_v77 (broadcastInDim S850000 ![] bcast_S_S850000 : (⟨S_, .i32⟩ : BufTy).Contents (Elt F) → (⟨S850000, .i32⟩ : BufTy).Contents (Elt F)),
    StableHlo.binary main_v3 main_v77 main_v78 (cmpi .slt : (⟨S850000, .i32⟩ : BufTy).Contents (Elt F) → (⟨S850000, .i32⟩ : BufTy).Contents (Elt F) → (⟨S850000, .i1⟩ : BufTy).Contents (Elt F)),
    StableHlo.nullary main_c_20 (constantI S_ 32 50000#32),
    StableHlo.unary main_c_20 main_v79 (broadcastInDim S850000 ![] bcast_S_S850000 : (⟨S_, .i32⟩ : BufTy).Contents (Elt F) → (⟨S850000, .i32⟩ : BufTy).Contents (Elt F)),
    StableHlo.binary main_v3 main_v79 main_v80 (addi : (⟨S850000, .i32⟩ : BufTy).Contents (Elt F) → (⟨S850000, .i32⟩ : BufTy).Contents (Elt F) → (⟨S850000, .i32⟩ : BufTy).Contents (Elt F)),
    StableHlo.ternary main_v78 main_v80 main_v3 main_v81 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v81 main_v82 (broadcastInDim S850000x1 ![0] bcast_S850000_S850000x1_0 : (⟨S850000, .i32⟩ : BufTy).Contents (Elt F) → (⟨S850000x1, .i32⟩ : BufTy).Contents (Elt F)),
    StableHlo.binary main_v75 main_v82 main_v83 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v76 main_v84 (broadcastInDim S850000x128 ![0, 1] bcast_S850000x1_S850000x128_0_1 : (⟨S850000x1, .f32⟩ : BufTy).Contents (Elt F) → (⟨S850000x128, .f32⟩ : BufTy).Contents (Elt F)),
    StableHlo.binary main_v84 main_v83 main_v85 (mulf : (⟨S850000x128, .f32⟩ : BufTy).Contents (Elt F) → (⟨S850000x128, .f32⟩ : BufTy).Contents (Elt F) → (⟨S850000x128, .f32⟩ : BufTy).Contents (Elt F)),
    StableHlo.nullary main_cst_21 (constant S_ .f32 0x00000000#32),
    StableHlo.unary main_cst_21 main_v86 (broadcastInDim S50000x128 ![] bcast_S_S50000x128 : (⟨S_, .f32⟩ : BufTy).Contents (Elt F) → (⟨S50000x128, .f32⟩ : BufTy).Contents (Elt F)),
    StableHlo.unary main_v6 main_v87 (broadcastInDim S850000x1 ![0] bcast_S850000_S850000x1_0 : (⟨S850000, .i32⟩ : BufTy).Contents (Elt F) → (⟨S850000x1, .i32⟩ : BufTy).Contents (Elt F)),
    StableHlo.ternary main_v86 main_v87 main_v85 main_v88 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

/-- The buffer each operation of `agg3` writes, in order. -/
abbrev agg3_wl : List (Ref sig .tc) :=
  [main_v76, main_c_19, main_v77, main_v78, main_c_20, main_v79, main_v80, main_v81, main_v82, main_v83, main_v84, main_v85, main_cst_21, main_v86, main_v87, main_v88]
theorem agg3_writes : Cert.RefSSA.Writes (agg3 : List (HloOp τ sig (Elt F))) agg3_wl :=
  .cons rfl (.cons rfl (.cons rfl (.cons rfl (.cons rfl (.cons rfl (.cons rfl (.cons rfl (.cons rfl (.cons rfl (.cons rfl (.cons rfl (.cons rfl (.cons rfl (.cons rfl (.cons rfl (.nil))))))))))))))))
theorem agg3_sub : (agg3 : List (HloOp τ sig (Elt F))).Forall fun op => op.bufs ⊆ tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub ..⟩
theorem agg3_fresh : (agg3 : List (HloOp τ sig (Elt F))).Forall fun op => op.fresh = ∅ :=
  ⟨rfl, rfl, rfl, rfl, rfl, rfl, rfl, rfl, rfl, rfl, rfl, rfl, rfl, rfl, rfl, rfl⟩

/-- Layer 3's dense part: 0.9 times the aggregated rows plus 0.1 times the input features, times the layer's weight matrix, then on every entry z the map that keeps z when z ≥ 0 and scales it by the small factor elsewhere. -/
abbrev lin3 : List (HloOp τ sig (Elt F)) :=
  [ StableHlo.nullary main_cst_22 (constant S_ .f32 0x3F666666#32),
    StableHlo.unary main_cst_22 main_v89 (broadcastInDim S50000x128 ![] bcast_S_S50000x128 : (⟨S_, .f32⟩ : BufTy).Contents (Elt F) → (⟨S50000x128, .f32⟩ : BufTy).Contents (Elt F)),
    StableHlo.binary main_v89 main_v88 main_v90 (mulf : (⟨S50000x128, .f32⟩ : BufTy).Contents (Elt F) → (⟨S50000x128, .f32⟩ : BufTy).Contents (Elt F) → (⟨S50000x128, .f32⟩ : BufTy).Contents (Elt F)),
    StableHlo.nullary main_cst_23 (constant S_ .f32 0x3DCCCCCD#32),
    StableHlo.unary main_cst_23 main_v91 (broadcastInDim S50000x128 ![] bcast_S_S50000x128 : (⟨S_, .f32⟩ : BufTy).Contents (Elt F) → (⟨S50000x128, .f32⟩ : BufTy).Contents (Elt F)),
    StableHlo.binary main_v91 main_arg0 main_v92 (mulf : (⟨S50000x128, .f32⟩ : BufTy).Contents (Elt F) → (⟨S50000x128, .f32⟩ : BufTy).Contents (Elt F) → (⟨S50000x128, .f32⟩ : BufTy).Contents (Elt F)),
    StableHlo.binary main_v90 main_v92 main_v93 (addf : (⟨S50000x128, .f32⟩ : BufTy).Contents (Elt F) → (⟨S50000x128, .f32⟩ : BufTy).Contents (Elt F) → (⟨S50000x128, .f32⟩ : BufTy).Contents (Elt F)),
    StableHlo.unary main_arg2 main_v94 ((extractStridedSlice S1x128x128 ![2, 0, 0] · slices_S5x128x128_S1x128x128_2_0_0) : (⟨S5x128x128, .f32⟩ : BufTy).Contents (Elt F) → (⟨S1x128x128, .f32⟩ : BufTy).Contents (Elt F)),
    StableHlo.reshape main_v94 main_v95 rfl shapeCasts_S1x128x128_S128x128,
    StableHlo.binary main_v93 main_v95 main_v96 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_24 (constant S_ .f32 0x3C23D70A#32),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S50000x128, .f32⟩) (broadcastInDim S50000x128 ![] bcast_S_S50000x128),
    StableHlo.TRef.binary (.of main_v96 : StableHlo.TRef sig ⟨S50000x128, .f32⟩) (.of main_call3_v0 : StableHlo.TRef sig ⟨S50000x128, .f32⟩) (.of main_call3_v1 : StableHlo.TRef sig ⟨S50000x128, .i1⟩) (cmpf .oge),
    StableHlo.TRef.unary (.of main_cst_24 : StableHlo.TRef sig ⟨S_, .f32⟩) (.of main_call3_v2 : StableHlo.TRef sig ⟨S_, .f32⟩) id,
    StableHlo.TRef.unary (.of main_call3_v2 : StableHlo.TRef sig ⟨S_, .f32⟩) (.of main_call3_v3 : StableHlo.TRef sig ⟨S50000x128, .f32⟩) (broadcastInDim S50000x128 ![] bcast_S_S50000x128),
    StableHlo.TRef.binary (.of main_call3_v3 : StableHlo.TRef sig ⟨S50000x128, .f32⟩) (.of main_v96 : StableHlo.TRef sig ⟨S50000x128, .f32⟩) (.of main_call3_v4 : StableHlo.TRef sig ⟨S50000x128, .f32⟩) mulf,
    StableHlo.TRef.ternary (.of main_call3_v1 : StableHlo.TRef sig ⟨S50000x128, .i1⟩) (.of main_v96 : StableHlo.TRef sig ⟨S50000x128, .f32⟩) (.of main_call3_v4 : StableHlo.TRef sig ⟨S50000x128, .f32⟩) (.of main_v97 : StableHlo.TRef sig ⟨S50000x128, .f32⟩) select ]

/-- The buffer each operation of `lin3` writes, in order. -/
abbrev lin3_wl : List (Ref sig .tc) :=
  [main_cst_22, main_v89, main_v90, main_cst_23, main_v91, main_v92, main_v93, main_v94, main_v95, main_v96, main_cst_24, main_call3_cst, main_call3_v0, main_call3_v1, main_call3_v2, main_call3_v3, main_call3_v4, main_v97]
theorem lin3_writes : Cert.RefSSA.Writes (lin3 : List (HloOp τ sig (Elt F))) lin3_wl :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))
theorem lin3_sub : (lin3 : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub ..⟩
theorem lin3_fresh : (lin3 : List (HloOp τ sig (Elt F))).Forall fun op => op.fresh = ∅ :=
  ⟨rfl, rfl, rfl, rfl, rfl, rfl, rfl, rfl, rfl, rfl, rfl, rfl, rfl, rfl, rfl, rfl, rfl, rfl⟩

/-- Layer 4's aggregation: per edge the source node's row of the layer's input scaled by the edge weight, added into the target node's row of a zero array. -/
abbrev agg4 : List (HloOp τ sig (Elt F)) :=
  [ StableHlo.unary main_v31 main_v98 (broadcastInDim S850000x1 ![0] bcast_S850000_S850000x1_0 : (⟨S850000, .f32⟩ : BufTy).Contents (Elt F) → (⟨S850000x1, .f32⟩ : BufTy).Contents (Elt F)),
    StableHlo.nullary main_c_25 (constantI S_ 32 0#32),
    StableHlo.unary main_c_25 main_v99 (broadcastInDim S850000 ![] bcast_S_S850000 : (⟨S_, .i32⟩ : BufTy).Contents (Elt F) → (⟨S850000, .i32⟩ : BufTy).Contents (Elt F)),
    StableHlo.binary main_v3 main_v99 main_v100 (cmpi .slt : (⟨S850000, .i32⟩ : BufTy).Contents (Elt F) → (⟨S850000, .i32⟩ : BufTy).Contents (Elt F) → (⟨S850000, .i1⟩ : BufTy).Contents (Elt F)),
    StableHlo.nullary main_c_26 (constantI S_ 32 50000#32),
    StableHlo.unary main_c_26 main_v101 (broadcastInDim S850000 ![] bcast_S_S850000 : (⟨S_, .i32⟩ : BufTy).Contents (Elt F) → (⟨S850000, .i32⟩ : BufTy).Contents (Elt F)),
    StableHlo.binary main_v3 main_v101 main_v102 (addi : (⟨S850000, .i32⟩ : BufTy).Contents (Elt F) → (⟨S850000, .i32⟩ : BufTy).Contents (Elt F) → (⟨S850000, .i32⟩ : BufTy).Contents (Elt F)),
    StableHlo.ternary main_v100 main_v102 main_v3 main_v103 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v103 main_v104 (broadcastInDim S850000x1 ![0] bcast_S850000_S850000x1_0 : (⟨S850000, .i32⟩ : BufTy).Contents (Elt F) → (⟨S850000x1, .i32⟩ : BufTy).Contents (Elt F)),
    StableHlo.binary main_v97 main_v104 main_v105 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v98 main_v106 (broadcastInDim S850000x128 ![0, 1] bcast_S850000x1_S850000x128_0_1 : (⟨S850000x1, .f32⟩ : BufTy).Contents (Elt F) → (⟨S850000x128, .f32⟩ : BufTy).Contents (Elt F)),
    StableHlo.binary main_v106 main_v105 main_v107 (mulf : (⟨S850000x128, .f32⟩ : BufTy).Contents (Elt F) → (⟨S850000x128, .f32⟩ : BufTy).Contents (Elt F) → (⟨S850000x128, .f32⟩ : BufTy).Contents (Elt F)),
    StableHlo.nullary main_cst_27 (constant S_ .f32 0x00000000#32),
    StableHlo.unary main_cst_27 main_v108 (broadcastInDim S50000x128 ![] bcast_S_S50000x128 : (⟨S_, .f32⟩ : BufTy).Contents (Elt F) → (⟨S50000x128, .f32⟩ : BufTy).Contents (Elt F)),
    StableHlo.unary main_v6 main_v109 (broadcastInDim S850000x1 ![0] bcast_S850000_S850000x1_0 : (⟨S850000, .i32⟩ : BufTy).Contents (Elt F) → (⟨S850000x1, .i32⟩ : BufTy).Contents (Elt F)),
    StableHlo.ternary main_v108 main_v109 main_v107 main_v110 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

/-- The buffer each operation of `agg4` writes, in order. -/
abbrev agg4_wl : List (Ref sig .tc) :=
  [main_v98, main_c_25, main_v99, main_v100, main_c_26, main_v101, main_v102, main_v103, main_v104, main_v105, main_v106, main_v107, main_cst_27, main_v108, main_v109, main_v110]
theorem agg4_writes : Cert.RefSSA.Writes (agg4 : List (HloOp τ sig (Elt F))) agg4_wl :=
  .cons rfl (.cons rfl (.cons rfl (.cons rfl (.cons rfl (.cons rfl (.cons rfl (.cons rfl (.cons rfl (.cons rfl (.cons rfl (.cons rfl (.cons rfl (.cons rfl (.cons rfl (.cons rfl (.nil))))))))))))))))
theorem agg4_sub : (agg4 : List (HloOp τ sig (Elt F))).Forall fun op => op.bufs ⊆ tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub ..⟩
theorem agg4_fresh : (agg4 : List (HloOp τ sig (Elt F))).Forall fun op => op.fresh = ∅ :=
  ⟨rfl, rfl, rfl, rfl, rfl, rfl, rfl, rfl, rfl, rfl, rfl, rfl, rfl, rfl, rfl, rfl⟩

/-- Layer 4's dense part: 0.9 times the aggregated rows plus 0.1 times the input features, times the layer's weight matrix, then on every entry z the map that keeps z when z ≥ 0 and scales it by the small factor elsewhere. -/
abbrev lin4 : List (HloOp τ sig (Elt F)) :=
  [ StableHlo.nullary main_cst_28 (constant S_ .f32 0x3F666666#32),
    StableHlo.unary main_cst_28 main_v111 (broadcastInDim S50000x128 ![] bcast_S_S50000x128 : (⟨S_, .f32⟩ : BufTy).Contents (Elt F) → (⟨S50000x128, .f32⟩ : BufTy).Contents (Elt F)),
    StableHlo.binary main_v111 main_v110 main_v112 (mulf : (⟨S50000x128, .f32⟩ : BufTy).Contents (Elt F) → (⟨S50000x128, .f32⟩ : BufTy).Contents (Elt F) → (⟨S50000x128, .f32⟩ : BufTy).Contents (Elt F)),
    StableHlo.nullary main_cst_29 (constant S_ .f32 0x3DCCCCCD#32),
    StableHlo.unary main_cst_29 main_v113 (broadcastInDim S50000x128 ![] bcast_S_S50000x128 : (⟨S_, .f32⟩ : BufTy).Contents (Elt F) → (⟨S50000x128, .f32⟩ : BufTy).Contents (Elt F)),
    StableHlo.binary main_v113 main_arg0 main_v114 (mulf : (⟨S50000x128, .f32⟩ : BufTy).Contents (Elt F) → (⟨S50000x128, .f32⟩ : BufTy).Contents (Elt F) → (⟨S50000x128, .f32⟩ : BufTy).Contents (Elt F)),
    StableHlo.binary main_v112 main_v114 main_v115 (addf : (⟨S50000x128, .f32⟩ : BufTy).Contents (Elt F) → (⟨S50000x128, .f32⟩ : BufTy).Contents (Elt F) → (⟨S50000x128, .f32⟩ : BufTy).Contents (Elt F)),
    StableHlo.unary main_arg2 main_v116 ((extractStridedSlice S1x128x128 ![3, 0, 0] · slices_S5x128x128_S1x128x128_3_0_0) : (⟨S5x128x128, .f32⟩ : BufTy).Contents (Elt F) → (⟨S1x128x128, .f32⟩ : BufTy).Contents (Elt F)),
    StableHlo.reshape main_v116 main_v117 rfl shapeCasts_S1x128x128_S128x128,
    StableHlo.binary main_v115 main_v117 main_v118 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_30 (constant S_ .f32 0x3C23D70A#32),
    StableHlo.TRef.nullary (.of main_call4_cst : StableHlo.TRef sig ⟨S_, .f32⟩) (constant S_ .f32 0x00000000#32),
    StableHlo.TRef.unary (.of main_call4_cst : StableHlo.TRef sig ⟨S_, .f32⟩) (.of main_call4_v0 : StableHlo.TRef sig ⟨S50000x128, .f32⟩) (broadcastInDim S50000x128 ![] bcast_S_S50000x128),
    StableHlo.TRef.binary (.of main_v118 : StableHlo.TRef sig ⟨S50000x128, .f32⟩) (.of main_call4_v0 : StableHlo.TRef sig ⟨S50000x128, .f32⟩) (.of main_call4_v1 : StableHlo.TRef sig ⟨S50000x128, .i1⟩) (cmpf .oge),
    StableHlo.TRef.unary (.of main_cst_30 : StableHlo.TRef sig ⟨S_, .f32⟩) (.of main_call4_v2 : StableHlo.TRef sig ⟨S_, .f32⟩) id,
    StableHlo.TRef.unary (.of main_call4_v2 : StableHlo.TRef sig ⟨S_, .f32⟩) (.of main_call4_v3 : StableHlo.TRef sig ⟨S50000x128, .f32⟩) (broadcastInDim S50000x128 ![] bcast_S_S50000x128),
    StableHlo.TRef.binary (.of main_call4_v3 : StableHlo.TRef sig ⟨S50000x128, .f32⟩) (.of main_v118 : StableHlo.TRef sig ⟨S50000x128, .f32⟩) (.of main_call4_v4 : StableHlo.TRef sig ⟨S50000x128, .f32⟩) mulf,
    StableHlo.TRef.ternary (.of main_call4_v1 : StableHlo.TRef sig ⟨S50000x128, .i1⟩) (.of main_v118 : StableHlo.TRef sig ⟨S50000x128, .f32⟩) (.of main_call4_v4 : StableHlo.TRef sig ⟨S50000x128, .f32⟩) (.of main_v119 : StableHlo.TRef sig ⟨S50000x128, .f32⟩) select ]

/-- The buffer each operation of `lin4` writes, in order. -/
abbrev lin4_wl : List (Ref sig .tc) :=
  [main_cst_28, main_v111, main_v112, main_cst_29, main_v113, main_v114, main_v115, main_v116, main_v117, main_v118, main_cst_30, main_call4_cst, main_call4_v0, main_call4_v1, main_call4_v2, main_call4_v3, main_call4_v4, main_v119]
theorem lin4_writes : Cert.RefSSA.Writes (lin4 : List (HloOp τ sig (Elt F))) lin4_wl :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))
theorem lin4_sub : (lin4 : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub ..⟩
theorem lin4_fresh : (lin4 : List (HloOp τ sig (Elt F))).Forall fun op => op.fresh = ∅ :=
  ⟨rfl, rfl, rfl, rfl, rfl, rfl, rfl, rfl, rfl, rfl, rfl, rfl, rfl, rfl, rfl, rfl, rfl, rfl⟩

/-- Layer 5's aggregation: per edge the source node's row of the layer's input scaled by the edge weight, added into the target node's row of a zero array. -/
abbrev agg5 : List (HloOp τ sig (Elt F)) :=
  [ StableHlo.unary main_v31 main_v120 (broadcastInDim S850000x1 ![0] bcast_S850000_S850000x1_0 : (⟨S850000, .f32⟩ : BufTy).Contents (Elt F) → (⟨S850000x1, .f32⟩ : BufTy).Contents (Elt F)),
    StableHlo.nullary main_c_31 (constantI S_ 32 0#32),
    StableHlo.unary main_c_31 main_v121 (broadcastInDim S850000 ![] bcast_S_S850000 : (⟨S_, .i32⟩ : BufTy).Contents (Elt F) → (⟨S850000, .i32⟩ : BufTy).Contents (Elt F)),
    StableHlo.binary main_v3 main_v121 main_v122 (cmpi .slt : (⟨S850000, .i32⟩ : BufTy).Contents (Elt F) → (⟨S850000, .i32⟩ : BufTy).Contents (Elt F) → (⟨S850000, .i1⟩ : BufTy).Contents (Elt F)),
    StableHlo.nullary main_c_32 (constantI S_ 32 50000#32),
    StableHlo.unary main_c_32 main_v123 (broadcastInDim S850000 ![] bcast_S_S850000 : (⟨S_, .i32⟩ : BufTy).Contents (Elt F) → (⟨S850000, .i32⟩ : BufTy).Contents (Elt F)),
    StableHlo.binary main_v3 main_v123 main_v124 (addi : (⟨S850000, .i32⟩ : BufTy).Contents (Elt F) → (⟨S850000, .i32⟩ : BufTy).Contents (Elt F) → (⟨S850000, .i32⟩ : BufTy).Contents (Elt F)),
    StableHlo.ternary main_v122 main_v124 main_v3 main_v125 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v125 main_v126 (broadcastInDim S850000x1 ![0] bcast_S850000_S850000x1_0 : (⟨S850000, .i32⟩ : BufTy).Contents (Elt F) → (⟨S850000x1, .i32⟩ : BufTy).Contents (Elt F)),
    StableHlo.binary main_v119 main_v126 main_v127 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v120 main_v128 (broadcastInDim S850000x128 ![0, 1] bcast_S850000x1_S850000x128_0_1 : (⟨S850000x1, .f32⟩ : BufTy).Contents (Elt F) → (⟨S850000x128, .f32⟩ : BufTy).Contents (Elt F)),
    StableHlo.binary main_v128 main_v127 main_v129 (mulf : (⟨S850000x128, .f32⟩ : BufTy).Contents (Elt F) → (⟨S850000x128, .f32⟩ : BufTy).Contents (Elt F) → (⟨S850000x128, .f32⟩ : BufTy).Contents (Elt F)),
    StableHlo.nullary main_cst_33 (constant S_ .f32 0x00000000#32),
    StableHlo.unary main_cst_33 main_v130 (broadcastInDim S50000x128 ![] bcast_S_S50000x128 : (⟨S_, .f32⟩ : BufTy).Contents (Elt F) → (⟨S50000x128, .f32⟩ : BufTy).Contents (Elt F)),
    StableHlo.unary main_v6 main_v131 (broadcastInDim S850000x1 ![0] bcast_S850000_S850000x1_0 : (⟨S850000, .i32⟩ : BufTy).Contents (Elt F) → (⟨S850000x1, .i32⟩ : BufTy).Contents (Elt F)),
    StableHlo.ternary main_v130 main_v131 main_v129 main_v132 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

/-- The buffer each operation of `agg5` writes, in order. -/
abbrev agg5_wl : List (Ref sig .tc) :=
  [main_v120, main_c_31, main_v121, main_v122, main_c_32, main_v123, main_v124, main_v125, main_v126, main_v127, main_v128, main_v129, main_cst_33, main_v130, main_v131, main_v132]
theorem agg5_writes : Cert.RefSSA.Writes (agg5 : List (HloOp τ sig (Elt F))) agg5_wl :=
  .cons rfl (.cons rfl (.cons rfl (.cons rfl (.cons rfl (.cons rfl (.cons rfl (.cons rfl (.cons rfl (.cons rfl (.cons rfl (.cons rfl (.cons rfl (.cons rfl (.cons rfl (.cons rfl (.nil))))))))))))))))
theorem agg5_sub : (agg5 : List (HloOp τ sig (Elt F))).Forall fun op => op.bufs ⊆ tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.unary_bufs_sub .., StableHlo.ternary_bufs_sub ..⟩
theorem agg5_fresh : (agg5 : List (HloOp τ sig (Elt F))).Forall fun op => op.fresh = ∅ :=
  ⟨rfl, rfl, rfl, rfl, rfl, rfl, rfl, rfl, rfl, rfl, rfl, rfl, rfl, rfl, rfl, rfl⟩

/-- Layer 5's dense part: 0.9 times the aggregated rows plus 0.1 times the input features, times the layer's weight matrix, then on every entry z the map that keeps z when z ≥ 0 and scales it by the small factor elsewhere. -/
abbrev lin5 : List (HloOp τ sig (Elt F)) :=
  [ StableHlo.nullary main_cst_34 (constant S_ .f32 0x3F666666#32),
    StableHlo.unary main_cst_34 main_v133 (broadcastInDim S50000x128 ![] bcast_S_S50000x128 : (⟨S_, .f32⟩ : BufTy).Contents (Elt F) → (⟨S50000x128, .f32⟩ : BufTy).Contents (Elt F)),
    StableHlo.binary main_v133 main_v132 main_v134 (mulf : (⟨S50000x128, .f32⟩ : BufTy).Contents (Elt F) → (⟨S50000x128, .f32⟩ : BufTy).Contents (Elt F) → (⟨S50000x128, .f32⟩ : BufTy).Contents (Elt F)),
    StableHlo.nullary main_cst_35 (constant S_ .f32 0x3DCCCCCD#32),
    StableHlo.unary main_cst_35 main_v135 (broadcastInDim S50000x128 ![] bcast_S_S50000x128 : (⟨S_, .f32⟩ : BufTy).Contents (Elt F) → (⟨S50000x128, .f32⟩ : BufTy).Contents (Elt F)),
    StableHlo.binary main_v135 main_arg0 main_v136 (mulf : (⟨S50000x128, .f32⟩ : BufTy).Contents (Elt F) → (⟨S50000x128, .f32⟩ : BufTy).Contents (Elt F) → (⟨S50000x128, .f32⟩ : BufTy).Contents (Elt F)),
    StableHlo.binary main_v134 main_v136 main_v137 (addf : (⟨S50000x128, .f32⟩ : BufTy).Contents (Elt F) → (⟨S50000x128, .f32⟩ : BufTy).Contents (Elt F) → (⟨S50000x128, .f32⟩ : BufTy).Contents (Elt F)),
    StableHlo.unary main_arg2 main_v138 ((extractStridedSlice S1x128x128 ![4, 0, 0] · slices_S5x128x128_S1x128x128_4_0_0) : (⟨S5x128x128, .f32⟩ : BufTy).Contents (Elt F) → (⟨S1x128x128, .f32⟩ : BufTy).Contents (Elt F)),
    StableHlo.reshape main_v138 main_v139 rfl shapeCasts_S1x128x128_S128x128,
    StableHlo.binary main_v137 main_v139 main_v140 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_36 (constant S_ .f32 0x3C23D70A#32),
    StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S50000x128, .f32⟩) (broadcastInDim S50000x128 ![] bcast_S_S50000x128),
    StableHlo.TRef.binary (.of main_v140 : StableHlo.TRef sig ⟨S50000x128, .f32⟩) (.of main_call5_v0 : StableHlo.TRef sig ⟨S50000x128, .f32⟩) (.of main_call5_v1 : StableHlo.TRef sig ⟨S50000x128, .i1⟩) (cmpf .oge),
    StableHlo.TRef.unary (.of main_cst_36 : StableHlo.TRef sig ⟨S_, .f32⟩) (.of main_call5_v2 : StableHlo.TRef sig ⟨S_, .f32⟩) id,
    StableHlo.TRef.unary (.of main_call5_v2 : StableHlo.TRef sig ⟨S_, .f32⟩) (.of main_call5_v3 : StableHlo.TRef sig ⟨S50000x128, .f32⟩) (broadcastInDim S50000x128 ![] bcast_S_S50000x128),
    StableHlo.TRef.binary (.of main_call5_v3 : StableHlo.TRef sig ⟨S50000x128, .f32⟩) (.of main_v140 : StableHlo.TRef sig ⟨S50000x128, .f32⟩) (.of main_call5_v4 : StableHlo.TRef sig ⟨S50000x128, .f32⟩) mulf,
    StableHlo.TRef.ternary (.of main_call5_v1 : StableHlo.TRef sig ⟨S50000x128, .i1⟩) (.of main_v140 : StableHlo.TRef sig ⟨S50000x128, .f32⟩) (.of main_call5_v4 : StableHlo.TRef sig ⟨S50000x128, .f32⟩) (.of main_v141 : StableHlo.TRef sig ⟨S50000x128, .f32⟩) select ]

/-- The buffer each operation of `lin5` writes, in order. -/
abbrev lin5_wl : List (Ref sig .tc) :=
  [main_cst_34, main_v133, main_v134, main_cst_35, main_v135, main_v136, main_v137, main_v138, main_v139, main_v140, main_cst_36, main_call5_cst, main_call5_v0, main_call5_v1, main_call5_v2, main_call5_v3, main_call5_v4, main_v141]
theorem lin5_writes : Cert.RefSSA.Writes (lin5 : List (HloOp τ sig (Elt F))) lin5_wl :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))
theorem lin5_sub : (lin5 : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub ..⟩
theorem lin5_fresh : (lin5 : List (HloOp τ sig (Elt F))).Forall fun op => op.fresh = ∅ :=
  ⟨rfl, rfl, rfl, rfl, rfl, rfl, rfl, rfl, rfl, rfl, rfl, rfl, rfl, rfl, rfl, rfl, rfl, rfl⟩

/-- The final stage: rows times the first matrix plus its row vector, times the second matrix plus its row vector. -/
abbrev fin : List (HloOp τ sig (Elt F)) :=
  [ StableHlo.binary main_v141 main_arg3 main_v142 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.unary main_arg4 main_v143 (broadcastInDim S1x256 ![1] bcast_S256_S1x256_1 : (⟨S256, .f32⟩ : BufTy).Contents (Elt F) → (⟨S1x256, .f32⟩ : BufTy).Contents (Elt F)),
    StableHlo.unary main_v143 main_v144 (broadcastInDim S50000x256 ![0, 1] bcast_S1x256_S50000x256_0_1 : (⟨S1x256, .f32⟩ : BufTy).Contents (Elt F) → (⟨S50000x256, .f32⟩ : BufTy).Contents (Elt F)),
    StableHlo.binary main_v142 main_v144 main_v145 (addf : (⟨S50000x256, .f32⟩ : BufTy).Contents (Elt F) → (⟨S50000x256, .f32⟩ : BufTy).Contents (Elt F) → (⟨S50000x256, .f32⟩ : BufTy).Contents (Elt F)),
    StableHlo.binary main_v145 main_arg5 main_v146 ((fun l r => Host.dotGeneral dot_S50000x256_S256x2_S50000x2_1_0_0_1_n_n none l r) : (⟨S50000x256, .f32⟩ : BufTy).Contents (Elt F) → (⟨S256x2, .f32⟩ : BufTy).Contents (Elt F) → (⟨S50000x2, .f32⟩ : BufTy).Contents (Elt F)),
    StableHlo.unary main_arg6 main_v147 (broadcastInDim S1x2 ![1] bcast_S2_S1x2_1 : (⟨S2, .f32⟩ : BufTy).Contents (Elt F) → (⟨S1x2, .f32⟩ : BufTy).Contents (Elt F)),
    StableHlo.unary main_v147 main_v148 (broadcastInDim S50000x2 ![0, 1] bcast_S1x2_S50000x2_0_1 : (⟨S1x2, .f32⟩ : BufTy).Contents (Elt F) → (⟨S50000x2, .f32⟩ : BufTy).Contents (Elt F)),
    StableHlo.binary main_v146 main_v148 main_v149 (addf : (⟨S50000x2, .f32⟩ : BufTy).Contents (Elt F) → (⟨S50000x2, .f32⟩ : BufTy).Contents (Elt F) → (⟨S50000x2, .f32⟩ : BufTy).Contents (Elt F)) ]

/-- The buffer each operation of `fin` writes, in order. -/
abbrev fin_wl : List (Ref sig .tc) :=
  [main_v142, main_v143, main_v144, main_v145, main_v146, main_v147, main_v148, main_v149]
theorem fin_writes : Cert.RefSSA.Writes (fin : List (HloOp τ sig (Elt F))) fin_wl :=
  .cons rfl (.cons rfl (.cons rfl (.cons rfl (.cons rfl (.cons rfl (.cons rfl (.cons rfl (.nil))))))))
theorem fin_sub : (fin : List (HloOp τ sig (Elt F))).Forall fun op => op.bufs ⊆ tcRefs τ sig :=
  ⟨StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub ..⟩
theorem fin_fresh : (fin : List (HloOp τ sig (Elt F))).Forall fun op => op.fresh = ∅ :=
  ⟨rfl, rfl, rfl, rfl, rfl, rfl, rfl, rfl⟩

/-- The first piece of layer 1's dense part, where the program text is cut. -/
abbrev lin1a : List (HloOp τ sig (Elt F)) :=
  [ StableHlo.nullary main_cst_10 (constant S_ .f32 0x3F666666#32),
    StableHlo.unary main_cst_10 main_v45 (broadcastInDim S50000x128 ![] bcast_S_S50000x128 : (⟨S_, .f32⟩ : BufTy).Contents (Elt F) → (⟨S50000x128, .f32⟩ : BufTy).Contents (Elt F)),
    StableHlo.binary main_v45 main_v44 main_v46 (mulf : (⟨S50000x128, .f32⟩ : BufTy).Contents (Elt F) → (⟨S50000x128, .f32⟩ : BufTy).Contents (Elt F) → (⟨S50000x128, .f32⟩ : BufTy).Contents (Elt F)) ]

theorem lin1a_sub : (lin1a : List (HloOp τ sig (Elt F))).Forall fun op => op.bufs ⊆ tcRefs τ sig :=
  ⟨StableHlo.nullary_bufs_sub .., StableHlo.unary_bufs_sub .., StableHlo.binary_bufs_sub ..⟩

/-- The second piece of layer 1's dense part, where the program text is cut. -/
abbrev lin1b : List (HloOp τ sig (Elt F)) :=
  [ StableHlo.nullary main_cst_11 (constant S_ .f32 0x3DCCCCCD#32),
    StableHlo.unary main_cst_11 main_v47 (broadcastInDim S50000x128 ![] bcast_S_S50000x128 : (⟨S_, .f32⟩ : BufTy).Contents (Elt F) → (⟨S50000x128, .f32⟩ : BufTy).Contents (Elt F)),
    StableHlo.binary main_v47 main_arg0 main_v48 (mulf : (⟨S50000x128, .f32⟩ : BufTy).Contents (Elt F) → (⟨S50000x128, .f32⟩ : BufTy).Contents (Elt F) → (⟨S50000x128, .f32⟩ : BufTy).Contents (Elt F)),
    StableHlo.binary main_v46 main_v48 main_v49 (addf : (⟨S50000x128, .f32⟩ : BufTy).Contents (Elt F) → (⟨S50000x128, .f32⟩ : BufTy).Contents (Elt F) → (⟨S50000x128, .f32⟩ : BufTy).Contents (Elt F)),
    StableHlo.unary main_arg2 main_v50 ((extractStridedSlice S1x128x128 ![0, 0, 0] · slices_S5x128x128_S1x128x128_0_0_0) : (⟨S5x128x128, .f32⟩ : BufTy).Contents (Elt F) → (⟨S1x128x128, .f32⟩ : BufTy).Contents (Elt F)),
    StableHlo.reshape main_v50 main_v51 rfl shapeCasts_S1x128x128_S128x128,
    StableHlo.binary main_v49 main_v51 main_v52 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_12 (constant S_ .f32 0x3C23D70A#32),
    StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S50000x128, .f32⟩) (broadcastInDim S50000x128 ![] bcast_S_S50000x128),
    StableHlo.TRef.binary (.of main_v52 : StableHlo.TRef sig ⟨S50000x128, .f32⟩) (.of main_call1_v0 : StableHlo.TRef sig ⟨S50000x128, .f32⟩) (.of main_call1_v1 : StableHlo.TRef sig ⟨S50000x128, .i1⟩) (cmpf .oge),
    StableHlo.TRef.unary (.of main_cst_12 : StableHlo.TRef sig ⟨S_, .f32⟩) (.of main_call1_v2 : StableHlo.TRef sig ⟨S_, .f32⟩) id,
    StableHlo.TRef.unary (.of main_call1_v2 : StableHlo.TRef sig ⟨S_, .f32⟩) (.of main_call1_v3 : StableHlo.TRef sig ⟨S50000x128, .f32⟩) (broadcastInDim S50000x128 ![] bcast_S_S50000x128),
    StableHlo.TRef.binary (.of main_call1_v3 : StableHlo.TRef sig ⟨S50000x128, .f32⟩) (.of main_v52 : StableHlo.TRef sig ⟨S50000x128, .f32⟩) (.of main_call1_v4 : StableHlo.TRef sig ⟨S50000x128, .f32⟩) mulf,
    StableHlo.TRef.ternary (.of main_call1_v1 : StableHlo.TRef sig ⟨S50000x128, .i1⟩) (.of main_v52 : StableHlo.TRef sig ⟨S50000x128, .f32⟩) (.of main_call1_v4 : StableHlo.TRef sig ⟨S50000x128, .f32⟩) (.of main_v53 : StableHlo.TRef sig ⟨S50000x128, .f32⟩) select ]

theorem lin1b_sub : (lin1b : List (HloOp τ sig (Elt F))).Forall fun op => op.bufs ⊆ tcRefs τ sig :=
  ⟨StableHlo.nullary_bufs_sub .., StableHlo.unary_bufs_sub .., StableHlo.binary_bufs_sub .., StableHlo.binary_bufs_sub .., StableHlo.unary_bufs_sub .., StableHlo.reshape_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub ..⟩

/-- The first piece of layer 3's dense part, where the program text is cut. -/
abbrev lin3a : List (HloOp τ sig (Elt F)) :=
  [ StableHlo.nullary main_cst_22 (constant S_ .f32 0x3F666666#32),
    StableHlo.unary main_cst_22 main_v89 (broadcastInDim S50000x128 ![] bcast_S_S50000x128 : (⟨S_, .f32⟩ : BufTy).Contents (Elt F) → (⟨S50000x128, .f32⟩ : BufTy).Contents (Elt F)),
    StableHlo.binary main_v89 main_v88 main_v90 (mulf : (⟨S50000x128, .f32⟩ : BufTy).Contents (Elt F) → (⟨S50000x128, .f32⟩ : BufTy).Contents (Elt F) → (⟨S50000x128, .f32⟩ : BufTy).Contents (Elt F)),
    StableHlo.nullary main_cst_23 (constant S_ .f32 0x3DCCCCCD#32),
    StableHlo.unary main_cst_23 main_v91 (broadcastInDim S50000x128 ![] bcast_S_S50000x128 : (⟨S_, .f32⟩ : BufTy).Contents (Elt F) → (⟨S50000x128, .f32⟩ : BufTy).Contents (Elt F)),
    StableHlo.binary main_v91 main_arg0 main_v92 (mulf : (⟨S50000x128, .f32⟩ : BufTy).Contents (Elt F) → (⟨S50000x128, .f32⟩ : BufTy).Contents (Elt F) → (⟨S50000x128, .f32⟩ : BufTy).Contents (Elt F)),
    StableHlo.binary main_v90 main_v92 main_v93 (addf : (⟨S50000x128, .f32⟩ : BufTy).Contents (Elt F) → (⟨S50000x128, .f32⟩ : BufTy).Contents (Elt F) → (⟨S50000x128, .f32⟩ : BufTy).Contents (Elt F)) ]

theorem lin3a_sub : (lin3a : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.binary_bufs_sub ..⟩

/-- The second piece of layer 3's dense part, where the program text is cut. -/
abbrev lin3b : List (HloOp τ sig (Elt F)) :=
  [ StableHlo.unary main_arg2 main_v94 ((extractStridedSlice S1x128x128 ![2, 0, 0] · slices_S5x128x128_S1x128x128_2_0_0) : (⟨S5x128x128, .f32⟩ : BufTy).Contents (Elt F) → (⟨S1x128x128, .f32⟩ : BufTy).Contents (Elt F)),
    StableHlo.reshape main_v94 main_v95 rfl shapeCasts_S1x128x128_S128x128,
    StableHlo.binary main_v93 main_v95 main_v96 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_24 (constant S_ .f32 0x3C23D70A#32),
    StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S50000x128, .f32⟩) (broadcastInDim S50000x128 ![] bcast_S_S50000x128),
    StableHlo.TRef.binary (.of main_v96 : StableHlo.TRef sig ⟨S50000x128, .f32⟩) (.of main_call3_v0 : StableHlo.TRef sig ⟨S50000x128, .f32⟩) (.of main_call3_v1 : StableHlo.TRef sig ⟨S50000x128, .i1⟩) (cmpf .oge),
    StableHlo.TRef.unary (.of main_cst_24 : StableHlo.TRef sig ⟨S_, .f32⟩) (.of main_call3_v2 : StableHlo.TRef sig ⟨S_, .f32⟩) id,
    StableHlo.TRef.unary (.of main_call3_v2 : StableHlo.TRef sig ⟨S_, .f32⟩) (.of main_call3_v3 : StableHlo.TRef sig ⟨S50000x128, .f32⟩) (broadcastInDim S50000x128 ![] bcast_S_S50000x128),
    StableHlo.TRef.binary (.of main_call3_v3 : StableHlo.TRef sig ⟨S50000x128, .f32⟩) (.of main_v96 : StableHlo.TRef sig ⟨S50000x128, .f32⟩) (.of main_call3_v4 : StableHlo.TRef sig ⟨S50000x128, .f32⟩) mulf,
    StableHlo.TRef.ternary (.of main_call3_v1 : StableHlo.TRef sig ⟨S50000x128, .i1⟩) (.of main_v96 : StableHlo.TRef sig ⟨S50000x128, .f32⟩) (.of main_call3_v4 : StableHlo.TRef sig ⟨S50000x128, .f32⟩) (.of main_v97 : StableHlo.TRef sig ⟨S50000x128, .f32⟩) select ]

theorem lin3b_sub : (lin3b : List (HloOp τ sig (Elt F))).Forall fun op => op.bufs ⊆ tcRefs τ sig :=
  ⟨StableHlo.unary_bufs_sub .., StableHlo.reshape_bufs_sub .., StableHlo.binary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.ternary_bufs_sub ..⟩

/-- The first piece of layer 5's dense part, where the program text is cut. -/
abbrev lin5a : List (HloOp τ sig (Elt F)) :=
  [ StableHlo.nullary main_cst_34 (constant S_ .f32 0x3F666666#32),
    StableHlo.unary main_cst_34 main_v133 (broadcastInDim S50000x128 ![] bcast_S_S50000x128 : (⟨S_, .f32⟩ : BufTy).Contents (Elt F) → (⟨S50000x128, .f32⟩ : BufTy).Contents (Elt F)),
    StableHlo.binary main_v133 main_v132 main_v134 (mulf : (⟨S50000x128, .f32⟩ : BufTy).Contents (Elt F) → (⟨S50000x128, .f32⟩ : BufTy).Contents (Elt F) → (⟨S50000x128, .f32⟩ : BufTy).Contents (Elt F)),
    StableHlo.nullary main_cst_35 (constant S_ .f32 0x3DCCCCCD#32),
    StableHlo.unary main_cst_35 main_v135 (broadcastInDim S50000x128 ![] bcast_S_S50000x128 : (⟨S_, .f32⟩ : BufTy).Contents (Elt F) → (⟨S50000x128, .f32⟩ : BufTy).Contents (Elt F)),
    StableHlo.binary main_v135 main_arg0 main_v136 (mulf : (⟨S50000x128, .f32⟩ : BufTy).Contents (Elt F) → (⟨S50000x128, .f32⟩ : BufTy).Contents (Elt F) → (⟨S50000x128, .f32⟩ : BufTy).Contents (Elt F)),
    StableHlo.binary main_v134 main_v136 main_v137 (addf : (⟨S50000x128, .f32⟩ : BufTy).Contents (Elt F) → (⟨S50000x128, .f32⟩ : BufTy).Contents (Elt F) → (⟨S50000x128, .f32⟩ : BufTy).Contents (Elt F)),
    StableHlo.unary main_arg2 main_v138 ((extractStridedSlice S1x128x128 ![4, 0, 0] · slices_S5x128x128_S1x128x128_4_0_0) : (⟨S5x128x128, .f32⟩ : BufTy).Contents (Elt F) → (⟨S1x128x128, .f32⟩ : BufTy).Contents (Elt F)),
    StableHlo.reshape main_v138 main_v139 rfl shapeCasts_S1x128x128_S128x128,
    StableHlo.binary main_v137 main_v139 main_v140 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_cst_36 (constant S_ .f32 0x3C23D70A#32) ]

theorem lin5a_sub : (lin5a : List (HloOp τ sig (Elt F))).Forall fun op => op.bufs ⊆ tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.binary_bufs_sub .., StableHlo.nullary_bufs_sub ..⟩

/-- The second piece of layer 5's dense part, where the program text is cut. -/
abbrev lin5b : List (HloOp τ sig (Elt F)) :=
  [ StableHlo.TRef.nullary (.of main_call5_cst : StableHlo.TRef sig ⟨S_, .f32⟩) (constant S_ .f32 0x00000000#32),
    StableHlo.TRef.unary (.of main_call5_cst : StableHlo.TRef sig ⟨S_, .f32⟩) (.of main_call5_v0 : StableHlo.TRef sig ⟨S50000x128, .f32⟩) (broadcastInDim S50000x128 ![] bcast_S_S50000x128),
    StableHlo.TRef.binary (.of main_v140 : StableHlo.TRef sig ⟨S50000x128, .f32⟩) (.of main_call5_v0 : StableHlo.TRef sig ⟨S50000x128, .f32⟩) (.of main_call5_v1 : StableHlo.TRef sig ⟨S50000x128, .i1⟩) (cmpf .oge),
    StableHlo.TRef.unary (.of main_cst_36 : StableHlo.TRef sig ⟨S_, .f32⟩) (.of main_call5_v2 : StableHlo.TRef sig ⟨S_, .f32⟩) id,
    StableHlo.TRef.unary (.of main_call5_v2 : StableHlo.TRef sig ⟨S_, .f32⟩) (.of main_call5_v3 : StableHlo.TRef sig ⟨S50000x128, .f32⟩) (broadcastInDim S50000x128 ![] bcast_S_S50000x128),
    StableHlo.TRef.binary (.of main_call5_v3 : StableHlo.TRef sig ⟨S50000x128, .f32⟩) (.of main_v140 : StableHlo.TRef sig ⟨S50000x128, .f32⟩) (.of main_call5_v4 : StableHlo.TRef sig ⟨S50000x128, .f32⟩) mulf,
    StableHlo.TRef.ternary (.of main_call5_v1 : StableHlo.TRef sig ⟨S50000x128, .i1⟩) (.of main_v140 : StableHlo.TRef sig ⟨S50000x128, .f32⟩) (.of main_call5_v4 : StableHlo.TRef sig ⟨S50000x128, .f32⟩) (.of main_v141 : StableHlo.TRef sig ⟨S50000x128, .f32⟩) select ]

theorem lin5b_sub : (lin5b : List (HloOp τ sig (Elt F))).Forall fun op => op.bufs ⊆ tcRefs τ sig :=
  ⟨StableHlo.nullary_bufs_sub .., StableHlo.unary_bufs_sub .., StableHlo.binary_bufs_sub .., StableHlo.unary_bufs_sub .., StableHlo.unary_bufs_sub .., StableHlo.binary_bufs_sub .., StableHlo.ternary_bufs_sub ..⟩

theorem lin1_split : (lin1 : List (HloOp τ sig (Elt F))) = lin1a ++ lin1b := rfl
theorem lin3_split : (lin3 : List (HloOp τ sig (Elt F))) = lin3a ++ lin3b := rfl
theorem lin5_split : (lin5 : List (HloOp τ sig (Elt F))) = lin5a ++ lin5b := rfl

/-- The operations of the four consecutive parts of the program text. -/
def win0 : List (HloOp τ sig (Elt F)) := pre ++ (agg1 ++ lin1a)
def win1 : List (HloOp τ sig (Elt F)) := lin1b ++ (agg2 ++ (lin2 ++ (agg3 ++ lin3a)))
def win2 : List (HloOp τ sig (Elt F)) := lin3b ++ (agg4 ++ (lin4 ++ (agg5 ++ lin5a)))
def win3 : List (HloOp τ sig (Elt F)) := lin5b ++ fin

/-- All operations, in order. -/
def ops : List (HloOp τ sig (Elt F)) := win0 ++ (win1 ++ (win2 ++ win3))

/-- The same list cut by what the pieces compute. -/
theorem ops_eq : (ops : List (HloOp τ sig (Elt F)))
    = pre ++ (agg1 ++ (lin1 ++ (agg2 ++ (lin2 ++ (agg3 ++ (lin3 ++ (agg4 ++ (lin4 ++ (agg5 ++ (lin5 ++ fin)))))))))) := by
  simp only [ops, win0, win1, win2, win3, lin1_split, lin3_split, lin5_split, List.append_assoc]

private theorem forall_app {p : HloOp τ sig (Elt F) → Prop} {l₁ l₂ : List (HloOp τ sig (Elt F))} (h₁ : l₁.Forall p) (h₂ : l₂.Forall p) :
    (l₁ ++ l₂).Forall p :=
  List.forall_iff_forall_mem.mpr fun op h => (List.mem_append.mp h).elim (List.forall_iff_forall_mem.mp h₁ op) (List.forall_iff_forall_mem.mp h₂ op)

theorem ops_sub : (ops : List (HloOp τ sig (Elt F))).Forall fun op => op.bufs ⊆ tcRefs τ sig := by
  rw [ops_eq]
  exact forall_app pre_sub (forall_app agg1_sub (forall_app lin1_sub (forall_app agg2_sub (forall_app lin2_sub (forall_app agg3_sub
    (forall_app lin3_sub (forall_app agg4_sub (forall_app lin4_sub (forall_app agg5_sub (forall_app lin5_sub fin_sub))))))))))

theorem ops_fresh : (ops : List (HloOp τ sig (Elt F))).Forall fun op => op.fresh = ∅ := by
  rw [ops_eq]
  exact forall_app pre_fresh (forall_app agg1_fresh (forall_app lin1_fresh (forall_app agg2_fresh (forall_app lin2_fresh (forall_app agg3_fresh
    (forall_app lin3_fresh (forall_app agg4_fresh (forall_app lin4_fresh (forall_app agg5_fresh (forall_app lin5_fresh fin_fresh))))))))))

end Cert.ReferenceIdeal.RefOps

end
-- ==== Proof.RefRun.lean ====
/-
  The reference program runs as the straight line of its operations. Each of the four consecutive parts of the program
  text, with the outlined functions it calls opened at their call sites, is the straight line of that part's operations;
  the whole program is the four in order. From any memory with all counters zero every weakly fair execution then
  terminates, and every buffer ends at the fold of the operations' results over what the memory held at launch. No
  operation writes an argument buffer, so the seven arguments end as they began.
-/
import proofs.«153866_j65085934403701_1_alg».proof.Proof.RefOps

set_option maxRecDepth 16384

noncomputable section

namespace Cert.ReferenceIdeal.RefRun

open Cert.ReferenceIdeal Cert.ReferenceIdeal.Gen Cert.ReferenceIdeal.RefOps Idealize.ShloMosaic Idealize.ShloMosaic.TcCoe Idealize.SL.Sem Idealize.ShloMosaic.StableHlo

variable {F : FTy → Type} [FloatOps F]

set_option maxHeartbeats 4000000 in
theorem main_part0_eq (c : Dev nD) : main_part0 (F := F) c = seq win0 := rfl
set_option maxHeartbeats 4000000 in
theorem main_part1_eq (c : Dev nD) : main_part1 (F := F) c = seq win1 := rfl
set_option maxHeartbeats 4000000 in
theorem main_part2_eq (c : Dev nD) : main_part2 (F := F) c = seq win2 := rfl
set_option maxHeartbeats 4000000 in
theorem main_part3_eq (c : Dev nD) : main_part3 (F := F) c = seq win3 := rfl

/-- The program is the straight line of all its operations. -/
theorem main_eq (c : Dev nD) : main (F := F) c = seq ops := by
  show (main_part0 (F := F) c >>= fun _ => main_part1 (F := F) c >>= fun _ => main_part2 (F := F) c >>= fun _ => main_part3 (F := F) c) = _
  rw [main_part0_eq, main_part1_eq, main_part2_eq, main_part3_eq]
  unfold ops
  rw [seq_append win0, seq_append win1, seq_append win2]

theorem scopedRefs_eq : (Finset.univ.filter fun b : Ref sig .tc => b.isScoped) = ∅ := by decide
theorem scopedSems_eq : (Finset.univ.filter fun sm : SemLoc sig => sm.isScoped .tc) = ∅ := by decide

/-- Every execution terminates with every buffer at the fold of the operations over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (fun _ op h => List.forall_iff_forall_mem.mp ops_fresh op h)

private theorem writes_app {l₁ l₂ : List (HloOp τ sig (Elt F))} {w₁ w₂ : List (Ref sig .tc)}
    (h₁ : Cert.RefSSA.Writes l₁ w₁) (h₂ : Cert.RefSSA.Writes l₂ w₂) : Cert.RefSSA.Writes (l₁ ++ l₂) (w₁ ++ w₂) :=
  List.rel_append h₁ h₂

/-- The buffers the operations write, in order. -/
abbrev ops_wl : List (Ref sig .tc) := pre_wl ++ (agg1_wl ++ (lin1_wl ++ (agg2_wl ++ (lin2_wl ++ (agg3_wl ++ (lin3_wl ++ (agg4_wl ++ (lin4_wl ++ (agg5_wl ++ (lin5_wl ++ fin_wl))))))))))

theorem ops_writes : Cert.RefSSA.Writes (ops : List (HloOp τ sig (Elt F))) ops_wl := by
  rw [ops_eq]
  exact writes_app pre_writes (writes_app agg1_writes (writes_app lin1_writes (writes_app agg2_writes (writes_app lin2_writes
    (writes_app agg3_writes (writes_app lin3_writes (writes_app agg4_writes (writes_app lin4_writes (writes_app agg5_writes
      (writes_app lin5_writes fin_writes))))))))))

/-- A buffer no operation writes holds at the end what it held at launch. -/
theorem ops_keep (V : Valuation τ sig (Elt F)) {r : Ref sig .tc} (hr : r ∉ ops_wl) :
    after ops V (Proc.devRef .tc r) = V (Proc.devRef .tc r) :=
  Cert.RefSSA.after_keep ops_writes hr V

/-- Every execution terminates with the result buffer at the fold of the operations over the launch contents, read at
    that buffer, and the seven arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v149) = after ops (launchContents m c) (Proc.devRef .tc main_v149)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨h c main_v149,
      (h c main_arg0).trans (ops_keep _ (by decide)),
      (h c main_arg1).trans (ops_keep _ (by decide)),
      (h c main_arg2).trans (ops_keep _ (by decide)),
      (h c main_arg3).trans (ops_keep _ (by decide)),
      (h c main_arg4).trans (ops_keep _ (by decide)),
      (h c main_arg5).trans (ops_keep _ (by decide)),
      (h c main_arg6).trans (ops_keep _ (by decide))⟩)
    (run_fold m ρ)

end Cert.ReferenceIdeal.RefRun

end
-- ==== Proof.HostRef.lean ====
/-
  The host side of the network as functions of the arrays it reads.

  From the edge list (two rows of 800000 node numbers) the program forms the source list and the target list, each the
  corresponding row followed by the node numbers 0 … 49999 (a self-loop per node); the in-degree of every node as a
  sum of ones scattered at the targets; its inverse square root where the degree is positive, zero elsewhere; and the
  weight of an edge as the product of that quantity at its source and at its target. A node number below zero is read
  from the end (number + 50000). One round of message passing takes the node features, gathers the source's row for
  every edge, scales it by the edge's weight and adds it into the target's row, starting from zeros. Layer k's weight
  matrix is slice k of the stacked weights.
-/
import proofs.«153866_j65085934403701_1_alg».proof.ReferenceIdeal

noncomputable section

namespace Cert.ReferenceIdeal.Host

open Idealize.ShloMosaic Cert.ReferenceIdeal Cert.ReferenceIdeal.Facts₀

variable {F : FTy → Type} [FloatOps F] [Facts₀]

/-- Row k of the edge list as a flat list of 800000 node numbers. -/
def edgeRow0 (ei : (⟨S2x800000, .i32⟩ : BufTy).Contents (Elt F)) : (⟨S800000, .i32⟩ : BufTy).Contents (Elt F) :=
  fun i => shapeCast S800000 (extractStridedSlice S1x800000 ![0, 0] ei slices_S2x800000_S1x800000_0_0) shapeCasts_S1x800000_S800000 i
def edgeRow1 (ei : (⟨S2x800000, .i32⟩ : BufTy).Contents (Elt F)) : (⟨S800000, .i32⟩ : BufTy).Contents (Elt F) :=
  fun i => shapeCast S800000 (extractStridedSlice S1x800000 ![1, 0] ei slices_S2x800000_S1x800000_1_0) shapeCasts_S1x800000_S800000 i

/-- A flat list of edge ends followed by every node's own number. -/
def withLoops (e : (⟨S800000, .i32⟩ : BufTy).Contents (Elt F)) : (⟨S850000, .i32⟩ : BufTy).Contents (Elt F) :=
  concatenate S850000 0 [⟨S800000, e⟩, ⟨S50000, (iotaInDim S50000 32 0 : (⟨S50000, .i32⟩ : BufTy).Contents (Elt F))⟩] concatenates_S800000_S50000_S850000_d0

/-- The sources and the targets. -/
def rowOf (ei : (⟨S2x800000, .i32⟩ : BufTy).Contents (Elt F)) : (⟨S850000, .i32⟩ : BufTy).Contents (Elt F) := withLoops (edgeRow0 ei)
def colOf (ei : (⟨S2x800000, .i32⟩ : BufTy).Contents (Elt F)) : (⟨S850000, .i32⟩ : BufTy).Contents (Elt F) := withLoops (edgeRow1 ei)

/-- Every node's in-degree: ones added at the targets into zeros. -/
def degOf (col : (⟨S850000, .i32⟩ : BufTy).Contents (Elt F)) : (⟨S50000, .f32⟩ : BufTy).Contents (Elt F) :=
  Host.scatterAdd scatter_S50000_S850000x1_S850000_n_0_0_1
    (broadcastInDim S50000 ![] bcast_S_S50000 (constant S_ .f32 0x00000000#32))
    (broadcastInDim S850000x1 ![0] bcast_S850000_S850000x1_0 col)
    (broadcastInDim S850000 ![] bcast_S_S850000 (constant S_ .f32 0x3F800000#32))

/-- Where the degree is positive. -/
def posOf (deg : (⟨S50000, .f32⟩ : BufTy).Contents (Elt F)) : (⟨S50000, .i1⟩ : BufTy).Contents (Elt F) :=
  cmpf .ogt deg (broadcastInDim S50000 ![] bcast_S_S50000 (constant S_ .f32 0x00000000#32))

/-- The inverse square root of the degree, the degree first raised to a tiny positive floor. -/
def rsOf (deg : (⟨S50000, .f32⟩ : BufTy).Contents (Elt F)) : (⟨S50000, .f32⟩ : BufTy).Contents (Elt F) :=
  Host.rsqrt (maximumf deg (broadcastInDim S50000 ![] bcast_S_S50000 (constant S_ .f32 0x2B8CBCCC#32)))

/-- That inverse square root where the degree is positive, the given scalar elsewhere. -/
def dinvOf (pos : (⟨S50000, .i1⟩ : BufTy).Contents (Elt F)) (rs : (⟨S50000, .f32⟩ : BufTy).Contents (Elt F))
    (z : (⟨S_, .f32⟩ : BufTy).Contents (Elt F)) : (⟨S50000, .f32⟩ : BufTy).Contents (Elt F) :=
  select pos rs (broadcastInDim S50000 ![] bcast_S_S50000 (id z))

/-- A node number below zero is read from the end. -/
def wrap (r : (⟨S850000, .i32⟩ : BufTy).Contents (Elt F)) : (⟨S850000, .i32⟩ : BufTy).Contents (Elt F) :=
  select (cmpi .slt r (broadcastInDim S850000 ![] bcast_S_S850000 (constantI S_ 32 0#32)))
    (addi r (broadcastInDim S850000 ![] bcast_S_S850000 (constantI S_ 32 50000#32))) r

/-- An edge's weight: the node quantity at its source times the node quantity at its target. -/
def normOf (dinv : (⟨S50000, .f32⟩ : BufTy).Contents (Elt F)) (row col : (⟨S850000, .i32⟩ : BufTy).Contents (Elt F)) :
    (⟨S850000, .f32⟩ : BufTy).Contents (Elt F) :=
  mulf (Host.gather gather_S50000_S850000x1_S850000_n_0_n_n_0_1_1 dinv (broadcastInDim S850000x1 ![0] bcast_S850000_S850000x1_0 (wrap row)))
    (Host.gather gather_S50000_S850000x1_S850000_n_0_n_n_0_1_1 dinv (broadcastInDim S850000x1 ![0] bcast_S850000_S850000x1_0 (wrap col)))

/-- One round of message passing: every edge's source row scaled by the edge's weight, added into the target's row. -/
def prop (row col : (⟨S850000, .i32⟩ : BufTy).Contents (Elt F)) (norm : (⟨S850000, .f32⟩ : BufTy).Contents (Elt F))
    (x : (⟨S50000x128, .f32⟩ : BufTy).Contents (Elt F)) : (⟨S50000x128, .f32⟩ : BufTy).Contents (Elt F) :=
  Host.scatterAdd scatter_S50000x128_S850000x1_S850000x128_1_0_0_1
    (broadcastInDim S50000x128 ![] bcast_S_S50000x128 (constant S_ .f32 0x00000000#32))
    (broadcastInDim S850000x1 ![0] bcast_S850000_S850000x1_0 col)
    (mulf
      (broadcastInDim S850000x128 ![0, 1] bcast_S850000x1_S850000x128_0_1 (broadcastInDim S850000x1 ![0] bcast_S850000_S850000x1_0 norm))
      (Host.gather gather_S50000x128_S850000x1_S850000x128_1_0_n_n_0_1_1128 x (broadcastInDim S850000x1 ![0] bcast_S850000_S850000x1_0 (wrap row))))

/-- Layer k's weight matrix. -/
def wsl0 (cw : (⟨S5x128x128, .f32⟩ : BufTy).Contents (Elt F)) : (⟨S128x128, .f32⟩ : BufTy).Contents (Elt F) :=
  fun i => shapeCast S128x128 (extractStridedSlice S1x128x128 ![0, 0, 0] cw slices_S5x128x128_S1x128x128_0_0_0) shapeCasts_S1x128x128_S128x128 i
def wsl1 (cw : (⟨S5x128x128, .f32⟩ : BufTy).Contents (Elt F)) : (⟨S128x128, .f32⟩ : BufTy).Contents (Elt F) :=
  fun i => shapeCast S128x128 (extractStridedSlice S1x128x128 ![1, 0, 0] cw slices_S5x128x128_S1x128x128_1_0_0) shapeCasts_S1x128x128_S128x128 i
def wsl2 (cw : (⟨S5x128x128, .f32⟩ : BufTy).Contents (Elt F)) : (⟨S128x128, .f32⟩ : BufTy).Contents (Elt F) :=
  fun i => shapeCast S128x128 (extractStridedSlice S1x128x128 ![2, 0, 0] cw slices_S5x128x128_S1x128x128_2_0_0) shapeCasts_S1x128x128_S128x128 i
def wsl3 (cw : (⟨S5x128x128, .f32⟩ : BufTy).Contents (Elt F)) : (⟨S128x128, .f32⟩ : BufTy).Contents (Elt F) :=
  fun i => shapeCast S128x128 (extractStridedSlice S1x128x128 ![3, 0, 0] cw slices_S5x128x128_S1x128x128_3_0_0) shapeCasts_S1x128x128_S128x128 i
def wsl4 (cw : (⟨S5x128x128, .f32⟩ : BufTy).Contents (Elt F)) : (⟨S128x128, .f32⟩ : BufTy).Contents (Elt F) :=
  fun i => shapeCast S128x128 (extractStridedSlice S1x128x128 ![4, 0, 0] cw slices_S5x128x128_S1x128x128_4_0_0) shapeCasts_S1x128x128_S128x128 i

/-- The edge weights from the edge list alone. -/
def normOfEdges (ei : (⟨S2x800000, .i32⟩ : BufTy).Contents (Elt F)) : (⟨S850000, .f32⟩ : BufTy).Contents (Elt F) :=
  normOf (dinvOf (posOf (degOf (colOf ei))) (rsOf (degOf (colOf ei))) (constant S_ .f32 0x00000000#32)) (rowOf ei) (colOf ei)

/-- One round of message passing over the graph of the edge list. -/
def propOfEdges (ei : (⟨S2x800000, .i32⟩ : BufTy).Contents (Elt F)) (x : (⟨S50000x128, .f32⟩ : BufTy).Contents (Elt F)) :
    (⟨S50000x128, .f32⟩ : BufTy).Contents (Elt F) :=
  prop (rowOf ei) (colOf ei) (normOfEdges ei) x

end Cert.ReferenceIdeal.Host

end
-- ==== Proof.RefReadPre.lean ====
/-
  The first piece of the reference, read at the three buffers the layers use. Whatever the buffers hold before it runs,
  after it: the source list is the first row of the edge list followed by every node's own number, the target list the
  second row followed likewise, and the edge weights are, per edge, the product of the two end nodes' values, a node's
  value being the inverse square root of its count of incoming edges where that count is positive and zero elsewhere.
-/
import proofs.«153866_j65085934403701_1_alg».proof.Proof.RefOps
import proofs.«153866_j65085934403701_1_alg».proof.Proof.HostRef
import proofs.«153866_j65085934403701_1_alg».proof.Proof.LibReadBack
import proofs.«153866_j65085934403701_1_alg».proof.Proof.LibTypedRef

set_option maxRecDepth 16384

noncomputable section

namespace Cert.ReferenceIdeal.RefRead

open Cert.ReferenceIdeal Cert.ReferenceIdeal.Gen Cert.ReferenceIdeal.RefOps Cert.ReferenceIdeal.Host Idealize.ShloMosaic Idealize.ShloMosaic.TcCoe Idealize.SL.Sem Idealize.ShloMosaic.StableHlo
open Cert.Lib

variable {F : FTy → Type} [FloatOps F]

set_option maxHeartbeats 4000000 in
/-- The source list. -/
theorem pre_row (V : Valuation τ sig (Elt F)) :
    after (pre (F := F)) V (Proc.devRef .tc main_v3) = rowOf (V (Proc.devRef .tc main_arg1)) := by
  read_back
  rfl

set_option maxHeartbeats 4000000 in
/-- The target list. -/
theorem pre_col (V : Valuation τ sig (Elt F)) :
    after (pre (F := F)) V (Proc.devRef .tc main_v6) = colOf (V (Proc.devRef .tc main_arg1)) := by
  read_back
  rfl

set_option maxHeartbeats 4000000 in
/-- The edge weights. -/
theorem pre_norm (V : Valuation τ sig (Elt F)) :
    after (pre (F := F)) V (Proc.devRef .tc main_v31) = normOfEdges (V (Proc.devRef .tc main_arg1)) := by
  read_back
  simp only [ofBuf_toBuf, toBuf_ofBuf]
  rfl

end Cert.ReferenceIdeal.RefRead

end
-- ==== Proof.RefReadAgg.lean ====
/-
  The aggregation piece of each layer, read at the buffer it ends in. Whatever the buffers hold before the piece
  runs, after it the aggregated array is one round of message passing — every edge's source row of the layer's input,
  scaled by the edge's weight, added into the target's row of a zero array — of the source list, the target list and
  the edge weights as the buffers hold them, and of the layer's input.
-/
import proofs.«153866_j65085934403701_1_alg».proof.Proof.RefOps
import proofs.«153866_j65085934403701_1_alg».proof.Proof.HostRef
import proofs.«153866_j65085934403701_1_alg».proof.Proof.LibReadBack
import proofs.«153866_j65085934403701_1_alg».proof.Proof.LibTypedRef

set_option maxRecDepth 16384

noncomputable section

namespace Cert.ReferenceIdeal.RefRead

open Cert.ReferenceIdeal Cert.ReferenceIdeal.Gen Cert.ReferenceIdeal.RefOps Cert.ReferenceIdeal.Host Idealize.ShloMosaic Idealize.ShloMosaic.TcCoe Idealize.SL.Sem Idealize.ShloMosaic.StableHlo
open Cert.Lib

variable {F : FTy → Type} [FloatOps F]

set_option maxHeartbeats 4000000 in
/-- Layer 1: the aggregated array is one round of message passing on the layer's input. -/
theorem agg1_read (V : Valuation τ sig (Elt F)) :
    after (agg1 (F := F)) V (Proc.devRef .tc main_v44)
      = prop (V (Proc.devRef .tc main_v3)) (V (Proc.devRef .tc main_v6)) (V (Proc.devRef .tc main_v31)) (V (Proc.devRef .tc main_arg0)) := by
  after_results_simp
  rfl

set_option maxHeartbeats 4000000 in
/-- Layer 2: the aggregated array is one round of message passing on the layer's input. -/
theorem agg2_read (V : Valuation τ sig (Elt F)) :
    after (agg2 (F := F)) V (Proc.devRef .tc main_v66)
      = prop (V (Proc.devRef .tc main_v3)) (V (Proc.devRef .tc main_v6)) (V (Proc.devRef .tc main_v31)) (V (Proc.devRef .tc main_v53)) := by
  after_results_simp
  rfl

set_option maxHeartbeats 4000000 in
/-- Layer 3: the aggregated array is one round of message passing on the layer's input. -/
theorem agg3_read (V : Valuation τ sig (Elt F)) :
    after (agg3 (F := F)) V (Proc.devRef .tc main_v88)
      = prop (V (Proc.devRef .tc main_v3)) (V (Proc.devRef .tc main_v6)) (V (Proc.devRef .tc main_v31)) (V (Proc.devRef .tc main_v75)) := by
  after_results_simp
  rfl

set_option maxHeartbeats 4000000 in
/-- Layer 4: the aggregated array is one round of message passing on the layer's input. -/
theorem agg4_read (V : Valuation τ sig (Elt F)) :
    after (agg4 (F := F)) V (Proc.devRef .tc main_v110)
      = prop (V (Proc.devRef .tc main_v3)) (V (Proc.devRef .tc main_v6)) (V (Proc.devRef .tc main_v31)) (V (Proc.devRef .tc main_v97)) := by
  after_results_simp
  rfl

set_option maxHeartbeats 4000000 in
/-- Layer 5: the aggregated array is one round of message passing on the layer's input. -/
theorem agg5_read (V : Valuation τ sig (Elt F)) :
    after (agg5 (F := F)) V (Proc.devRef .tc main_v132)
      = prop (V (Proc.devRef .tc main_v3)) (V (Proc.devRef .tc main_v6)) (V (Proc.devRef .tc main_v31)) (V (Proc.devRef .tc main_v119)) := by
  after_results_simp
  rfl

end Cert.ReferenceIdeal.RefRead

end
-- ==== Proof.RefReadLin.lean ====
/-
  The dense piece of each layer and the final stage, read at the buffers they end in, over the extended reals.
  Whatever the buffers hold before a layer's dense piece runs, after it the layer's output is: the mix 0.9·h + 0.1·x
  of the aggregated array h and the input features x, times the layer's weight matrix, with every entry z kept when
  z ≥ 0 and scaled by the small factor elsewhere. The host contraction of the mix's second axis with the weights'
  first axis is the matrix product; the comparison with zero, the scaling and the choice are entry by entry. The final
  stage is rows times a matrix plus a row vector, twice.
-/
import proofs.«153866_j65085934403701_1_alg».proof.Proof.RefOps
import proofs.«153866_j65085934403701_1_alg».proof.Proof.HostRef
import proofs.«153866_j65085934403701_1_alg».proof.Proof.Spec
import proofs.«153866_j65085934403701_1_alg».proof.Proof.LibReadBack
import proofs.«153866_j65085934403701_1_alg».proof.Proof.LibTypedRef

set_option maxRecDepth 16384

noncomputable section

namespace Cert.ReferenceIdeal.RefRead

open Cert.ReferenceIdeal Cert.ReferenceIdeal.Gen Cert.ReferenceIdeal.RefOps Cert.ReferenceIdeal.Host Idealize.ShloMosaic Idealize.ShloMosaic.TcCoe Idealize.SL.Sem Idealize.ShloMosaic.StableHlo
open Cert.Lib

set_option maxHeartbeats 4000000 in
/-- Layer 1: the output is the layer map of the aggregated array, the input features and the layer's weights. -/
theorem lin1_read (V : Valuation τ sig (Elt Ideal)) :
    after (lin1 (F := Ideal)) V (Proc.devRef .tc main_v53)
      = Cert.Spec.layer (V (Proc.devRef .tc main_v44)) (V (Proc.devRef .tc main_arg0)) (wsl0 (V (Proc.devRef .tc main_arg2))) := by
  read_back
  simp only [ofBuf_toBuf, toBuf_ofBuf]
  have hD := Cert.LibMatProd.host_dot_eq dot_S50000x128_S128x128_S50000x128_1_0_0_1_n_n rfl rfl rfl rfl rfl rfl
    (Cert.Spec.mix (V (Proc.devRef .tc main_v44)) (V (Proc.devRef .tc main_arg0))) (wsl0 (V (Proc.devRef .tc main_arg2)))
  unfold Cert.Spec.layer
  rw [← hD]
  rfl

set_option maxHeartbeats 4000000 in
/-- Layer 2: the output is the layer map of the aggregated array, the input features and the layer's weights. -/
theorem lin2_read (V : Valuation τ sig (Elt Ideal)) :
    after (lin2 (F := Ideal)) V (Proc.devRef .tc main_v75)
      = Cert.Spec.layer (V (Proc.devRef .tc main_v66)) (V (Proc.devRef .tc main_arg0)) (wsl1 (V (Proc.devRef .tc main_arg2))) := by
  read_back
  simp only [ofBuf_toBuf, toBuf_ofBuf]
  have hD := Cert.LibMatProd.host_dot_eq dot_S50000x128_S128x128_S50000x128_1_0_0_1_n_n rfl rfl rfl rfl rfl rfl
    (Cert.Spec.mix (V (Proc.devRef .tc main_v66)) (V (Proc.devRef .tc main_arg0))) (wsl1 (V (Proc.devRef .tc main_arg2)))
  unfold Cert.Spec.layer
  rw [← hD]
  rfl

set_option maxHeartbeats 4000000 in
/-- Layer 3: the output is the layer map of the aggregated array, the input features and the layer's weights. -/
theorem lin3_read (V : Valuation τ sig (Elt Ideal)) :
    after (lin3 (F := Ideal)) V (Proc.devRef .tc main_v97)
      = Cert.Spec.layer (V (Proc.devRef .tc main_v88)) (V (Proc.devRef .tc main_arg0)) (wsl2 (V (Proc.devRef .tc main_arg2))) := by
  read_back
  simp only [ofBuf_toBuf, toBuf_ofBuf]
  have hD := Cert.LibMatProd.host_dot_eq dot_S50000x128_S128x128_S50000x128_1_0_0_1_n_n rfl rfl rfl rfl rfl rfl
    (Cert.Spec.mix (V (Proc.devRef .tc main_v88)) (V (Proc.devRef .tc main_arg0))) (wsl2 (V (Proc.devRef .tc main_arg2)))
  unfold Cert.Spec.layer
  rw [← hD]
  rfl

set_option maxHeartbeats 4000000 in
/-- Layer 4: the output is the layer map of the aggregated array, the input features and the layer's weights. -/
theorem lin4_read (V : Valuation τ sig (Elt Ideal)) :
    after (lin4 (F := Ideal)) V (Proc.devRef .tc main_v119)
      = Cert.Spec.layer (V (Proc.devRef .tc main_v110)) (V (Proc.devRef .tc main_arg0)) (wsl3 (V (Proc.devRef .tc main_arg2))) := by
  read_back
  simp only [ofBuf_toBuf, toBuf_ofBuf]
  have hD := Cert.LibMatProd.host_dot_eq dot_S50000x128_S128x128_S50000x128_1_0_0_1_n_n rfl rfl rfl rfl rfl rfl
    (Cert.Spec.mix (V (Proc.devRef .tc main_v110)) (V (Proc.devRef .tc main_arg0))) (wsl3 (V (Proc.devRef .tc main_arg2)))
  unfold Cert.Spec.layer
  rw [← hD]
  rfl

set_option maxHeartbeats 4000000 in
/-- Layer 5: the output is the layer map of the aggregated array, the input features and the layer's weights. -/
theorem lin5_read (V : Valuation τ sig (Elt Ideal)) :
    after (lin5 (F := Ideal)) V (Proc.devRef .tc main_v141)
      = Cert.Spec.layer (V (Proc.devRef .tc main_v132)) (V (Proc.devRef .tc main_arg0)) (wsl4 (V (Proc.devRef .tc main_arg2))) := by
  read_back
  simp only [ofBuf_toBuf, toBuf_ofBuf]
  have hD := Cert.LibMatProd.host_dot_eq dot_S50000x128_S128x128_S50000x128_1_0_0_1_n_n rfl rfl rfl rfl rfl rfl
    (Cert.Spec.mix (V (Proc.devRef .tc main_v132)) (V (Proc.devRef .tc main_arg0))) (wsl4 (V (Proc.devRef .tc main_arg2)))
  unfold Cert.Spec.layer
  rw [← hD]
  rfl

set_option maxHeartbeats 4000000 in
/-- The final stage: (rows · first matrix + first vector) · second matrix + second vector. -/
theorem fin_read (V : Valuation τ sig (Elt Ideal)) :
    after (fin (F := Ideal)) V (Proc.devRef .tc main_v149)
      = Cert.Spec.denseOut (V (Proc.devRef .tc main_v141)) (V (Proc.devRef .tc main_arg3)) (V (Proc.devRef .tc main_arg4))
          (V (Proc.devRef .tc main_arg5)) (V (Proc.devRef .tc main_arg6)) := by
  after_results_simp
  rw [Cert.LibPlainDot.dot_bias_eq dot_S50000x128_S128x256_S50000x256_1_0_0_1_n_n rfl rfl rfl rfl rfl rfl,
    Cert.LibPlainDot.dot_bias_eq dot_S50000x256_S256x2_S50000x2_1_0_0_1_n_n rfl rfl rfl rfl rfl rfl]
  rfl

end Cert.ReferenceIdeal.RefRead

end
-- ==== Proof.RefValue.lean ====
/-
  The value of the reference. The operations run piece by piece: the edge lists and weights, then for each of the five
  layers the aggregation and the dense part, then the final stage. The buffers the later pieces read from the earlier
  ones — the source list, the target list, the edge weights — and the argument buffers are written by no later piece,
  so each piece finds them as the first piece, or the launch, left them. Layer k's output is therefore the layer map of
  one round of message passing on layer k−1's output (the input features for k = 1), of the input features, and of
  slice k−1 of the stacked weights; and the result is the final stage of layer 5's output.
-/
import proofs.«153866_j65085934403701_1_alg».proof.Proof.RefRun
import proofs.«153866_j65085934403701_1_alg».proof.Proof.RefReadPre
import proofs.«153866_j65085934403701_1_alg».proof.Proof.RefReadAgg
import proofs.«153866_j65085934403701_1_alg».proof.Proof.RefReadLin

set_option maxRecDepth 16384

noncomputable section

namespace Cert.ReferenceIdeal.RefValue

open Cert.ReferenceIdeal Cert.ReferenceIdeal.Gen Cert.ReferenceIdeal.RefOps Cert.ReferenceIdeal.RefRead Cert.ReferenceIdeal.Host Idealize.ShloMosaic Idealize.ShloMosaic.TcCoe Idealize.SL.Sem Idealize.ShloMosaic.StableHlo
open Cert.RefSSA (after_app after_keep Writes)

/-! ## The layers' outputs as functions of the input features, the edge list and the stacked weights -/

abbrev feat1 (x : (⟨S50000x128, .f32⟩ : BufTy).Contents (Elt Ideal)) (ei : (⟨S2x800000, .i32⟩ : BufTy).Contents (Elt Ideal)) (cw : (⟨S5x128x128, .f32⟩ : BufTy).Contents (Elt Ideal)) : (⟨S50000x128, .f32⟩ : BufTy).Contents (Elt Ideal) :=
  Cert.Spec.layer (M := 50000) (K := 128) (N := 128) (propOfEdges ei x) x (wsl0 cw)
abbrev feat2 (x : (⟨S50000x128, .f32⟩ : BufTy).Contents (Elt Ideal)) (ei : (⟨S2x800000, .i32⟩ : BufTy).Contents (Elt Ideal)) (cw : (⟨S5x128x128, .f32⟩ : BufTy).Contents (Elt Ideal)) : (⟨S50000x128, .f32⟩ : BufTy).Contents (Elt Ideal) :=
  Cert.Spec.layer (M := 50000) (K := 128) (N := 128) (propOfEdges ei (feat1 x ei cw)) x (wsl1 cw)
abbrev feat3 (x : (⟨S50000x128, .f32⟩ : BufTy).Contents (Elt Ideal)) (ei : (⟨S2x800000, .i32⟩ : BufTy).Contents (Elt Ideal)) (cw : (⟨S5x128x128, .f32⟩ : BufTy).Contents (Elt Ideal)) : (⟨S50000x128, .f32⟩ : BufTy).Contents (Elt Ideal) :=
  Cert.Spec.layer (M := 50000) (K := 128) (N := 128) (propOfEdges ei (feat2 x ei cw)) x (wsl2 cw)
abbrev feat4 (x : (⟨S50000x128, .f32⟩ : BufTy).Contents (Elt Ideal)) (ei : (⟨S2x800000, .i32⟩ : BufTy).Contents (Elt Ideal)) (cw : (⟨S5x128x128, .f32⟩ : BufTy).Contents (Elt Ideal)) : (⟨S50000x128, .f32⟩ : BufTy).Contents (Elt Ideal) :=
  Cert.Spec.layer (M := 50000) (K := 128) (N := 128) (propOfEdges ei (feat3 x ei cw)) x (wsl3 cw)
abbrev feat5 (x : (⟨S50000x128, .f32⟩ : BufTy).Contents (Elt Ideal)) (ei : (⟨S2x800000, .i32⟩ : BufTy).Contents (Elt Ideal)) (cw : (⟨S5x128x128, .f32⟩ : BufTy).Contents (Elt Ideal)) : (⟨S50000x128, .f32⟩ : BufTy).Contents (Elt Ideal) :=
  Cert.Spec.layer (M := 50000) (K := 128) (N := 128) (propOfEdges ei (feat4 x ei cw)) x (wsl4 cw)

/-! ## The buffers' contents after each piece -/

/-- The buffers every later piece finds as an earlier one left them. -/
abbrev kept : List (Ref sig .tc) :=
  [main_v3, main_v6, main_v31, main_arg0, main_arg2, main_arg3, main_arg4, main_arg5, main_arg6]

theorem keep_of {l : List (HloOp τ sig (Elt Ideal))} {wl : List (Ref sig .tc)} (hw : Writes l wl) (hk : ∀ r ∈ kept, r ∉ wl)
    (W : Valuation τ sig (Elt Ideal)) {r : Ref sig .tc} (hr : r ∈ kept) :
    after l W (Proc.devRef .tc r) = W (Proc.devRef .tc r) :=
  after_keep hw (hk r hr) W

section
variable (V : Valuation τ sig (Elt Ideal))

def s0 : Valuation τ sig (Elt Ideal) := after pre V
def a1 : Valuation τ sig (Elt Ideal) := after agg1 (s0 V)
def l1 : Valuation τ sig (Elt Ideal) := after lin1 (a1 V)
def a2 : Valuation τ sig (Elt Ideal) := after agg2 (l1 V)
def l2 : Valuation τ sig (Elt Ideal) := after lin2 (a2 V)
def a3 : Valuation τ sig (Elt Ideal) := after agg3 (l2 V)
def l3 : Valuation τ sig (Elt Ideal) := after lin3 (a3 V)
def a4 : Valuation τ sig (Elt Ideal) := after agg4 (l3 V)
def l4 : Valuation τ sig (Elt Ideal) := after lin4 (a4 V)
def a5 : Valuation τ sig (Elt Ideal) := after agg5 (l4 V)
def l5 : Valuation τ sig (Elt Ideal) := after lin5 (a5 V)

theorem after_ops : after ops V = after fin (l5 V) := by
  rw [ops_eq]
  simp only [after_app]
  rfl

theorem s0_row : s0 V (Proc.devRef .tc main_v3) = rowOf (V (Proc.devRef .tc main_arg1)) := pre_row V
theorem s0_col : s0 V (Proc.devRef .tc main_v6) = colOf (V (Proc.devRef .tc main_arg1)) := pre_col V
theorem s0_norm : s0 V (Proc.devRef .tc main_v31) = normOfEdges (V (Proc.devRef .tc main_arg1)) := pre_norm V
theorem s0_arg {r : Ref sig .tc} (hr : r ∈ [main_arg0, main_arg2, main_arg3, main_arg4, main_arg5, main_arg6]) :
    s0 V (Proc.devRef .tc r) = V (Proc.devRef .tc r) :=
  after_keep pre_writes ((by decide : ∀ r ∈ [main_arg0, main_arg2, main_arg3, main_arg4, main_arg5, main_arg6], r ∉ pre_wl) r hr) V

theorem a1_kept {r : Ref sig .tc} (hr : r ∈ kept) : a1 V (Proc.devRef .tc r) = s0 V (Proc.devRef .tc r) :=
  keep_of agg1_writes (by decide) (s0 V) hr
theorem l1_kept {r : Ref sig .tc} (hr : r ∈ kept) : l1 V (Proc.devRef .tc r) = s0 V (Proc.devRef .tc r) :=
  (keep_of lin1_writes (by decide) (a1 V) hr).trans (a1_kept V hr)
theorem a2_kept {r : Ref sig .tc} (hr : r ∈ kept) : a2 V (Proc.devRef .tc r) = s0 V (Proc.devRef .tc r) :=
  (keep_of agg2_writes (by decide) (l1 V) hr).trans (l1_kept V hr)
theorem l2_kept {r : Ref sig .tc} (hr : r ∈ kept) : l2 V (Proc.devRef .tc r) = s0 V (Proc.devRef .tc r) :=
  (keep_of lin2_writes (by decide) (a2 V) hr).trans (a2_kept V hr)
theorem a3_kept {r : Ref sig .tc} (hr : r ∈ kept) : a3 V (Proc.devRef .tc r) = s0 V (Proc.devRef .tc r) :=
  (keep_of agg3_writes (by decide) (l2 V) hr).trans (l2_kept V hr)
theorem l3_kept {r : Ref sig .tc} (hr : r ∈ kept) : l3 V (Proc.devRef .tc r) = s0 V (Proc.devRef .tc r) :=
  (keep_of lin3_writes (by decide) (a3 V) hr).trans (a3_kept V hr)
theorem a4_kept {r : Ref sig .tc} (hr : r ∈ kept) : a4 V (Proc.devRef .tc r) = s0 V (Proc.devRef .tc r) :=
  (keep_of agg4_writes (by decide) (l3 V) hr).trans (l3_kept V hr)
theorem l4_kept {r : Ref sig .tc} (hr : r ∈ kept) : l4 V (Proc.devRef .tc r) = s0 V (Proc.devRef .tc r) :=
  (keep_of lin4_writes (by decide) (a4 V) hr).trans (a4_kept V hr)
theorem a5_kept {r : Ref sig .tc} (hr : r ∈ kept) : a5 V (Proc.devRef .tc r) = s0 V (Proc.devRef .tc r) :=
  (keep_of agg5_writes (by decide) (l4 V) hr).trans (l4_kept V hr)
theorem l5_kept {r : Ref sig .tc} (hr : r ∈ kept) : l5 V (Proc.devRef .tc r) = s0 V (Proc.devRef .tc r) :=
  (keep_of lin5_writes (by decide) (a5 V) hr).trans (a5_kept V hr)

/-! ## The layers' outputs -/

theorem a1_h : a1 V (Proc.devRef .tc main_v44)
    = prop (s0 V (Proc.devRef .tc main_v3)) (s0 V (Proc.devRef .tc main_v6)) (s0 V (Proc.devRef .tc main_v31)) (s0 V (Proc.devRef .tc main_arg0)) :=
  agg1_read (s0 V)

theorem l1_out : l1 V (Proc.devRef .tc main_v53)
    = feat1 (V (Proc.devRef .tc main_arg0)) (V (Proc.devRef .tc main_arg1)) (V (Proc.devRef .tc main_arg2)) := by
  have h := lin1_read (a1 V)
  rw [a1_h, a1_kept V (r := main_arg0) (by decide), a1_kept V (r := main_arg2) (by decide),
    s0_row, s0_col, s0_norm, s0_arg V (r := main_arg0) (by decide), s0_arg V (r := main_arg2) (by decide)] at h
  exact h

theorem a2_h : a2 V (Proc.devRef .tc main_v66)
    = prop (l1 V (Proc.devRef .tc main_v3)) (l1 V (Proc.devRef .tc main_v6)) (l1 V (Proc.devRef .tc main_v31)) (l1 V (Proc.devRef .tc main_v53)) :=
  agg2_read (l1 V)

theorem l2_out : l2 V (Proc.devRef .tc main_v75)
    = feat2 (V (Proc.devRef .tc main_arg0)) (V (Proc.devRef .tc main_arg1)) (V (Proc.devRef .tc main_arg2)) := by
  have h := lin2_read (a2 V)
  rw [a2_h, a2_kept V (r := main_arg0) (by decide), a2_kept V (r := main_arg2) (by decide),
    l1_kept V (r := main_v3) (by decide), l1_kept V (r := main_v6) (by decide), l1_kept V (r := main_v31) (by decide), l1_out,
    s0_row, s0_col, s0_norm, s0_arg V (r := main_arg0) (by decide), s0_arg V (r := main_arg2) (by decide)] at h
  exact h

theorem a3_h : a3 V (Proc.devRef .tc main_v88)
    = prop (l2 V (Proc.devRef .tc main_v3)) (l2 V (Proc.devRef .tc main_v6)) (l2 V (Proc.devRef .tc main_v31)) (l2 V (Proc.devRef .tc main_v75)) :=
  agg3_read (l2 V)

theorem l3_out : l3 V (Proc.devRef .tc main_v97)
    = feat3 (V (Proc.devRef .tc main_arg0)) (V (Proc.devRef .tc main_arg1)) (V (Proc.devRef .tc main_arg2)) := by
  have h := lin3_read (a3 V)
  rw [a3_h, a3_kept V (r := main_arg0) (by decide), a3_kept V (r := main_arg2) (by decide),
    l2_kept V (r := main_v3) (by decide), l2_kept V (r := main_v6) (by decide), l2_kept V (r := main_v31) (by decide), l2_out,
    s0_row, s0_col, s0_norm, s0_arg V (r := main_arg0) (by decide), s0_arg V (r := main_arg2) (by decide)] at h
  exact h

theorem a4_h : a4 V (Proc.devRef .tc main_v110)
    = prop (l3 V (Proc.devRef .tc main_v3)) (l3 V (Proc.devRef .tc main_v6)) (l3 V (Proc.devRef .tc main_v31)) (l3 V (Proc.devRef .tc main_v97)) :=
  agg4_read (l3 V)

theorem l4_out : l4 V (Proc.devRef .tc main_v119)
    = feat4 (V (Proc.devRef .tc main_arg0)) (V (Proc.devRef .tc main_arg1)) (V (Proc.devRef .tc main_arg2)) := by
  have h := lin4_read (a4 V)
  rw [a4_h, a4_kept V (r := main_arg0) (by decide), a4_kept V (r := main_arg2) (by decide),
    l3_kept V (r := main_v3) (by decide), l3_kept V (r := main_v6) (by decide), l3_kept V (r := main_v31) (by decide), l3_out,
    s0_row, s0_col, s0_norm, s0_arg V (r := main_arg0) (by decide), s0_arg V (r := main_arg2) (by decide)] at h
  exact h

theorem a5_h : a5 V (Proc.devRef .tc main_v132)
    = prop (l4 V (Proc.devRef .tc main_v3)) (l4 V (Proc.devRef .tc main_v6)) (l4 V (Proc.devRef .tc main_v31)) (l4 V (Proc.devRef .tc main_v119)) :=
  agg5_read (l4 V)

theorem l5_out : l5 V (Proc.devRef .tc main_v141)
    = feat5 (V (Proc.devRef .tc main_arg0)) (V (Proc.devRef .tc main_arg1)) (V (Proc.devRef .tc main_arg2)) := by
  have h := lin5_read (a5 V)
  rw [a5_h, a5_kept V (r := main_arg0) (by decide), a5_kept V (r := main_arg2) (by decide),
    l4_kept V (r := main_v3) (by decide), l4_kept V (r := main_v6) (by decide), l4_kept V (r := main_v31) (by decide), l4_out,
    s0_row, s0_col, s0_norm, s0_arg V (r := main_arg0) (by decide), s0_arg V (r := main_arg2) (by decide)] at h
  exact h

end

/-! ## The result -/

/-- The fold of all operations, read at the result buffer: the final stage of layer 5's output. -/
theorem value (V : Valuation τ sig (Elt Ideal)) :
    after (ops (F := Ideal)) V (Proc.devRef .tc main_v149)
      = Cert.Spec.denseOut (feat5 (V (Proc.devRef .tc main_arg0)) (V (Proc.devRef .tc main_arg1)) (V (Proc.devRef .tc main_arg2)))
          (V (Proc.devRef .tc main_arg3)) (V (Proc.devRef .tc main_arg4)) (V (Proc.devRef .tc main_arg5)) (V (Proc.devRef .tc main_arg6)) := by
  rw [after_ops, fin_read, l5_out, l5_kept V (r := main_arg3) (by decide), l5_kept V (r := main_arg4) (by decide),
    l5_kept V (r := main_arg5) (by decide), l5_kept V (r := main_arg6) (by decide),
    s0_arg V (r := main_arg3) (by decide), s0_arg V (r := main_arg4) (by decide), s0_arg V (r := main_arg5) (by decide),
    s0_arg V (r := main_arg6) (by decide)]

/-- Every execution of the reference terminates with the result buffer at the final stage of layer 5's output, as a
    function of the seven arguments' launch contents, and the seven arguments unchanged. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v149)
        = Cert.Spec.denseOut (feat5 (m ((c.tc : Thread nD τ).loc main_arg0)) (m ((c.tc : Thread nD τ).loc main_arg1)) (m ((c.tc : Thread nD τ).loc main_arg2)))
            (m ((c.tc : Thread nD τ).loc main_arg3)) (m ((c.tc : Thread nD τ).loc main_arg4))
            (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run (defs (F := Ideal)) _ _).mono (fun _ h c => ⟨(h c).1.trans (value (launchContents m c)), (h c).2⟩)
    (Cert.ReferenceIdeal.RefRun.run (F := Ideal) m ρ)

end Cert.ReferenceIdeal.RefValue

end
-- ==== Proof.HostBridge.lean ====
/-
  The host side of the network is written twice, once over each program's own names for the array shapes, the
  dimension records of its gathers and scatters, and the side conditions of its re-lays. The two programs name the same
  shapes (the same lists of extents), the same records (the same lists of axes) and side conditions that are
  propositions about those, so the two writings are the same functions: each definition of one copy unfolds to the
  same term as its twin, the leaves directly and every composite one through its parts.
-/
import proofs.«153866_j65085934403701_1_alg».proof.Proof.HostKer
import proofs.«153866_j65085934403701_1_alg».proof.Proof.HostRef

set_option maxHeartbeats 400000

noncomputable section

namespace Cert.HostBridge

open Idealize.ShloMosaic

variable {F : FTy → Type} [FloatOps F] [Cert.KernelIdeal.Facts₀] [Cert.ReferenceIdeal.Facts₀]

/-! ## The dimension records -/

theorem scatter_deg_eq : Cert.KernelIdeal.scatter_S50000_S850000x1_S850000_n_0_0_1 = Cert.ReferenceIdeal.scatter_S50000_S850000x1_S850000_n_0_0_1 := rfl
theorem gather_node_eq : Cert.KernelIdeal.gather_S50000_S850000x1_S850000_n_0_n_n_0_1_1 = Cert.ReferenceIdeal.gather_S50000_S850000x1_S850000_n_0_n_n_0_1_1 := rfl
theorem gather_rows_eq : Cert.KernelIdeal.gather_S50000x128_S850000x1_S850000x128_1_0_n_n_0_1_1128 = Cert.ReferenceIdeal.gather_S50000x128_S850000x1_S850000x128_1_0_n_n_0_1_1128 := rfl
theorem scatter_rows_eq : Cert.KernelIdeal.scatter_S50000x128_S850000x1_S850000x128_1_0_0_1 = Cert.ReferenceIdeal.scatter_S50000x128_S850000x1_S850000x128_1_0_0_1 := rfl

/-! ## The leaves -/

/-- The two rows of the edge list. -/
theorem edgeRow0_eq (ei : (⟨Cert.KernelIdeal.S2x800000, .i32⟩ : BufTy).Contents (Elt F)) : Cert.KernelIdeal.Host.edgeRow0 ei = Cert.ReferenceIdeal.Host.edgeRow0 ei := rfl
theorem edgeRow1_eq (ei : (⟨Cert.KernelIdeal.S2x800000, .i32⟩ : BufTy).Contents (Elt F)) : Cert.KernelIdeal.Host.edgeRow1 ei = Cert.ReferenceIdeal.Host.edgeRow1 ei := rfl

/-- A list of edge ends followed by every node's own number. -/
theorem withLoops_eq (e : (⟨Cert.KernelIdeal.S800000, .i32⟩ : BufTy).Contents (Elt F)) : Cert.KernelIdeal.Host.withLoops e = Cert.ReferenceIdeal.Host.withLoops e := rfl

/-- The in-degrees. -/
theorem degOf_eq (col : (⟨Cert.KernelIdeal.S850000, .i32⟩ : BufTy).Contents (Elt F)) : Cert.KernelIdeal.Host.degOf col = Cert.ReferenceIdeal.Host.degOf col := by
  unfold Cert.KernelIdeal.Host.degOf Cert.ReferenceIdeal.Host.degOf
  rw [scatter_deg_eq]

/-- Where the degree is positive; its inverse square root; the choice between that and a scalar. -/
theorem posOf_eq (deg : (⟨Cert.KernelIdeal.S50000, .f32⟩ : BufTy).Contents (Elt F)) : Cert.KernelIdeal.Host.posOf deg = Cert.ReferenceIdeal.Host.posOf deg := rfl
theorem rsOf_eq (deg : (⟨Cert.KernelIdeal.S50000, .f32⟩ : BufTy).Contents (Elt F)) : Cert.KernelIdeal.Host.rsOf deg = Cert.ReferenceIdeal.Host.rsOf deg := rfl
theorem dinvOf_eq (pos : (⟨Cert.KernelIdeal.S50000, .i1⟩ : BufTy).Contents (Elt F)) (rs : (⟨Cert.KernelIdeal.S50000, .f32⟩ : BufTy).Contents (Elt F)) (z : (⟨Cert.KernelIdeal.S_, .f32⟩ : BufTy).Contents (Elt F)) :
    Cert.KernelIdeal.Host.dinvOf pos rs z = Cert.ReferenceIdeal.Host.dinvOf pos rs z := rfl

/-- Reading a negative node number from the end. -/
theorem wrap_eq (r : (⟨Cert.KernelIdeal.S850000, .i32⟩ : BufTy).Contents (Elt F)) : Cert.KernelIdeal.Host.wrap r = Cert.ReferenceIdeal.Host.wrap r := rfl

/-- Each layer's slice of the stacked weights. -/
theorem wsl0_eq (cw : (⟨Cert.KernelIdeal.S5x128x128, .f32⟩ : BufTy).Contents (Elt F)) : Cert.KernelIdeal.Host.wsl0 cw = Cert.ReferenceIdeal.Host.wsl0 cw := rfl
theorem wsl1_eq (cw : (⟨Cert.KernelIdeal.S5x128x128, .f32⟩ : BufTy).Contents (Elt F)) : Cert.KernelIdeal.Host.wsl1 cw = Cert.ReferenceIdeal.Host.wsl1 cw := rfl
theorem wsl2_eq (cw : (⟨Cert.KernelIdeal.S5x128x128, .f32⟩ : BufTy).Contents (Elt F)) : Cert.KernelIdeal.Host.wsl2 cw = Cert.ReferenceIdeal.Host.wsl2 cw := rfl
theorem wsl3_eq (cw : (⟨Cert.KernelIdeal.S5x128x128, .f32⟩ : BufTy).Contents (Elt F)) : Cert.KernelIdeal.Host.wsl3 cw = Cert.ReferenceIdeal.Host.wsl3 cw := rfl
theorem wsl4_eq (cw : (⟨Cert.KernelIdeal.S5x128x128, .f32⟩ : BufTy).Contents (Elt F)) : Cert.KernelIdeal.Host.wsl4 cw = Cert.ReferenceIdeal.Host.wsl4 cw := rfl

/-! ## The composites, through their parts -/

/-- The sources and the targets. -/
theorem rowOf_eq (ei : (⟨Cert.KernelIdeal.S2x800000, .i32⟩ : BufTy).Contents (Elt F)) : Cert.KernelIdeal.Host.rowOf ei = Cert.ReferenceIdeal.Host.rowOf ei := by
  unfold Cert.KernelIdeal.Host.rowOf Cert.ReferenceIdeal.Host.rowOf
  rw [edgeRow0_eq, withLoops_eq]
theorem colOf_eq (ei : (⟨Cert.KernelIdeal.S2x800000, .i32⟩ : BufTy).Contents (Elt F)) : Cert.KernelIdeal.Host.colOf ei = Cert.ReferenceIdeal.Host.colOf ei := by
  unfold Cert.KernelIdeal.Host.colOf Cert.ReferenceIdeal.Host.colOf
  rw [edgeRow1_eq, withLoops_eq]

/-- An edge's weight from the node quantity and the two lists of ends. -/
theorem normOf_eq (dinv : (⟨Cert.KernelIdeal.S50000, .f32⟩ : BufTy).Contents (Elt F)) (row col : (⟨Cert.KernelIdeal.S850000, .i32⟩ : BufTy).Contents (Elt F)) :
    Cert.KernelIdeal.Host.normOf dinv row col = Cert.ReferenceIdeal.Host.normOf dinv row col := by
  unfold Cert.KernelIdeal.Host.normOf Cert.ReferenceIdeal.Host.normOf
  rw [wrap_eq row, wrap_eq col, gather_node_eq]

/-- One round of message passing from the two lists of ends, the weights and the features. -/
theorem prop_eq (row col : (⟨Cert.KernelIdeal.S850000, .i32⟩ : BufTy).Contents (Elt F)) (norm : (⟨Cert.KernelIdeal.S850000, .f32⟩ : BufTy).Contents (Elt F)) (x : (⟨Cert.KernelIdeal.S50000x128, .f32⟩ : BufTy).Contents (Elt F)) :
    Cert.KernelIdeal.Host.prop row col norm x = Cert.ReferenceIdeal.Host.prop row col norm x := by
  unfold Cert.KernelIdeal.Host.prop Cert.ReferenceIdeal.Host.prop
  rw [wrap_eq row, gather_rows_eq, scatter_rows_eq]

/-- The edge weights from the edge list alone. -/
theorem normOfEdges_eq (ei : (⟨Cert.KernelIdeal.S2x800000, .i32⟩ : BufTy).Contents (Elt F)) : Cert.KernelIdeal.Host.normOfEdges ei = Cert.ReferenceIdeal.Host.normOfEdges ei := by
  unfold Cert.KernelIdeal.Host.normOfEdges Cert.ReferenceIdeal.Host.normOfEdges
  rw [rowOf_eq, colOf_eq, degOf_eq, posOf_eq, rsOf_eq, dinvOf_eq, normOf_eq]

/-- One round of message passing over the graph of the edge list. -/
theorem propOfEdges_eq (ei : (⟨Cert.KernelIdeal.S2x800000, .i32⟩ : BufTy).Contents (Elt F)) (x : (⟨Cert.KernelIdeal.S50000x128, .f32⟩ : BufTy).Contents (Elt F)) :
    Cert.KernelIdeal.Host.propOfEdges ei x = Cert.ReferenceIdeal.Host.propOfEdges ei x := by
  unfold Cert.KernelIdeal.Host.propOfEdges Cert.ReferenceIdeal.Host.propOfEdges
  rw [rowOf_eq, colOf_eq, normOfEdges_eq, prop_eq]

end Cert.HostBridge

end
-- ==== Proof.lean ====
/-
  A five-layer graph network, tiled kernel against plain array code, over the extended reals.

  Both programs compute, from the node features x, the edge list, five 128 by 128 weight matrices and a final affine
  stage, the same quantities in the same order: the edge weights and one round of message passing h (gather the
  source's row, scale, add into the target's row) by the same host operations; then per layer the entries
  z ↦ z if z ≥ 0 else 0.01·z of (0.9·h + 0.1·x) times the layer's weights; at the end (x5 · w_dense + b_dense) · w_out
  + b_out. The kernel program does each layer's dense part and the final stage in tiles of 2000 rows, its operands
  narrowed to bf16 on the way into the matrix unit; on exact values narrowing is the identity, a matrix unit's product
  into a zero accumulator and a host contraction are the same sum over the contracted index, and a tile of rows of a
  product depends only on those rows. So the two results are one function of the arguments, and no algebraic law
  beyond that is used: the precondition is never opened.
-/
import proofs.«153866_j65085934403701_1_alg».proof.Defs
import proofs.«153866_j65085934403701_1_alg».proof.Proof.Gen.Kernel
import proofs.«153866_j65085934403701_1_alg».proof.Proof.Gen.Kernel.Frame
import proofs.«153866_j65085934403701_1_alg».proof.Proof.Gen.KernelIdeal
import proofs.«153866_j65085934403701_1_alg».proof.Proof.Gen.KernelIdeal.Frame
import proofs.«153866_j65085934403701_1_alg».proof.Proof.Gen.ReferenceIdeal
import proofs.«153866_j65085934403701_1_alg».proof.Proof.Gen.Pre_finite_inputs
import proofs.«153866_j65085934403701_1_alg».proof.Proof.KernelRun
import proofs.«153866_j65085934403701_1_alg».proof.Proof.KerChain
import proofs.«153866_j65085934403701_1_alg».proof.Proof.RefRun
import proofs.«153866_j65085934403701_1_alg».proof.Proof.RefValue
import proofs.«153866_j65085934403701_1_alg».proof.Proof.HostBridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization rewrote nothing. -/
theorem preserves : Cert.preserves_Kernel_KernelIdeal := trivial

theorem algebraic : Cert.algebraic_KernelIdeal_ReferenceIdeal := by
  intro m ρ m' ρ' _ hagree
  refine ⟨fun c => Cert.KernelIdeal.Chain.result m c, ?_, ?_⟩
  · exact (θ_run Cert.KernelIdeal.defs _ _).mono
      (fun r h c => ⟨(h c).1.trans (Cert.KernelIdeal.Chain.result_eq m ρ c), (h c).2⟩)
      (Cert.KernelIdeal.Run.run_named (F := Ideal) m ρ)
  · refine (θ_run Cert.ReferenceIdeal.defs _ _).mono (fun r h c => ⟨(h c).1.trans ?_, (h c).2⟩)
      (Cert.ReferenceIdeal.RefValue.run_value m' ρ')
    have e0 := (hagree c).1
    have e1 := (hagree c).2.1
    have e2 := (hagree c).2.2.1
    have e3 := (hagree c).2.2.2.1
    have e4 := (hagree c).2.2.2.2.1
    have e5 := (hagree c).2.2.2.2.2.1
    have e6 := (hagree c).2.2.2.2.2.2
    rw [e0, e1, e2, e3, e4, e5, e6]
    symm
    unfold Cert.KernelIdeal.Chain.result Cert.KernelIdeal.Chain.X5 Cert.KernelIdeal.Chain.X4 Cert.KernelIdeal.Chain.X3
      Cert.KernelIdeal.Chain.X2 Cert.KernelIdeal.Chain.X1
    simp only [Cert.HostBridge.propOfEdges_eq, Cert.HostBridge.wsl0_eq, Cert.HostBridge.wsl1_eq, Cert.HostBridge.wsl2_eq,
      Cert.HostBridge.wsl3_eq, Cert.HostBridge.wsl4_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
